-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x512 .f32 .bf16
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.truncf_extf.Statement Cert.KernelIdeal.S64x512 .f32 .bf16
  ∧ IdealRules.sign_bit.Statement Cert.KernelIdeal.S64x1024 .f32
  ∧ IdealRules.sign_bit.Statement Cert.KernelIdeal.S64x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x43x512 : Shape := ⟨3, ![512, 43, 512]⟩
abbrev S8192x512 : Shape := ⟨2, ![8192, 512]⟩
abbrev S4096x8192 : Shape := ⟨2, ![4096, 8192]⟩
abbrev S43x8192 : Shape := ⟨2, ![43, 8192]⟩
abbrev S_ : Shape := ⟨0, ![]⟩

class Facts : Prop where
  bcast_S_S512x43x512 : S_.BroadcastsInDim S512x43x512 (![] : Fin 0 → Fin S512x43x512.rank)
  reducesTo_S512x43x512_S_d0_1_2 : S512x43x512.ReducesTo [0, 1, 2] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S43x8192 : S_.BroadcastsInDim S43x8192 (![] : Fin 0 → Fin S43x8192.rank)
  reducesTo_S43x8192_S_d0_1 : S43x8192.ReducesTo [0, 1] S_

variable [Facts]

def fn_part1 {F : FTy → Type} [FloatOps F] (main_v13 : IVec S_ 1) (main_v16 : IVec S43x8192 1) : IVec S_ 1 :=
  let main_c_5 : IVec S_ 1 := constantI S_ 1 1#1
  let main_v17 : IVec S_ 1 := (fun x v => Host.reduce IntOp.andi x v reducesTo_S43x8192_S_d0_1 h_S_) main_v16 main_c_5
  let main_v18 : IVec S_ 1 := andi main_v13 main_v17
  main_v18

def fn {F : FTy → Type} [FloatOps F] (main_arg0 : FVec F S512x43x512 .f32) (main_arg1 : FVec F S8192x512 .f32) (main_arg2 : FVec F S4096x8192 .f32) (main_arg3 : FVec F S43x8192 .f32) : IVec S_ 1 :=
  let main_v0 : FVec F S512x43x512 .f32 := Host.absf main_arg0
  let main_cst : FVec F S_ .f32 := constant S_ .f32 0x7F800000#32
  let main_v1 : FVec F S512x43x512 .f32 := broadcastInDim S512x43x512 ![] bcast_S_S512x43x512 main_cst
  let main_v2 : IVec S512x43x512 1 := cmpf .olt main_v0 main_v1
  let main_c : IVec S_ 1 := constantI S_ 1 1#1
  let main_v3 : IVec S_ 1 := (fun x v => Host.reduce IntOp.andi x v reducesTo_S512x43x512_S_d0_1_2 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S4096x8192 .f32 := Host.absf main_arg2
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  let main_v14 : FVec F S43x8192 .f32 := Host.absf main_arg3
  let main_cst_4 : FVec F S_ .f32 := constant S_ .f32 0x7F800000#32
  let main_v15 : FVec F S43x8192 .f32 := broadcastInDim S43x8192 ![] bcast_S_S43x8192 main_cst_4
  let main_v16 : IVec S43x8192 1 := cmpf .olt main_v14 main_v15
  fn_part1 (F := F) main_v13 main_v16
-- ==== Kernel.lean ====
abbrev S512x43x512 : Shape := ⟨3, ![512, 43, 512]⟩
abbrev S8192x512 : Shape := ⟨2, ![8192, 512]⟩
abbrev S4096x8192 : Shape := ⟨2, ![4096, 8192]⟩
abbrev S43x8192 : Shape := ⟨2, ![43, 8192]⟩
abbrev S512x8192 : Shape := ⟨2, ![512, 8192]⟩
abbrev S64x43x512 : Shape := ⟨3, ![64, 43, 512]⟩
abbrev S1024x512 : Shape := ⟨2, ![1024, 512]⟩
abbrev S43x1024 : Shape := ⟨2, ![43, 1024]⟩
abbrev S64x1024 : Shape := ⟨2, ![64, 1024]⟩
abbrev S64x1x512 : Shape := ⟨3, ![64, 1, 512]⟩
abbrev S64x512 : Shape := ⟨2, ![64, 512]⟩
abbrev S1x1024 : Shape := ⟨2, ![1, 1024]⟩
abbrev S1024 : Shape := ⟨1, ![1024]⟩
abbrev S512x4096 : Shape := ⟨2, ![512, 4096]⟩
abbrev S128x2048 : Shape := ⟨2, ![128, 2048]⟩
abbrev S1024x2048 : Shape := ⟨2, ![1024, 2048]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x43x512, .f32⟩
  | .hbm, ⟨1, _⟩ => ⟨S8192x512, .f32⟩
  | .hbm, ⟨2, _⟩ => ⟨S4096x8192, .f32⟩
  | .hbm, ⟨3, _⟩ => ⟨S43x8192, .f32⟩
  | .hbm, ⟨4, _⟩ => ⟨S512x8192, .f32⟩
  | .hbm, ⟨5, _⟩ => ⟨S512x8192, .bf16⟩
  | .hbm, ⟨6, _⟩ => ⟨S4096x8192, .bf16⟩
  | .hbm, ⟨7, _⟩ => ⟨S512x4096, .f32⟩
  | .local _ .vmem, ⟨0, _⟩ => ⟨S64x43x512, .f32⟩
  | .local _ .vmem, ⟨1, _⟩ => ⟨S64x43x512, .f32⟩
  | .local _ .vmem, ⟨2, _⟩ => ⟨S1024x512, .f32⟩
  | .local _ .vmem, ⟨3, _⟩ => ⟨S1024x512, .f32⟩
  | .local _ .vmem, ⟨4, _⟩ => ⟨S43x1024, .f32⟩
  | .local _ .vmem, ⟨5, _⟩ => ⟨S43x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S128x2048, .bf16⟩
  | .local _ .vmem, ⟨10, _⟩ => ⟨S128x2048, .bf16⟩
  | .local _ .vmem, ⟨11, _⟩ => ⟨S1024x2048, .bf16⟩
  | .local _ .vmem, ⟨12, _⟩ => ⟨S1024x2048, .bf16⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S512x43x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [BitOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x43x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S43x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S64x43x512_S64x1x512_0_0_0 : ∀ a, (![0, 0, 0] : Fin 3 → Nat) a + S64x1x512.size a ≤ S64x43x512.size a
  h_S64x1x512 : 0 < S64x1x512.numel
  shapeCasts_S64x1x512_S64x512 : S64x1x512.ShapeCasts S64x512
  inb_S43x1024_S1x1024_0_0 : ∀ a, (![0, 0] : Fin 2 → Nat) a + S1x1024.size a ≤ S43x1024.size a
  h_S1x1024 : 0 < S1x1024.numel
  shapeCasts_S1x1024_S1024 : S1x1024.ShapeCasts S1024
  shapeCasts_S1024_S1x1024 : S1024.ShapeCasts S1x1024
  broadcasts_S1x1024_S64x1024 : S1x1024.Broadcasts S64x1024
  inb_S64x43x512_S64x1x512_0_1_0 : ∀ a, (![0, 1, 0] : Fin 3 → Nat) a + S64x1x512.size a ≤ S64x43x512.size a
  inb_S43x1024_S1x1024_1_0 : ∀ a, (![1, 0] : Fin 2 → Nat) a + S1x1024.size a ≤ S43x1024.size a
  inb_S64x43x512_S64x1x512_0_2_0 : ∀ a, (![0, 2, 0] : Fin 3 → Nat) a + S64x1x512.size a ≤ S64x43x512.size a
  inb_S43x1024_S1x1024_2_0 : ∀ a, (![2, 0] : Fin 2 → Nat) a + S1x1024.size a ≤ S43x1024.size a
  inb_S64x43x512_S64x1x512_0_3_0 : ∀ a, (![0, 3, 0] : Fin 3 → Nat) a + S64x1x512.size a ≤ S64x43x512.size a
  inb_S43x1024_S1x1024_3_0 : ∀ a, (![3, 0] : Fin 2 → Nat) a + S1x1024.size a ≤ S43x1024.size a
  inb_S64x43x512_S64x1x512_0_4_0 : ∀ a, (![0, 4, 0] : Fin 3 → Nat) a + S64x1x512.size a ≤ S64x43x512.size a
  inb_S43x1024_S1x1024_4_0 : ∀ a, (![4, 0] : Fin 2 → Nat) a + S1x1024.size a ≤ S43x1024.size a
  inb_S64x43x512_S64x1x512_0_5_0 : ∀ a, (![0, 5, 0] : Fin 3 → Nat) a + S64x1x512.size a ≤ S64x43x512.size a
  inb_S43x1024_S1x1024_5_0 : ∀ a, (![5, 0] : Fin 2 → Nat) a + S1x1024.size a ≤ S43x1024.size a
  inb_S64x43x512_S64x1x512_0_6_0 : ∀ a, (![0, 6, 0] : Fin 3 → Nat) a + S64x1x512.size a ≤ S64x43x512.size a
  inb_S43x1024_S1x1024_6_0 : ∀ a, (![6, 0] : Fin 2 → Nat) a + S1x1024.size a ≤ S43x1024.size a
  inb_S64x43x512_S64x1x512_0_7_0 : ∀ a, (![0, 7, 0] : Fin 3 → Nat) a + S64x1x512.size a ≤ S64x43x512.size a
  inb_S43x1024_S1x1024_7_0 : ∀ a, (![7, 0] : Fin 2 → Nat) a + S1x1024.size a ≤ S43x1024.size a
  inb_S64x43x512_S64x1x512_0_8_0 : ∀ a, (![0, 8, 0] : Fin 3 → Nat) a + S64x1x512.size a ≤ S64x43x512.size a
  inb_S43x1024_S1x1024_8_0 : ∀ a, (![8, 0] : Fin 2 → Nat) a + S1x1024.size a ≤ S43x1024.size a
  inb_S64x43x512_S64x1x512_0_9_0 : ∀ a, (![0, 9, 0] : Fin 3 → Nat) a + S64x1x512.size a ≤ S64x43x512.size a
  inb_S43x1024_S1x1024_9_0 : ∀ a, (![9, 0] : Fin 2 → Nat) a + S1x1024.size a ≤ S43x1024.size a
  inb_S64x43x512_S64x1x512_0_10_0 : ∀ a, (![0, 10, 0] : Fin 3 → Nat) a + S64x1x512.size a ≤ S64x43x512.size a
  inb_S43x1024_S1x1024_10_0 : ∀ a, (![10, 0] : Fin 2 → Nat) a + S1x1024.size a ≤ S43x1024.size a
  inb_S64x43x512_S64x1x512_0_11_0 : ∀ a, (![0, 11, 0] : Fin 3 → Nat) a + S64x1x512.size a ≤ S64x43x512.size a
  inb_S43x1024_S1x1024_11_0 : ∀ a, (![11, 0] : Fin 2 → Nat) a + S1x1024.size a ≤ S43x1024.size a
  inb_S64x43x512_S64x1x512_0_12_0 : ∀ a, (![0, 12, 0] : Fin 3 → Nat) a + S64x1x512.size a ≤ S64x43x512.size a
  inb_S43x1024_S1x1024_12_0 : ∀ a, (![12, 0] : Fin 2 → Nat) a + S1x1024.size a ≤ S43x1024.size a
  inb_S64x43x512_S64x1x512_0_13_0 : ∀ a, (![0, 13, 0] : Fin 3 → Nat) a + S64x1x512.size a ≤ S64x43x512.size a
  inb_S43x1024_S1x1024_13_0 : ∀ a, (![13, 0] : Fin 2 → Nat) a + S1x1024.size a ≤ S43x1024.size a
  inb_S64x43x512_S64x1x512_0_14_0 : ∀ a, (![0, 14, 0] : Fin 3 → Nat) a + S64x1x512.size a ≤ S64x43x512.size a
  inb_S43x1024_S1x1024_14_0 : ∀ a, (![14, 0] : Fin 2 → Nat) a + S1x1024.size a ≤ S43x1024.size a
  inb_S64x43x512_S64x1x512_0_15_0 : ∀ a, (![0, 15, 0] : Fin 3 → Nat) a + S64x1x512.size a ≤ S64x43x512.size a
  inb_S43x1024_S1x1024_15_0 : ∀ a, (![15, 0] : Fin 2 → Nat) a + S1x1024.size a ≤ S43x1024.size a
  inb_S64x43x512_S64x1x512_0_16_0 : ∀ a, (![0, 16, 0] : Fin 3 → Nat) a + S64x1x512.size a ≤ S64x43x512.size a
  inb_S43x1024_S1x1024_16_0 : ∀ a, (![16, 0] : Fin 2 → Nat) a + S1x1024.size a ≤ S43x1024.size a
  inb_S64x43x512_S64x1x512_0_17_0 : ∀ a, (![0, 17, 0] : Fin 3 → Nat) a + S64x1x512.size a ≤ S64x43x512.size a
  inb_S43x1024_S1x1024_17_0 : ∀ a, (![17, 0] : Fin 2 → Nat) a + S1x1024.size a ≤ S43x1024.size a
  inb_S64x43x512_S64x1x512_0_18_0 : ∀ a, (![0, 18, 0] : Fin 3 → Nat) a + S64x1x512.size a ≤ S64x43x512.size a
  inb_S43x1024_S1x1024_18_0 : ∀ a, (![18, 0] : Fin 2 → Nat) a + S1x1024.size a ≤ S43x1024.size a
  inb_S64x43x512_S64x1x512_0_19_0 : ∀ a, (![0, 19, 0] : Fin 3 → Nat) a + S64x1x512.size a ≤ S64x43x512.size a
  inb_S43x1024_S1x1024_19_0 : ∀ a, (![19, 0] : Fin 2 → Nat) a + S1x1024.size a ≤ S43x1024.size a
  inb_S64x43x512_S64x1x512_0_20_0 : ∀ a, (![0, 20, 0] : Fin 3 → Nat) a + S64x1x512.size a ≤ S64x43x512.size a
  inb_S43x1024_S1x1024_20_0 : ∀ a, (![20, 0] : Fin 2 → Nat) a + S1x1024.size a ≤ S43x1024.size a
  inb_S64x43x512_S64x1x512_0_21_0 : ∀ a, (![0, 21, 0] : Fin 3 → Nat) a + S64x1x512.size a ≤ S64x43x512.size a
  inb_S43x1024_S1x1024_21_0 : ∀ a, (![21, 0] : Fin 2 → Nat) a + S1x1024.size a ≤ S43x1024.size a
  inb_S64x43x512_S64x1x512_0_22_0 : ∀ a, (![0, 22, 0] : Fin 3 → Nat) a + S64x1x512.size a ≤ S64x43x512.size a
  inb_S43x1024_S1x1024_22_0 : ∀ a, (![22, 0] : Fin 2 → Nat) a + S1x1024.size a ≤ S43x1024.size a
  inb_S64x43x512_S64x1x512_0_23_0 : ∀ a, (![0, 23, 0] : Fin 3 → Nat) a + S64x1x512.size a ≤ S64x43x512.size a
  inb_S43x1024_S1x1024_23_0 : ∀ a, (![23, 0] : Fin 2 → Nat) a + S1x1024.size a ≤ S43x1024.size a
  inb_S64x43x512_S64x1x512_0_24_0 : ∀ a, (![0, 24, 0] : Fin 3 → Nat) a + S64x1x512.size a ≤ S64x43x512.size a
  inb_S43x1024_S1x1024_24_0 : ∀ a, (![24, 0] : Fin 2 → Nat) a + S1x1024.size a ≤ S43x1024.size a
  inb_S64x43x512_S64x1x512_0_25_0 : ∀ a, (![0, 25, 0] : Fin 3 → Nat) a + S64x1x512.size a ≤ S64x43x512.size a
  inb_S43x1024_S1x1024_25_0 : ∀ a, (![25, 0] : Fin 2 → Nat) a + S1x1024.size a ≤ S43x1024.size a
  inb_S64x43x512_S64x1x512_0_26_0 : ∀ a, (![0, 26, 0] : Fin 3 → Nat) a + S64x1x512.size a ≤ S64x43x512.size a
  inb_S43x1024_S1x1024_26_0 : ∀ a, (![26, 0] : Fin 2 → Nat) a + S1x1024.size a ≤ S43x1024.size a
  inb_S64x43x512_S64x1x512_0_27_0 : ∀ a, (![0, 27, 0] : Fin 3 → Nat) a + S64x1x512.size a ≤ S64x43x512.size a
  inb_S43x1024_S1x1024_27_0 : ∀ a, (![27, 0] : Fin 2 → Nat) a + S1x1024.size a ≤ S43x1024.size a
  inb_S64x43x512_S64x1x512_0_28_0 : ∀ a, (![0, 28, 0] : Fin 3 → Nat) a + S64x1x512.size a ≤ S64x43x512.size a
  inb_S43x1024_S1x1024_28_0 : ∀ a, (![28, 0] : Fin 2 → Nat) a + S1x1024.size a ≤ S43x1024.size a
  inb_S64x43x512_S64x1x512_0_29_0 : ∀ a, (![0, 29, 0] : Fin 3 → Nat) a + S64x1x512.size a ≤ S64x43x512.size a
  inb_S43x1024_S1x1024_29_0 : ∀ a, (![29, 0] : Fin 2 → Nat) a + S1x1024.size a ≤ S43x1024.size a
  inb_S64x43x512_S64x1x512_0_30_0 : ∀ a, (![0, 30, 0] : Fin 3 → Nat) a + S64x1x512.size a ≤ S64x43x512.size a
  inb_S43x1024_S1x1024_30_0 : ∀ a, (![30, 0] : Fin 2 → Nat) a + S1x1024.size a ≤ S43x1024.size a
  inb_S64x43x512_S64x1x512_0_31_0 : ∀ a, (![0, 31, 0] : Fin 3 → Nat) a + S64x1x512.size a ≤ S64x43x512.size a
  inb_S43x1024_S1x1024_31_0 : ∀ a, (![31, 0] : Fin 2 → Nat) a + S1x1024.size a ≤ S43x1024.size a
  inb_S64x43x512_S64x1x512_0_32_0 : ∀ a, (![0, 32, 0] : Fin 3 → Nat) a + S64x1x512.size a ≤ S64x43x512.size a
  inb_S43x1024_S1x1024_32_0 : ∀ a, (![32, 0] : Fin 2 → Nat) a + S1x1024.size a ≤ S43x1024.size a
  inb_S64x43x512_S64x1x512_0_33_0 : ∀ a, (![0, 33, 0] : Fin 3 → Nat) a + S64x1x512.size a ≤ S64x43x512.size a
  inb_S43x1024_S1x1024_33_0 : ∀ a, (![33, 0] : Fin 2 → Nat) a + S1x1024.size a ≤ S43x1024.size a
  inb_S64x43x512_S64x1x512_0_34_0 : ∀ a, (![0, 34, 0] : Fin 3 → Nat) a + S64x1x512.size a ≤ S64x43x512.size a
  inb_S43x1024_S1x1024_34_0 : ∀ a, (![34, 0] : Fin 2 → Nat) a + S1x1024.size a ≤ S43x1024.size a
  inb_S64x43x512_S64x1x512_0_35_0 : ∀ a, (![0, 35, 0] : Fin 3 → Nat) a + S64x1x512.size a ≤ S64x43x512.size a
  inb_S43x1024_S1x1024_35_0 : ∀ a, (![35, 0] : Fin 2 → Nat) a + S1x1024.size a ≤ S43x1024.size a
  inb_S64x43x512_S64x1x512_0_36_0 : ∀ a, (![0, 36, 0] : Fin 3 → Nat) a + S64x1x512.size a ≤ S64x43x512.size a
  inb_S43x1024_S1x1024_36_0 : ∀ a, (![36, 0] : Fin 2 → Nat) a + S1x1024.size a ≤ S43x1024.size a
  inb_S64x43x512_S64x1x512_0_37_0 : ∀ a, (![0, 37, 0] : Fin 3 → Nat) a + S64x1x512.size a ≤ S64x43x512.size a
  inb_S43x1024_S1x1024_37_0 : ∀ a, (![37, 0] : Fin 2 → Nat) a + S1x1024.size a ≤ S43x1024.size a
  inb_S64x43x512_S64x1x512_0_38_0 : ∀ a, (![0, 38, 0] : Fin 3 → Nat) a + S64x1x512.size a ≤ S64x43x512.size a
  inb_S43x1024_S1x1024_38_0 : ∀ a, (![38, 0] : Fin 2 → Nat) a + S1x1024.size a ≤ S43x1024.size a
  inb_S64x43x512_S64x1x512_0_39_0 : ∀ a, (![0, 39, 0] : Fin 3 → Nat) a + S64x1x512.size a ≤ S64x43x512.size a
  inb_S43x1024_S1x1024_39_0 : ∀ a, (![39, 0] : Fin 2 → Nat) a + S1x1024.size a ≤ S43x1024.size a
  inb_S64x43x512_S64x1x512_0_40_0 : ∀ a, (![0, 40, 0] : Fin 3 → Nat) a + S64x1x512.size a ≤ S64x43x512.size a
  inb_S43x1024_S1x1024_40_0 : ∀ a, (![40, 0] : Fin 2 → Nat) a + S1x1024.size a ≤ S43x1024.size a
  inb_S64x43x512_S64x1x512_0_41_0 : ∀ a, (![0, 41, 0] : Fin 3 → Nat) a + S64x1x512.size a ≤ S64x43x512.size a
  inb_S43x1024_S1x1024_41_0 : ∀ a, (![41, 0] : Fin 2 → Nat) a + S1x1024.size a ≤ S43x1024.size a
  inb_S64x43x512_S64x1x512_0_42_0 : ∀ a, (![0, 42, 0] : Fin 3 → Nat) a + S64x1x512.size a ≤ S64x43x512.size a
  inb_S43x1024_S1x1024_42_0 : ∀ a, (![42, 0] : Fin 2 → Nat) a + S1x1024.size a ≤ S43x1024.size a
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  dot_S64x512_S1024x512_S64x1024_1_1_0_0_n_n_wf : DotDims.WF S64x512 S1024x512 S64x1024 [1] [1] [0] [0] [] []
  dot_S128x2048_S1024x2048_S128x1024_1_1_0_0_n_n_wf : DotDims.WF S128x2048 S1024x2048 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x43x512.size a ≤ S512x43x512.size a
  hwx0_0 : ∀ i : grid0.Coords, EltTy.bits .f32 = 32 ∨ (Rect.block (s := S512x43x512) S64x43x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S43x1024.size a ≤ S43x8192.size a
  hwx0_2 : ∀ i : grid0.Coords, EltTy.bits .f32 = 32 ∨ (Rect.block (s := S43x8192) S43x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S512x8192.size a
  hwx0_3 : ∀ i : grid0.Coords, EltTy.bits .f32 = 32 ∨ (Rect.block (s := S512x8192) S64x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S512x8192.size a
  hwx1_0 : ∀ i : grid1.Coords, EltTy.bits .bf16 = 32 ∨ (Rect.block (s := S512x8192) S128x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x8192.size a
  hwx1_1 : ∀ i : grid1.Coords, EltTy.bits .bf16 = 32 ∨ (Rect.block (s := S4096x8192) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S512x4096.size a
  hwx1_2 : ∀ i : grid1.Coords, EltTy.bits .f32 = 32 ∨ (Rect.block (s := S512x4096) S128x1024.size (cc1_transform_2 i) (hinb1_2 i)).WholeWords (EltTy.packing .f32)

variable [Facts₀]

def dot_S64x512_S1024x512_S64x1024_1_1_0_0_n_n : DotDims S64x512 S1024x512 S64x1024 where
  lhsContracting := [1]
  rhsContracting := [1]
  lhsNonContracting := [0]
  rhsNonContracting := [0]
  lhsBatch := []
  rhsBatch := []
  wf := dot_S64x512_S1024x512_S64x1024_1_1_0_0_n_n_wf
def dot_S128x2048_S1024x2048_S128x1024_1_1_0_0_n_n : DotDims S128x2048 S1024x2048 S128x1024 where
  lhsContracting := [1]
  rhsContracting := [1]
  lhsNonContracting := [0]
  rhsNonContracting := [0]
  lhsBatch := []
  rhsBatch := []
  wf := dot_S128x2048_S1024x2048_S128x1024_1_1_0_0_n_n_wf

abbrev win0_0 : Pipeline.Window sig grid0 :=
  Pipeline.Window.ofSpec (Memref.whole main_arg0) S64x43x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S43x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S512x43x512 : Shape := ⟨3, ![512, 43, 512]⟩
abbrev S8192x512 : Shape := ⟨2, ![8192, 512]⟩
abbrev S4096x8192 : Shape := ⟨2, ![4096, 8192]⟩
abbrev S43x8192 : Shape := ⟨2, ![43, 8192]⟩
abbrev S512x43x8192 : Shape := ⟨3, ![512, 43, 8192]⟩
abbrev S1x43x8192 : Shape := ⟨3, ![1, 43, 8192]⟩
abbrev S_ : Shape := ⟨0, ![]⟩
abbrev S512x8192 : Shape := ⟨2, ![512, 8192]⟩
abbrev S8192x4096 : Shape := ⟨2, ![8192, 4096]⟩
abbrev S512x4096 : Shape := ⟨2, ![512, 4096]⟩

abbrev nBuf : Space → Nat
  | .hbm => 17
  | .vmem => 0
  | .smem => 0
  | _ => 0

abbrev bufTy : (tb : Table) → Fin (tcTables nBuf tb) → BufTy
  | .hbm, ⟨0, _⟩ => ⟨S512x43x512, .f32⟩
  | .hbm, ⟨1, _⟩ => ⟨S8192x512, .f32⟩
  | .hbm, ⟨2, _⟩ => ⟨S4096x8192, .f32⟩
  | .hbm, ⟨3, _⟩ => ⟨S43x8192, .f32⟩
  | .hbm, ⟨4, _⟩ => ⟨S512x43x8192, .f32⟩
  | .hbm, ⟨5, _⟩ => ⟨S1x43x8192, .f32⟩
  | .hbm, ⟨6, _⟩ => ⟨S512x43x8192, .f32⟩
  | .hbm, ⟨7, _⟩ => ⟨S512x43x8192, .f32⟩
  | .hbm, ⟨8, _⟩ => ⟨S512x43x8192, .f32⟩
  | .hbm, ⟨9, _⟩ => ⟨S_, .f32⟩
  | .hbm, ⟨10, _⟩ => ⟨S512x8192, .f32⟩
  | .hbm, ⟨11, _⟩ => ⟨S512x8192, .f32⟩
  | .hbm, ⟨12, _⟩ => ⟨S8192x4096, .f32⟩
  | .hbm, ⟨13, _⟩ => ⟨S512x4096, .f32⟩
  | .hbm, ⟨14, _⟩ => ⟨S_, .f32⟩
  | .hbm, ⟨15, _⟩ => ⟨S512x4096, .f32⟩
  | .hbm, ⟨16, _⟩ => ⟨S512x4096, .f32⟩
  | _, _ => ⟨S512x43x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S43x8192_S1x43x8192_1_2 : S43x8192.BroadcastsInDim S1x43x8192 (![1, 2] : Fin 2 → Fin S1x43x8192.rank)
  bcast_S1x43x8192_S512x43x8192_0_1_2 : S1x43x8192.BroadcastsInDim S512x43x8192 (![0, 1, 2] : Fin 3 → Fin S512x43x8192.rank)
  reducesTo_S512x43x8192_S512x8192_d1 : S512x43x8192.ReducesTo [1] S512x8192
  h_S_ : 0 < S_.numel
  transposes_S4096x8192_S8192x4096_1_0 : S4096x8192.Transposes [1, 0] S8192x4096
  bcast_S_S512x4096 : S_.BroadcastsInDim S512x4096 (![] : Fin 0 → Fin S512x4096.rank)
  dot_S512x43x512_S8192x512_S512x43x8192_2_1_01_0_n_n_wf : DotDims.WF S512x43x512 S8192x512 S512x43x8192 [2] [1] [0, 1] [0] [] []
  dot_S512x8192_S8192x4096_S512x4096_1_0_0_1_n_n_wf : DotDims.WF S512x8192 S8192x4096 S512x4096 [1] [0] [0] [1] [] []

variable [Facts₀]

def dot_S512x43x512_S8192x512_S512x43x8192_2_1_01_0_n_n : DotDims S512x43x512 S8192x512 S512x43x8192 where
  lhsContracting := [2]
  rhsContracting := [1]
  lhsNonContracting := [0, 1]
  rhsNonContracting := [0]
  lhsBatch := []
  rhsBatch := []
  wf := dot_S512x43x512_S8192x512_S512x43x8192_2_1_01_0_n_n_wf
def dot_S512x8192_S8192x4096_S512x4096_1_0_0_1_n_n : DotDims S512x8192 S8192x4096 S512x4096 where
  lhsContracting := [1]
  rhsContracting := [0]
  lhsNonContracting := [0]
  rhsNonContracting := [1]
  lhsBatch := []
  rhsBatch := []
  wf := dot_S512x8192_S8192x4096_S512x4096_1_0_0_1_n_n_wf

class Facts : Prop extends Facts₀ where

variable [Facts]
-- ==== Proof.Preserves.lean ====
/-
  The idealized kernel is the word-level kernel's sanctioned idealization: every rewrite the ideal pass made is an
  instance of one of two rules. A value rounded to bfloat16 and widened back to float32 is, over the extended reals,
  the value itself (once for the weight block, once per band for the band's feature slab); and the float `1.0`
  carrying a value's sign bit is `-1` where the value is negative and `1` elsewhere (once per band, once for the vote).
-/
import proofs.«110471_j26396869001917_1_alg».proof.Defs

namespace Cert.Proof

open Idealize.ShloMosaic

/-- Each conjunct is its rule's statement at the printed shape. -/
theorem preserves : Cert.preserves_Kernel_KernelIdeal := by
  unfold Cert.preserves_Kernel_KernelIdeal
  repeat' first
    | exact IdealRules.truncf_extf.statement _ .f32 .bf16
    | exact IdealRules.sign_bit.statement _ _
    | refine And.intro ?_ ?_

end Cert.Proof
-- ==== Proof.Spec.lean ====
/-
  What both programs compute, index by index over the extended reals.

  A row `b` of the batch, a band `n` and a hidden unit `h` have a SCORE: the inner product of the band's feature
  vector `x[b, n, ·]` with the unit's weight row `W1[h, ·]`, times the band's bipolar code `bp[n, h]`. The unit's VOTE
  is the sum over the 43 bands of the scores' signs, and the hidden CODE is the sign of the vote (`-1`, `0` or `1`).
  The READOUT of row `b` at output `i` is the inner product of the row's code with `W2[i, ·]`, divided by `8192`
  (kept as the float word both programs print, so that it is never evaluated).
-/
import Idealize.ShloMosaic.PureOps.Ideal
import Idealize.ShloMosaic.Lib.ValueIdx

noncomputable section

namespace Cert.Spec

open Idealize.ShloMosaic Idealize.ShloMosaic.ValueIdx
open scoped BigOperators

/-- The feature array `x : [512, 43, 512]`. -/
abbrev XArr : Type := (⟨3, ![512, 43, 512]⟩ : Shape).Idx → EReal
/-- The hidden layer's weights `W1 : [8192, 512]`. -/
abbrev W1Arr : Type := (⟨2, ![8192, 512]⟩ : Shape).Idx → EReal
/-- The readout's weights `W2 : [4096, 8192]`. -/
abbrev W2Arr : Type := (⟨2, ![4096, 8192]⟩ : Shape).Idx → EReal
/-- The bands' bipolar codes `bp : [43, 8192]`. -/
abbrev BpArr : Type := (⟨2, ![43, 8192]⟩ : Shape).Idx → EReal
/-- A hidden code `[512, 8192]`. -/
abbrev CodeArr : Type := (⟨2, ![512, 8192]⟩ : Shape).Idx → EReal

/-- The score of row `b`, band `n`, hidden unit `h`: `(∑ f, x[b, n, f] · W1[h, f]) · bp[n, h]`. -/
def score (x : XArr) (w1 : W1Arr) (bp : BpArr) (b : Fin 512) (n : Fin 43) (h : Fin 8192) : EReal :=
  (∑ f : Fin 512, x (ix3 b n f) * w1 (ix2 h f)) * bp (ix2 n h)

/-- The vote of hidden unit `h` on row `b`: the sum over the bands of the scores' signs. -/
def vote (x : XArr) (w1 : W1Arr) (bp : BpArr) (b : Fin 512) (h : Fin 8192) : EReal :=
  ∑ n : Fin 43, Ideal.sign (score x w1 bp b n h)

/-- The hidden code: the sign of the vote. -/
def code (x : XArr) (w1 : W1Arr) (bp : BpArr) (b : Fin 512) (h : Fin 8192) : EReal :=
  Ideal.sign (vote x w1 bp b h)

/-- The hidden code as an array. -/
def codeArr (x : XArr) (w1 : W1Arr) (bp : BpArr) : CodeArr := fun j => code x w1 bp (j 0) (j 1)

theorem codeArr_apply (x : XArr) (w1 : W1Arr) (bp : BpArr) (b : Fin 512) (h : Fin 8192) :
    codeArr x w1 bp (ix2 b h) = code x w1 bp b h := rfl

/-- The readout of a code `a` against `W2`: `(∑ h, a[b, h] · W2[i, h]) / 8192`. -/
def readout (a : CodeArr) (w2 : W2Arr) (b : Fin 512) (i : Fin 4096) : EReal :=
  Ideal.div (∑ h : Fin 8192, a (ix2 b h) * w2 (ix2 i h)) (Ideal.ofBits .f32 0x46000000#32)

/-- The readout as an array `[512, 4096]`. -/
def readoutArr (a : CodeArr) (w2 : W2Arr) : (⟨2, ![512, 4096]⟩ : Shape).Idx → EReal :=
  fun j => readout a w2 (j 0) (j 1)

theorem readoutArr_apply (a : CodeArr) (w2 : W2Arr) (b : Fin 512) (i : Fin 4096) :
    readoutArr a w2 (ix2 b i) = readout a w2 b i := rfl

end Cert.Spec

end
-- ==== Proof.RefValue.lean ====
/-
  The reference's result, read index by index: its hidden code is `Cert.Spec.code` of the arguments and its readout
  `Cert.Spec.readout` of that code and `W2`.

  The reference contracts the feature axis of `x : [512, 43, 512]` with that of `W1 : [8192, 512]`, which at row `b`,
  band `n`, unit `h` is `∑ f, x[b, n, f] · W1[h, f]`; multiplies by `bp` laid along the batch axis, which there is
  `bp[n, h]`; takes signs; adds the 43 bands up from the float zero, which is the extended real `0`; and takes the sign of
  that vote. The readout contracts the code's unit axis with the first axis of the transposed `W2`, which at `(h, i)` is
  `W2[i, h]`, and divides by the float `8192`.
-/
import proofs.«110471_j26396869001917_1_alg».proof.Proof.Gen.ReferenceIdeal.Read
import proofs.«110471_j26396869001917_1_alg».proof.Proof.Spec
import Idealize.ShloMosaic.Lib.ValueIdx
import Idealize.ShloMosaic.PureOps.Ideal.Laws

noncomputable section

namespace Cert.RefValue

open Cert.ReferenceIdeal Cert.ReferenceIdeal.Read Idealize.ShloMosaic Idealize.ShloMosaic.ValueIdx
open scoped BigOperators

/-! ## Where each operation reads its operands -/

/-- The band sum at `(b, h)` reads band `n` at `(b, n, h)`. -/
theorem idx_vote (b : Fin 512) (h : Fin 8192) (n : Fin 43) : idx_main_v5 (ix2 b h) n = ix3 b n h :=
  funext fun a => Fin.ext (by match a with | ⟨0, _⟩ => rfl | ⟨1, _⟩ => rfl | ⟨2, _⟩ => rfl)

/-- The first contraction at `(b, n, h)` reads `x` at `(b, n, f)`. -/
theorem lidx_score (b : Fin 512) (n : Fin 43) (h : Fin 8192) (f : Fin 512) : lidx_main_v0 (ix3 b n h) f = ix3 b n f :=
  funext fun a => Fin.ext (by match a with | ⟨0, _⟩ => rfl | ⟨1, _⟩ => rfl | ⟨2, _⟩ => rfl)

/-- The first contraction at `(b, n, h)` reads `W1` at `(h, f)`. -/
theorem ridx_score (b : Fin 512) (n : Fin 43) (h : Fin 8192) (f : Fin 512) : ridx_main_v0 (ix3 b n h) f = ix2 h f :=
  funext fun a => Fin.ext (by match a with | ⟨0, _⟩ => rfl | ⟨1, _⟩ => rfl)

/-- The bands' codes laid along the batch axis read `bp` at `(n, h)`. -/
theorem idx_bp (b : Fin 512) (n : Fin 43) (h : Fin 8192) : idx_main_v1 (idx_main_v2 (ix3 b n h)) = ix2 n h :=
  funext fun a => Fin.ext (by match a with | ⟨0, _⟩ => rfl | ⟨1, _⟩ => rfl)

/-- The readout's contraction at `(b, i)` reads the code at `(b, h)`. -/
theorem lidx_readout (b : Fin 512) (i : Fin 4096) (h : Fin 8192) : lidx_main_v8 (ix2 b i) h = ix2 b h :=
  funext fun a => Fin.ext (by match a with | ⟨0, _⟩ => rfl | ⟨1, _⟩ => rfl)

/-- The readout's contraction at `(b, i)` reads `W2` at `(i, h)` through the transpose. -/
theorem ridx_readout (b : Fin 512) (i : Fin 4096) (h : Fin 8192) : idx_main_v7 (ridx_main_v8 (ix2 b i) h) = ix2 i h :=
  funext fun a => Fin.ext (by match a with | ⟨0, _⟩ => rfl | ⟨1, _⟩ => rfl)

/-! ## The two results -/

/-- The reference's hidden code at `(b, h)` is the sign of the vote. -/
theorem code_eq (x0 : (⟨S512x43x512, .f32⟩ : BufTy).Contents (Elt Ideal)) (x1 : (⟨S8192x512, .f32⟩ : BufTy).Contents (Elt Ideal))
    (x3 : (⟨S43x8192, .f32⟩ : BufTy).Contents (Elt Ideal)) (b : Fin 512) (h : Fin 8192) :
    val_main_v6 (F := Ideal) x0 x1 x3 (ix2 b h) = Cert.Spec.code x0 x1 x3 b h := by
  rw [val_main_v6_apply, val_main_v5_apply, val_main_cst_apply]
  simp only [idx_vote, val_main_v4_apply, val_main_v3_apply, val_main_v0_apply, val_main_v2_apply, val_main_v1_apply,
    lidx_score, ridx_score, idx_bp, Ideal.hostUnary_sign_def, Ideal.mulf_def, Ideal.ofBits_def, Ideal.ofBits_zero_f32,
    zero_add]
  rfl

/-- The reference's hidden code, as an array, is the specification's. -/
theorem codeArr_eq (x0 : (⟨S512x43x512, .f32⟩ : BufTy).Contents (Elt Ideal)) (x1 : (⟨S8192x512, .f32⟩ : BufTy).Contents (Elt Ideal))
    (x3 : (⟨S43x8192, .f32⟩ : BufTy).Contents (Elt Ideal)) :
    val_main_v6 (F := Ideal) x0 x1 x3 = Cert.Spec.codeArr x0 x1 x3 := by
  funext j
  obtain ⟨b, h, rfl⟩ : ∃ (b : Fin 512) (h : Fin 8192), j = ix2 b h := ⟨j 0, j 1, eq_ix2 j⟩
  exact code_eq x0 x1 x3 b h

/-- The reference's readout at `(b, i)`. -/
theorem readout_eq (x0 : (⟨S512x43x512, .f32⟩ : BufTy).Contents (Elt Ideal)) (x1 : (⟨S8192x512, .f32⟩ : BufTy).Contents (Elt Ideal))
    (x2 : (⟨S4096x8192, .f32⟩ : BufTy).Contents (Elt Ideal)) (x3 : (⟨S43x8192, .f32⟩ : BufTy).Contents (Elt Ideal))
    (b : Fin 512) (i : Fin 4096) :
    val_main_v10 (F := Ideal) x0 x1 x2 x3 (ix2 b i) = Cert.Spec.readout (Cert.Spec.codeArr x0 x1 x3) x2 b i := by
  rw [val_main_v10_apply, val_main_v8_apply, val_main_v9_apply, val_main_cst_0_apply, codeArr_eq]
  simp only [val_main_v7_apply, lidx_readout, ridx_readout, Ideal.hostDivf_def, Ideal.ofBits_def]
  rfl

/-- The reference's readout, as an array, is the specification's. -/
theorem readoutArr_eq (x0 : (⟨S512x43x512, .f32⟩ : BufTy).Contents (Elt Ideal)) (x1 : (⟨S8192x512, .f32⟩ : BufTy).Contents (Elt Ideal))
    (x2 : (⟨S4096x8192, .f32⟩ : BufTy).Contents (Elt Ideal)) (x3 : (⟨S43x8192, .f32⟩ : BufTy).Contents (Elt Ideal)) :
    val_main_v10 (F := Ideal) x0 x1 x2 x3 = Cert.Spec.readoutArr (Cert.Spec.codeArr x0 x1 x3) x2 := by
  funext j
  obtain ⟨b, i, rfl⟩ : ∃ (b : Fin 512) (i : Fin 4096), j = ix2 b i := ⟨j 0, j 1, eq_ix2 j⟩
  exact readout_eq x0 x1 x2 x3 b i

end Cert.RefValue

end
-- ==== Proof.Finite.lean ====
/-
  The precondition read back: every entry of every argument is a real number.

  The precondition is the conjunction of four tests, one per argument: every entry's absolute value is below the float
  `+inf`. Over the extended reals `+inf` is `⊤`, the absolute value of `x` is `max x (-x)`, and that is below `⊤`
  exactly when `x` is neither `⊤` nor `⊥`: a real.
-/
import proofs.«110471_j26396869001917_1_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

variable [Cert.Pre_finite_inputs.Facts]

/-- The scalar shape has one index. -/
instance : Subsingleton S_.Idx := ⟨fun a b => funext fun d => d.elim0⟩

/-- The float `+inf` is the extended real `⊤`. -/
theorem inf_eq_top : Ideal.ofBits .f32 0x7F800000#32 = (⊤ : EReal) := by
  simp [Ideal.ofBits, Ideal.ieee]

/-- An extended real whose absolute value is below `+inf` is a real. -/
theorem real_of_abs_lt (x : EReal) (h : Ideal.cmp .olt (max x (-x)) (Ideal.ofBits .f32 0x7F800000#32) = 1#1) :
    ∃ r : ℝ, x = (r : EReal) := by
  rw [inf_eq_top] at h
  induction x using EReal.rec with
  | bot => exact absurd h (by simp [Ideal.cmp])
  | coe r => exact ⟨r, rfl⟩
  | top => exact absurd h (by simp [Ideal.cmp])

/-- Under the precondition every entry of every argument is a real. -/
theorem reals (x0 : FVec Ideal S512x43x512 .f32) (x1 : FVec Ideal S8192x512 .f32) (x2 : FVec Ideal S4096x8192 .f32)
    (x3 : FVec Ideal S43x8192 .f32) (h : fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i)⟩

end Cert.Finite

end
-- ==== Proof.IdealWhole.lean ====
/-
  The whole program's run from its two regions' runs.

  @main is three items in a row: the first kernel's pipeline, a stretch of two host operations (each a change of float
  format, of the hidden code and of `W2`), and the second kernel's pipeline. Between items a core holds every unscoped
  buffer whole, at contents that are a fold through the items: the launch memory; then the first pipeline's arrays at what
  it leaves and every other buffer as it was; then the host operations applied; then the second pipeline's arrays at what
  it leaves. Each pipeline is entered from those buffers — its windows' arrays split out, the rest set aside —, runs under
  its own invariant, and hands the buffers back with its arrays at their final contents. Read against the final memory,
  every unscoped buffer holds the last fold: the four arguments walk back to the launch memory (no item writes one), the
  hidden code's array holds what the first pipeline left, and the readout's array what the second left.

  The regions' own data — what the body leaves in each window at each grid point, the invariant it keeps, and that
  the body run at a point does so — enter as hypotheses, one family per region, at any entry contents.
-/
import proofs.«110471_j26396869001917_1_alg».proof.Proof.Gen.KernelIdeal.Launch
import proofs.«110471_j26396869001917_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's TensorCore buffers, each whole at some contents. -/
abbrev Entry (F : FTy → Type) [FloatOps F] : Type := (c : Dev nD) → (b : Ref sig .tc) → Buf (Elt F) ((c : Thread nD τ).loc b)

/-- What pipeline 0 contributes, at any entry contents `V`: its proof data, whose arrays are `V`'s, held at full share
    with nothing owed; the body's obligation at every point; and its invariant entered from and left at the scoped
    buffers no window stages beside the generator register. -/
structure Region0 (F : FTy → Type) [FloatOps F] where
  dat : Entry F → (c : Dev nD) → Dat τ (Elt F) Unit ℕ (UR sig nD τ) ℕ cfg0 c
  hA : ∀ V c (w : Fin cfg0.W), (dat V c).A w = V c (Pipeline.arrRef spec0 w)
  hq : ∀ V c (w : Fin cfg0.W), (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- What pipeline 1 contributes, at any entry contents `V`: its proof data, whose arrays are `V`'s, held at full share
    with nothing owed; the body's obligation at every point; and its invariant entered from and left at the scoped
    buffers no window stages beside the generator register. -/
structure Region1 (F : FTy → Type) [FloatOps F] where
  dat : Entry F → (c : Dev nD) → Dat τ (Elt F) Unit ℕ (UR sig nD τ) ℕ cfg1 c
  hA : ∀ V c (w : Fin cfg1.W), (dat V c).A w = V c (Pipeline.arrRef spec1 w)
  hq : ∀ V c (w : Fin cfg1.W), (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

variable (R0 : Region0 F) (R1 : Region1 F)
variable (m : (ℓ : Loc nD τ sig) → Buf (Elt F) ℓ) (ρ : Dev nD → PrngReg)

/-! ## The buffers' contents between items -/

/-- Core `c`'s buffers at launch (the first pipeline's entry). -/
abbrev W0 : Dev nD → Valuation τ sig (Elt F) := fun c b => (s₀ m ρ).mem ((c : Dev nD), b)
abbrev V0 : Entry F := fun c b => W0 m ρ c b
/-- After the first pipeline: its arrays at what it leaves, every other buffer as entered. -/
def W1 (c : Dev nD) : Valuation τ sig (Elt F) :=
  Pipeline.withArrays spec0 c (W0 m ρ c) fun w => (R0.dat (V0 m ρ) c).arrAt w cfg0.N
theorem W1_arr (c : Dev nD) (w : Fin cfg0.W) :
    W1 R0 m ρ c (Proc.devRef .tc (Pipeline.arrRef spec0 w)) = (R0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 R0 m ρ c (Proc.devRef .tc b) = W0 m ρ c (Proc.devRef .tc b) := by
  unfold W1; exact Pipeline.withArrays_of_ne spec0 c _ _ b hb
abbrev V1 : Entry F := fun c b => W1 R0 m ρ c b
theorem hF0 (c : Dev nD) (w : Fin cfg0.W) : (R0.dat (V0 m ρ) c).arrAt w cfg0.N = V1 R0 m ρ c (Pipeline.arrRef spec0 w) :=
  (W1_arr R0 m ρ c w).symm
theorem hrest0 (c : Dev nD) : ∀ b, b ∉ Finset.univ.image (Pipeline.arrRef spec0) → V1 R0 m ρ c b = V0 m ρ c b :=
  fun b hb => W1_of_ne R0 m ρ c b fun w e => hb (Finset.mem_image.mpr ⟨w, Finset.mem_univ _, e⟩)

/-- After the host stretch (the second pipeline's entry). -/
abbrev W2 : Dev nD → Valuation τ sig (Elt F) := fun c => StableHlo.after hostOps1 (W1 R0 m ρ c)
abbrev V2 : Entry F := fun c b => W2 R0 m ρ c b
/-- After the second pipeline. -/
def W3 (c : Dev nD) : Valuation τ sig (Elt F) :=
  Pipeline.withArrays spec1 c (W2 R0 m ρ c) fun w => (R1.dat (V2 R0 m ρ) c).arrAt w cfg1.N
theorem W3_arr (c : Dev nD) (w : Fin cfg1.W) :
    W3 R0 R1 m ρ c (Proc.devRef .tc (Pipeline.arrRef spec1 w)) = (R1.dat (V2 R0 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 R0 R1 m ρ c (Proc.devRef .tc b) = W2 R0 m ρ c (Proc.devRef .tc b) := by
  unfold W3; exact Pipeline.withArrays_of_ne spec1 c _ _ b hb
abbrev V3 : Entry F := fun c b => W3 R0 R1 m ρ c b
theorem hF1 (c : Dev nD) (w : Fin cfg1.W) : (R1.dat (V2 R0 m ρ) c).arrAt w cfg1.N = V3 R0 R1 m ρ c (Pipeline.arrRef spec1 w) :=
  (W3_arr R0 R1 m ρ c w).symm
theorem hrest1 (c : Dev nD) : ∀ b, b ∉ Finset.univ.image (Pipeline.arrRef spec1) → V3 R0 R1 m ρ c b = V2 R0 m ρ c b :=
  fun b hb => W3_of_ne R0 R1 m ρ c b fun w e => hb (Finset.mem_image.mpr ⟨w, Finset.mem_univ _, e⟩)

/-! ## The arguments end as launched, and the results hold what the pipelines left -/

/-- The host stretch writes the two re-formatted copies and nothing else. -/
theorem host_keeps (c : Dev nD) (b : Ref sig .tc) (h1 : b ≠ main_v1) (h2 : b ≠ main_v2) :
    W2 R0 m ρ c (Proc.devRef .tc b) = W1 R0 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, Finset.mem_singleton]
    exact ⟨StableHlo.devRef_ne_of_ne h1, StableHlo.devRef_ne_of_ne h2⟩))

/-- `main_arg0` is an input window's array of the first pipeline: it leaves the pipeline as it entered, and nothing else writes it. -/
theorem W3_main_arg0 (c : Dev nD) : W3 R0 R1 m ρ c (Proc.devRef .tc main_arg0) = m ((c : Thread nD τ).loc main_arg0) :=
  calc W3 R0 R1 m ρ c (Proc.devRef .tc main_arg0)
    _ = W2 R0 m ρ c (Proc.devRef .tc main_arg0) := W3_of_ne R0 R1 m ρ c main_arg0 (by decide)
    _ = W1 R0 m ρ c (Proc.devRef .tc main_arg0) := host_keeps R0 m ρ c main_arg0 (by decide) (by decide)
    _ = W0 m ρ c (Proc.devRef .tc main_arg0) := (W1_arr R0 m ρ c 0).trans (((R0.dat (V0 m ρ) c).arrAt_in 0 rfl _).trans (R0.hA (V0 m ρ) c 0))
    _ = m ((c : Thread nD τ).loc main_arg0) := rfl

/-- `main_arg1` is an input window's array of the first pipeline: it leaves the pipeline as it entered, and nothing else writes it. -/
theorem W3_main_arg1 (c : Dev nD) : W3 R0 R1 m ρ c (Proc.devRef .tc main_arg1) = m ((c : Thread nD τ).loc main_arg1) :=
  calc W3 R0 R1 m ρ c (Proc.devRef .tc main_arg1)
    _ = W2 R0 m ρ c (Proc.devRef .tc main_arg1) := W3_of_ne R0 R1 m ρ c main_arg1 (by decide)
    _ = W1 R0 m ρ c (Proc.devRef .tc main_arg1) := host_keeps R0 m ρ c main_arg1 (by decide) (by decide)
    _ = W0 m ρ c (Proc.devRef .tc main_arg1) := (W1_arr R0 m ρ c 1).trans (((R0.dat (V0 m ρ) c).arrAt_in 1 rfl _).trans (R0.hA (V0 m ρ) c 1))
    _ = m ((c : Thread nD τ).loc main_arg1) := rfl

/-- `main_arg2` is no window's array and no host operation writes it. -/
theorem W3_main_arg2 (c : Dev nD) : W3 R0 R1 m ρ c (Proc.devRef .tc main_arg2) = m ((c : Thread nD τ).loc main_arg2) :=
  calc W3 R0 R1 m ρ c (Proc.devRef .tc main_arg2)
    _ = W2 R0 m ρ c (Proc.devRef .tc main_arg2) := W3_of_ne R0 R1 m ρ c main_arg2 (by decide)
    _ = W1 R0 m ρ c (Proc.devRef .tc main_arg2) := host_keeps R0 m ρ c main_arg2 (by decide) (by decide)
    _ = W0 m ρ c (Proc.devRef .tc main_arg2) := W1_of_ne R0 m ρ c main_arg2 (by decide)
    _ = m ((c : Thread nD τ).loc main_arg2) := rfl

/-- `main_arg3` is an input window's array of the first pipeline: it leaves the pipeline as it entered, and nothing else writes it. -/
theorem W3_main_arg3 (c : Dev nD) : W3 R0 R1 m ρ c (Proc.devRef .tc main_arg3) = m ((c : Thread nD τ).loc main_arg3) :=
  calc W3 R0 R1 m ρ c (Proc.devRef .tc main_arg3)
    _ = W2 R0 m ρ c (Proc.devRef .tc main_arg3) := W3_of_ne R0 R1 m ρ c main_arg3 (by decide)
    _ = W1 R0 m ρ c (Proc.devRef .tc main_arg3) := host_keeps R0 m ρ c main_arg3 (by decide) (by decide)
    _ = W0 m ρ c (Proc.devRef .tc main_arg3) := (W1_arr R0 m ρ c 2).trans (((R0.dat (V0 m ρ) c).arrAt_in 2 rfl _).trans (R0.hA (V0 m ρ) c 2))
    _ = m ((c : Thread nD τ).loc main_arg3) := rfl

/-- The hidden code's array ends at what the first pipeline left: the second pipeline and the host stretch do not write it. -/
theorem W3_main_v0 (c : Dev nD) : W3 R0 R1 m ρ c (Proc.devRef .tc main_v0) = (R0.dat (V0 m ρ) c).arrAt 3 cfg0.N :=
  calc W3 R0 R1 m ρ c (Proc.devRef .tc main_v0)
    _ = W2 R0 m ρ c (Proc.devRef .tc main_v0) := W3_of_ne R0 R1 m ρ c main_v0 (by decide)
    _ = W1 R0 m ρ c (Proc.devRef .tc main_v0) := host_keeps R0 m ρ c main_v0 (by decide) (by decide)
    _ = (R0.dat (V0 m ρ) c).arrAt 3 cfg0.N := W1_arr R0 m ρ c 3

/-- The readout's array ends at what the second pipeline left. -/
theorem W3_main_v3 (c : Dev nD) : W3 R0 R1 m ρ c (Proc.devRef .tc main_v3) = (R1.dat (V2 R0 m ρ) c).arrAt 2 cfg1.N :=
  W3_arr R0 R1 m ρ c 2

/-! ## The proof data family and the thread state -/

/-- No pipeline has a prefetched table. -/
abbrev adm : (p : Fin 2) → (pcfgs (F := F) p).Adm := fun p => (cfgs p).toPCfg_adm
/-- Each pipeline's proof data at its entry contents. -/
def pdats : (p : Fin 2) → (c : Dev nD) → Dat τ (Elt F) Unit ℕ (UR sig nD τ) ℕ (Pipeline.pin (pcfgs (F := F)) adm p) c
  | ⟨0, _⟩ => fun c => R0.dat (V0 m ρ) c
  | ⟨1, _⟩ => fun c => R1.dat (V2 R0 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W3 R0 R1 m ρ c) ∗ ∃ r, prngReg c r)

/-! ## The pipelines as items -/

set_option backward.isDefEq.respectTransparency.types false in
/-- Pipeline 0 over the thread state: its arrays split out of the unscoped buffers and put back at the exit contents; the
    generator register and the scoped buffers no window stages into its invariant and out; nothing owed; no semaphore of
    its own. -/
def reg0 : Pipeline.RegionSeg (pcfgs (F := F)) adm (pdats R0 R1 m ρ) () defs₀ 𝒱₀ L lv 0 where
  win := launch0.win.to₀
  block_pos := launch0.block_pos
  stage_whole := launch0.stage_whole
  K := PEmpty
  osem k := k.elim
  ho := Pipeline.OwnSemFacts.none _
  hbody c := (R0.hbody (V0 m ρ) c).loose
  hwaits := Pipeline.hwaits_of_owed_zero _ _ _ _ L lv 0 fun c t => R0.howed (V0 m ρ) c t
  pre c := iprop(StableHlo.held (c : Thread nD τ) (Pipeline.ucRefs τ sig) (W0 m ρ c) ∗ Rest c)
  post c := iprop(StableHlo.held (c : Thread nD τ) (Pipeline.ucRefs τ sig) (W1 R0 m ρ c) ∗ Rest c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats R0 R1 m ρ) launch0.win launch0.arr_whole c
      ((pdats R0 R1 m ρ 0 c).share_full fun w => R0.hq (V0 m ρ) c w) (V0 m ρ c) fun w => R0.hA (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((R0.hrec (V0 m ρ) c 0).symm ▸ Set.mem_univ _)
      rw [show (pdats R0 R1 m ρ 0 c).owed 0 = 0 from R0.howed (V0 m ρ) c 0]
      iexact HO
    isplitl [Hp]; · iexact Hp
    iexact Hrest
  hin c := by
    refine BI.Entails.trans ?_ (R0.hin (V0 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (R0.hout (V0 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R0 R1 m ρ) ((pdats R0 R1 m ρ 0 c).share_full fun w => R0.hq (V0 m ρ) c w)
      (V0 m ρ c) (V1 R0 m ρ c) ((pdats R0 R1 m ρ 0 c).arrAt · cfg0.N) (hF0 R0 m ρ c) (hrest0 R0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats R0 R1 m ρ 0 c).owed (Fin.last _) = 0 from R0.howed (V0 m ρ) c _]
    icases HO with ⟨%W, -, HO⟩; iexists W; iexact HO

set_option backward.isDefEq.respectTransparency.types false in
/-- Pipeline 1 over the thread state: its arrays split out of the unscoped buffers and put back at the exit contents; the
    generator register and the scoped buffers no window stages into its invariant and out; nothing owed; no semaphore of
    its own. -/
def reg1 : Pipeline.RegionSeg (pcfgs (F := F)) adm (pdats R0 R1 m ρ) () defs₀ 𝒱₀ L lv 1 where
  win := launch1.win.to₀
  block_pos := launch1.block_pos
  stage_whole := launch1.stage_whole
  K := PEmpty
  osem k := k.elim
  ho := Pipeline.OwnSemFacts.none _
  hbody c := (R1.hbody (V2 R0 m ρ) c).loose
  hwaits := Pipeline.hwaits_of_owed_zero _ _ _ _ L lv 1 fun c t => R1.howed (V2 R0 m ρ) c t
  pre c := iprop(StableHlo.held (c : Thread nD τ) (Pipeline.ucRefs τ sig) (W2 R0 m ρ c) ∗ Rest c)
  post c := iprop(Tₙ R0 R1 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 R0 m ρ c)
  hentry c := by
    rw [Pipeline.ownSems0_none]
    have hsplit := Pipeline.arrays_of_unscopedBufs (p := 1) (pcfgs (F := F)) adm (pdats R0 R1 m ρ) launch1.win launch1.arr_whole c
      ((pdats R0 R1 m ρ 1 c).share_full fun w => R1.hq (V2 R0 m ρ) c w) (V2 R0 m ρ c) fun w => R1.hA (V2 R0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((R1.hrec (V2 R0 m ρ) c 0).symm ▸ Set.mem_univ _)
      rw [show (pdats R0 R1 m ρ 1 c).owed 0 = 0 from R1.howed (V2 R0 m ρ) c 0]
      iexact HO
    isplitl [Hp]; · iexact Hp
    iexact Hrest
  hin c := by
    refine BI.Entails.trans ?_ (R1.hin (V2 R0 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (R1.hout (V2 R0 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R0 R1 m ρ) ((pdats R0 R1 m ρ 1 c).share_full fun w => R1.hq (V2 R0 m ρ) c w)
      (V2 R0 m ρ c) (V3 R0 R1 m ρ c) ((pdats R0 R1 m ρ 1 c).arrAt · cfg1.N) (hF1 R0 R1 m ρ c) (hrest1 R0 R1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats R0 R1 m ρ 1 c).owed (Fin.last _) = 0 from R1.howed (V2 R0 m ρ) c _]
    icases HO with ⟨%W, -, HO⟩; iexists W; iexact HO

/-! ## @main as items, and the run -/

abbrev segs : List (Pipeline.Seg (pcfgs (F := F)) adm (pdats R0 R1 m ρ) () defs₀ 𝒱₀ L lv) :=
  [ .region (reg0 R0 R1 m ρ),
    .host (hseg hostOps1 hostOps1_sub hostOps1_fresh (W1 R0 m ρ)),
    .region (reg1 R0 R1 m ρ) ]
theorem main_run (c : Dev nD) : main (F := F) c = Pipeline.Seg.run (segs R0 R1 m ρ) := (main_chain c).trans (by chain_rfl)

set_option backward.isDefEq.respectTransparency.types false in
/-- From any memory with zero counters every weakly fair execution of @main terminates, nothing faulting, and the final
    memory holds every unscoped buffer at the last fold `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 R0 R1 m ρ c b) :=
  Pipeline.θ_run_regions_kit (pcfgs (F := F)) adm (pdats R0 R1 m ρ) () cellOf_inj emb₁ defs₀ 𝒱₀ L lv m ρ main (segs R0 R1 m ρ)
    (fun c Q => by rw [main_run R0 R1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tₙ R0 R1 m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 R0 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 R0 R1 m ρ c) s')
      isplitl [Hh] <;> iassumption)
    (hQ := fun s h c => h c)

/-- The run with the four arguments and the two results read off: the arguments as launched, the hidden code's array at
    what the first pipeline left, the readout's array at what the second left. -/
theorem run_results : θ_run defs (onTc (τ := τ) (main (F := F))) ⟨m, fun _ => 0, ρ⟩ (fun r => ∀ c : Dev nD,
      (r.2.mem ((c.tc : Thread nD τ).loc main_v3) = (R1.dat (V2 R0 m ρ) c).arrAt 2 cfg1.N
        ∧ r.2.mem ((c.tc : Thread nD τ).loc main_v0) = (R0.dat (V0 m ρ) c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨⟨(h c _ (mem_uc main_v3 (by decide))).trans (W3_main_v3 R0 R1 m ρ c),
      (h c _ (mem_uc main_v0 (by decide))).trans (W3_main_v0 R0 R1 m ρ c)⟩,
     (h c _ (mem_uc main_arg0 (by decide))).trans (W3_main_arg0 R0 R1 m ρ c),
     (h c _ (mem_uc main_arg1 (by decide))).trans (W3_main_arg1 R0 R1 m ρ c),
     (h c _ (mem_uc main_arg2 (by decide))).trans (W3_main_arg2 R0 R1 m ρ c),
     (h c _ (mem_uc main_arg3 (by decide))).trans (W3_main_arg3 R0 R1 m ρ c)⟩)
    (run_all R0 R1 m ρ)

include R0 R1 in
/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_results R0 R1 m ρ)

end Cert.KernelIdeal.Whole

end
-- ==== Proof.IdealValue.lean ====
/-
  The idealized kernel's two results as the specification's arrays.

  Over the extended reals a change of float format is the identity, so the host stretch between the two pipelines hands
  the second one the first one's hidden code and `W2` themselves. Given that the first pipeline leaves the specification's
  code of the arguments in its output array, and that the second leaves the readout of its two input arrays in its own,
  the program ends with the readout of the code in its first result and the code in its second.
-/
import proofs.«110471_j26396869001917_1_alg».proof.Proof.IdealWhole
import proofs.«110471_j26396869001917_1_alg».proof.Proof.Spec
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (R0 : Region0 Ideal) (R1 : Region1 Ideal)
variable (m : (ℓ : Loc nD τ sig) → Buf (Elt Ideal) ℓ) (ρ : Dev nD → PrngReg)

/-- The second pipeline's first input is the first pipeline's output: the host only changes its float format. -/
theorem V2_main_v1 (c : Dev nD) :
    (V2 R0 m ρ c main_v1 : S512x8192.Idx → EReal) = ((R0.dat (V0 m ρ) c).arrAt 3 cfg0.N : S512x8192.Idx → EReal) := by
  have e : W1 R0 m ρ c (Proc.devRef .tc main_v0) = (R0.dat (V0 m ρ) c).arrAt 3 cfg0.N := W1_arr R0 m ρ c 3
  show StableHlo.after hostOps1 (W1 R0 m ρ c) (Proc.devRef .tc main_v1) = _
  after_results
  rw [e]
  rfl

/-- The second pipeline's second input is `W2` as launched: the host only changes its float format. -/
theorem V2_main_v2 (c : Dev nD) :
    (V2 R0 m ρ c main_v2 : S4096x8192.Idx → EReal) = (m ((c.tc : Thread nD τ).loc main_arg2) : S4096x8192.Idx → EReal) := by
  have e : W1 R0 m ρ c (Proc.devRef .tc main_arg2) = m ((c.tc : Thread nD τ).loc main_arg2) :=
    (W1_of_ne R0 m ρ c main_arg2 (by decide)).trans rfl
  show StableHlo.after hostOps1 (W1 R0 m ρ c) (Proc.devRef .tc main_v2) = _
  after_results
  rw [e]
  rfl

/-- The run with both results named by the specification. -/
theorem run_spec
    (hcode : ∀ c : Dev nD, ((R0.dat (V0 m ρ) c).arrAt 3 cfg0.N : S512x8192.Idx → EReal)
      = Cert.Spec.codeArr (m ((c.tc : Thread nD τ).loc main_arg0)) (m ((c.tc : Thread nD τ).loc main_arg1)) (m ((c.tc : Thread nD τ).loc main_arg3)))
    (hread : ∀ (V : Entry Ideal) (c : Dev nD), ((R1.dat V c).arrAt 2 cfg1.N : S512x4096.Idx → EReal)
      = Cert.Spec.readoutArr (V c main_v1) (V c main_v2)) :
    θ_run defs (onTc (τ := τ) (main (F := Ideal))) ⟨m, fun _ => 0, ρ⟩ (fun r => ∀ c : Dev nD,
      r.2.mem ((c.tc : Thread nD τ).loc main_v3)
          = Cert.Spec.readoutArr (Cert.Spec.codeArr (m ((c.tc : Thread nD τ).loc main_arg0)) (m ((c.tc : Thread nD τ).loc main_arg1)) (m ((c.tc : Thread nD τ).loc main_arg3))) (m ((c.tc : Thread nD τ).loc main_arg2))
      ∧ r.2.mem ((c.tc : Thread nD τ).loc main_v0)
          = Cert.Spec.codeArr (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c).1.1.trans (by
        rw [hread (V2 R0 m ρ) c, V2_main_v1 R0 m ρ c, V2_main_v2 R0 m ρ c, hcode c]),
      (h c).1.2.trans (hcode c), (h c).2⟩)
    (run_results R0 R1 m ρ)

end Cert.KernelIdeal.Whole

end
-- ==== Proof.BitsWhole.lean ====
/-
  The whole program's run from its two regions' runs.

  @main is three items in a row: the first kernel's pipeline, a stretch of two host operations (each a change of float
  format, of the hidden code and of `W2`), and the second kernel's pipeline. Between items a core holds every unscoped
  buffer whole, at contents that are a fold through the items: the launch memory; then the first pipeline's arrays at what
  it leaves and every other buffer as it was; then the host operations applied; then the second pipeline's arrays at what
  it leaves. Each pipeline is entered from those buffers — its windows' arrays split out, the rest set aside —, runs under
  its own invariant, and hands the buffers back with its arrays at their final contents. Read against the final memory,
  every unscoped buffer holds the last fold: the four arguments walk back to the launch memory (no item writes one), the
  hidden code's array holds what the first pipeline left, and the readout's array what the second left.

  The regions' own data — what the body leaves in each window at each grid point, the invariant it keeps, and that
  the body run at a point does so — enter as hypotheses, one family per region, at any entry contents.
-/
import proofs.«110471_j26396869001917_1_alg».proof.Proof.Gen.Kernel.Launch
import proofs.«110471_j26396869001917_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- A core's TensorCore buffers, each whole at some contents. -/
abbrev Entry (F : FTy → Type) [BitOps F] : Type := (c : Dev nD) → (b : Ref sig .tc) → Buf (Elt F) ((c : Thread nD τ).loc b)

/-- What pipeline 0 contributes, at any entry contents `V`: its proof data, whose arrays are `V`'s, held at full share
    with nothing owed; the body's obligation at every point; and its invariant entered from and left at the scoped
    buffers no window stages beside the generator register. -/
structure Region0 (F : FTy → Type) [BitOps F] where
  dat : Entry F → (c : Dev nD) → Dat τ (Elt F) Unit ℕ (UR sig nD τ) ℕ cfg0 c
  hA : ∀ V c (w : Fin cfg0.W), (dat V c).A w = V c (Pipeline.arrRef spec0 w)
  hq : ∀ V c (w : Fin cfg0.W), (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- What pipeline 1 contributes, at any entry contents `V`: its proof data, whose arrays are `V`'s, held at full share
    with nothing owed; the body's obligation at every point; and its invariant entered from and left at the scoped
    buffers no window stages beside the generator register. -/
structure Region1 (F : FTy → Type) [BitOps F] where
  dat : Entry F → (c : Dev nD) → Dat τ (Elt F) Unit ℕ (UR sig nD τ) ℕ cfg1 c
  hA : ∀ V c (w : Fin cfg1.W), (dat V c).A w = V c (Pipeline.arrRef spec1 w)
  hq : ∀ V c (w : Fin cfg1.W), (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

variable (R0 : Region0 F) (R1 : Region1 F)
variable (m : (ℓ : Loc nD τ sig) → Buf (Elt F) ℓ) (ρ : Dev nD → PrngReg)

/-! ## The buffers' contents between items -/

/-- Core `c`'s buffers at launch (the first pipeline's entry). -/
abbrev W0 : Dev nD → Valuation τ sig (Elt F) := fun c b => (s₀ m ρ).mem ((c : Dev nD), b)
abbrev V0 : Entry F := fun c b => W0 m ρ c b
/-- After the first pipeline: its arrays at what it leaves, every other buffer as entered. -/
def W1 (c : Dev nD) : Valuation τ sig (Elt F) :=
  Pipeline.withArrays spec0 c (W0 m ρ c) fun w => (R0.dat (V0 m ρ) c).arrAt w cfg0.N
theorem W1_arr (c : Dev nD) (w : Fin cfg0.W) :
    W1 R0 m ρ c (Proc.devRef .tc (Pipeline.arrRef spec0 w)) = (R0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 R0 m ρ c (Proc.devRef .tc b) = W0 m ρ c (Proc.devRef .tc b) := by
  unfold W1; exact Pipeline.withArrays_of_ne spec0 c _ _ b hb
abbrev V1 : Entry F := fun c b => W1 R0 m ρ c b
theorem hF0 (c : Dev nD) (w : Fin cfg0.W) : (R0.dat (V0 m ρ) c).arrAt w cfg0.N = V1 R0 m ρ c (Pipeline.arrRef spec0 w) :=
  (W1_arr R0 m ρ c w).symm
theorem hrest0 (c : Dev nD) : ∀ b, b ∉ Finset.univ.image (Pipeline.arrRef spec0) → V1 R0 m ρ c b = V0 m ρ c b :=
  fun b hb => W1_of_ne R0 m ρ c b fun w e => hb (Finset.mem_image.mpr ⟨w, Finset.mem_univ _, e⟩)

/-- After the host stretch (the second pipeline's entry). -/
abbrev W2 : Dev nD → Valuation τ sig (Elt F) := fun c => StableHlo.after hostOps1 (W1 R0 m ρ c)
abbrev V2 : Entry F := fun c b => W2 R0 m ρ c b
/-- After the second pipeline. -/
def W3 (c : Dev nD) : Valuation τ sig (Elt F) :=
  Pipeline.withArrays spec1 c (W2 R0 m ρ c) fun w => (R1.dat (V2 R0 m ρ) c).arrAt w cfg1.N
theorem W3_arr (c : Dev nD) (w : Fin cfg1.W) :
    W3 R0 R1 m ρ c (Proc.devRef .tc (Pipeline.arrRef spec1 w)) = (R1.dat (V2 R0 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 R0 R1 m ρ c (Proc.devRef .tc b) = W2 R0 m ρ c (Proc.devRef .tc b) := by
  unfold W3; exact Pipeline.withArrays_of_ne spec1 c _ _ b hb
abbrev V3 : Entry F := fun c b => W3 R0 R1 m ρ c b
theorem hF1 (c : Dev nD) (w : Fin cfg1.W) : (R1.dat (V2 R0 m ρ) c).arrAt w cfg1.N = V3 R0 R1 m ρ c (Pipeline.arrRef spec1 w) :=
  (W3_arr R0 R1 m ρ c w).symm
theorem hrest1 (c : Dev nD) : ∀ b, b ∉ Finset.univ.image (Pipeline.arrRef spec1) → V3 R0 R1 m ρ c b = V2 R0 m ρ c b :=
  fun b hb => W3_of_ne R0 R1 m ρ c b fun w e => hb (Finset.mem_image.mpr ⟨w, Finset.mem_univ _, e⟩)

/-! ## The arguments end as launched, and the results hold what the pipelines left -/

/-- The host stretch writes the two re-formatted copies and nothing else. -/
theorem host_keeps (c : Dev nD) (b : Ref sig .tc) (h1 : b ≠ main_v1) (h2 : b ≠ main_v2) :
    W2 R0 m ρ c (Proc.devRef .tc b) = W1 R0 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, Finset.mem_singleton]
    exact ⟨StableHlo.devRef_ne_of_ne h1, StableHlo.devRef_ne_of_ne h2⟩))

/-- `main_arg0` is an input window's array of the first pipeline: it leaves the pipeline as it entered, and nothing else writes it. -/
theorem W3_main_arg0 (c : Dev nD) : W3 R0 R1 m ρ c (Proc.devRef .tc main_arg0) = m ((c : Thread nD τ).loc main_arg0) :=
  calc W3 R0 R1 m ρ c (Proc.devRef .tc main_arg0)
    _ = W2 R0 m ρ c (Proc.devRef .tc main_arg0) := W3_of_ne R0 R1 m ρ c main_arg0 (by decide)
    _ = W1 R0 m ρ c (Proc.devRef .tc main_arg0) := host_keeps R0 m ρ c main_arg0 (by decide) (by decide)
    _ = W0 m ρ c (Proc.devRef .tc main_arg0) := (W1_arr R0 m ρ c 0).trans (((R0.dat (V0 m ρ) c).arrAt_in 0 rfl _).trans (R0.hA (V0 m ρ) c 0))
    _ = m ((c : Thread nD τ).loc main_arg0) := rfl

/-- `main_arg1` is an input window's array of the first pipeline: it leaves the pipeline as it entered, and nothing else writes it. -/
theorem W3_main_arg1 (c : Dev nD) : W3 R0 R1 m ρ c (Proc.devRef .tc main_arg1) = m ((c : Thread nD τ).loc main_arg1) :=
  calc W3 R0 R1 m ρ c (Proc.devRef .tc main_arg1)
    _ = W2 R0 m ρ c (Proc.devRef .tc main_arg1) := W3_of_ne R0 R1 m ρ c main_arg1 (by decide)
    _ = W1 R0 m ρ c (Proc.devRef .tc main_arg1) := host_keeps R0 m ρ c main_arg1 (by decide) (by decide)
    _ = W0 m ρ c (Proc.devRef .tc main_arg1) := (W1_arr R0 m ρ c 1).trans (((R0.dat (V0 m ρ) c).arrAt_in 1 rfl _).trans (R0.hA (V0 m ρ) c 1))
    _ = m ((c : Thread nD τ).loc main_arg1) := rfl

/-- `main_arg2` is no window's array and no host operation writes it. -/
theorem W3_main_arg2 (c : Dev nD) : W3 R0 R1 m ρ c (Proc.devRef .tc main_arg2) = m ((c : Thread nD τ).loc main_arg2) :=
  calc W3 R0 R1 m ρ c (Proc.devRef .tc main_arg2)
    _ = W2 R0 m ρ c (Proc.devRef .tc main_arg2) := W3_of_ne R0 R1 m ρ c main_arg2 (by decide)
    _ = W1 R0 m ρ c (Proc.devRef .tc main_arg2) := host_keeps R0 m ρ c main_arg2 (by decide) (by decide)
    _ = W0 m ρ c (Proc.devRef .tc main_arg2) := W1_of_ne R0 m ρ c main_arg2 (by decide)
    _ = m ((c : Thread nD τ).loc main_arg2) := rfl

/-- `main_arg3` is an input window's array of the first pipeline: it leaves the pipeline as it entered, and nothing else writes it. -/
theorem W3_main_arg3 (c : Dev nD) : W3 R0 R1 m ρ c (Proc.devRef .tc main_arg3) = m ((c : Thread nD τ).loc main_arg3) :=
  calc W3 R0 R1 m ρ c (Proc.devRef .tc main_arg3)
    _ = W2 R0 m ρ c (Proc.devRef .tc main_arg3) := W3_of_ne R0 R1 m ρ c main_arg3 (by decide)
    _ = W1 R0 m ρ c (Proc.devRef .tc main_arg3) := host_keeps R0 m ρ c main_arg3 (by decide) (by decide)
    _ = W0 m ρ c (Proc.devRef .tc main_arg3) := (W1_arr R0 m ρ c 2).trans (((R0.dat (V0 m ρ) c).arrAt_in 2 rfl _).trans (R0.hA (V0 m ρ) c 2))
    _ = m ((c : Thread nD τ).loc main_arg3) := rfl

/-- The hidden code's array ends at what the first pipeline left: the second pipeline and the host stretch do not write it. -/
theorem W3_main_v0 (c : Dev nD) : W3 R0 R1 m ρ c (Proc.devRef .tc main_v0) = (R0.dat (V0 m ρ) c).arrAt 3 cfg0.N :=
  calc W3 R0 R1 m ρ c (Proc.devRef .tc main_v0)
    _ = W2 R0 m ρ c (Proc.devRef .tc main_v0) := W3_of_ne R0 R1 m ρ c main_v0 (by decide)
    _ = W1 R0 m ρ c (Proc.devRef .tc main_v0) := host_keeps R0 m ρ c main_v0 (by decide) (by decide)
    _ = (R0.dat (V0 m ρ) c).arrAt 3 cfg0.N := W1_arr R0 m ρ c 3

/-- The readout's array ends at what the second pipeline left. -/
theorem W3_main_v3 (c : Dev nD) : W3 R0 R1 m ρ c (Proc.devRef .tc main_v3) = (R1.dat (V2 R0 m ρ) c).arrAt 2 cfg1.N :=
  W3_arr R0 R1 m ρ c 2

/-! ## The proof data family and the thread state -/

/-- No pipeline has a prefetched table. -/
abbrev adm : (p : Fin 2) → (pcfgs (F := F) p).Adm := fun p => (cfgs p).toPCfg_adm
/-- Each pipeline's proof data at its entry contents. -/
def pdats : (p : Fin 2) → (c : Dev nD) → Dat τ (Elt F) Unit ℕ (UR sig nD τ) ℕ (Pipeline.pin (pcfgs (F := F)) adm p) c
  | ⟨0, _⟩ => fun c => R0.dat (V0 m ρ) c
  | ⟨1, _⟩ => fun c => R1.dat (V2 R0 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W3 R0 R1 m ρ c) ∗ ∃ r, prngReg c r)

/-! ## The pipelines as items -/

set_option backward.isDefEq.respectTransparency.types false in
/-- Pipeline 0 over the thread state: its arrays split out of the unscoped buffers and put back at the exit contents; the
    generator register and the scoped buffers no window stages into its invariant and out; nothing owed; no semaphore of
    its own. -/
def reg0 : Pipeline.RegionSeg (pcfgs (F := F)) adm (pdats R0 R1 m ρ) () defs₀ 𝒱₀ L lv 0 where
  win := launch0.win.to₀
  block_pos := launch0.block_pos
  stage_whole := launch0.stage_whole
  K := PEmpty
  osem k := k.elim
  ho := Pipeline.OwnSemFacts.none _
  hbody c := (R0.hbody (V0 m ρ) c).loose
  hwaits := Pipeline.hwaits_of_owed_zero _ _ _ _ L lv 0 fun c t => R0.howed (V0 m ρ) c t
  pre c := iprop(StableHlo.held (c : Thread nD τ) (Pipeline.ucRefs τ sig) (W0 m ρ c) ∗ Rest c)
  post c := iprop(StableHlo.held (c : Thread nD τ) (Pipeline.ucRefs τ sig) (W1 R0 m ρ c) ∗ Rest c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats R0 R1 m ρ) launch0.win launch0.arr_whole c
      ((pdats R0 R1 m ρ 0 c).share_full fun w => R0.hq (V0 m ρ) c w) (V0 m ρ c) fun w => R0.hA (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((R0.hrec (V0 m ρ) c 0).symm ▸ Set.mem_univ _)
      rw [show (pdats R0 R1 m ρ 0 c).owed 0 = 0 from R0.howed (V0 m ρ) c 0]
      iexact HO
    isplitl [Hp]; · iexact Hp
    iexact Hrest
  hin c := by
    refine BI.Entails.trans ?_ (R0.hin (V0 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (R0.hout (V0 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R0 R1 m ρ) ((pdats R0 R1 m ρ 0 c).share_full fun w => R0.hq (V0 m ρ) c w)
      (V0 m ρ c) (V1 R0 m ρ c) ((pdats R0 R1 m ρ 0 c).arrAt · cfg0.N) (hF0 R0 m ρ c) (hrest0 R0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats R0 R1 m ρ 0 c).owed (Fin.last _) = 0 from R0.howed (V0 m ρ) c _]
    icases HO with ⟨%W, -, HO⟩; iexists W; iexact HO

set_option backward.isDefEq.respectTransparency.types false in
/-- Pipeline 1 over the thread state: its arrays split out of the unscoped buffers and put back at the exit contents; the
    generator register and the scoped buffers no window stages into its invariant and out; nothing owed; no semaphore of
    its own. -/
def reg1 : Pipeline.RegionSeg (pcfgs (F := F)) adm (pdats R0 R1 m ρ) () defs₀ 𝒱₀ L lv 1 where
  win := launch1.win.to₀
  block_pos := launch1.block_pos
  stage_whole := launch1.stage_whole
  K := PEmpty
  osem k := k.elim
  ho := Pipeline.OwnSemFacts.none _
  hbody c := (R1.hbody (V2 R0 m ρ) c).loose
  hwaits := Pipeline.hwaits_of_owed_zero _ _ _ _ L lv 1 fun c t => R1.howed (V2 R0 m ρ) c t
  pre c := iprop(StableHlo.held (c : Thread nD τ) (Pipeline.ucRefs τ sig) (W2 R0 m ρ c) ∗ Rest c)
  post c := iprop(Tₙ R0 R1 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 R0 m ρ c)
  hentry c := by
    rw [Pipeline.ownSems0_none]
    have hsplit := Pipeline.arrays_of_unscopedBufs (p := 1) (pcfgs (F := F)) adm (pdats R0 R1 m ρ) launch1.win launch1.arr_whole c
      ((pdats R0 R1 m ρ 1 c).share_full fun w => R1.hq (V2 R0 m ρ) c w) (V2 R0 m ρ c) fun w => R1.hA (V2 R0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((R1.hrec (V2 R0 m ρ) c 0).symm ▸ Set.mem_univ _)
      rw [show (pdats R0 R1 m ρ 1 c).owed 0 = 0 from R1.howed (V2 R0 m ρ) c 0]
      iexact HO
    isplitl [Hp]; · iexact Hp
    iexact Hrest
  hin c := by
    refine BI.Entails.trans ?_ (R1.hin (V2 R0 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (R1.hout (V2 R0 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R0 R1 m ρ) ((pdats R0 R1 m ρ 1 c).share_full fun w => R1.hq (V2 R0 m ρ) c w)
      (V2 R0 m ρ c) (V3 R0 R1 m ρ c) ((pdats R0 R1 m ρ 1 c).arrAt · cfg1.N) (hF1 R0 R1 m ρ c) (hrest1 R0 R1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats R0 R1 m ρ 1 c).owed (Fin.last _) = 0 from R1.howed (V2 R0 m ρ) c _]
    icases HO with ⟨%W, -, HO⟩; iexists W; iexact HO

/-! ## @main as items, and the run -/

abbrev segs : List (Pipeline.Seg (pcfgs (F := F)) adm (pdats R0 R1 m ρ) () defs₀ 𝒱₀ L lv) :=
  [ .region (reg0 R0 R1 m ρ),
    .host (hseg hostOps1 hostOps1_sub hostOps1_fresh (W1 R0 m ρ)),
    .region (reg1 R0 R1 m ρ) ]
theorem main_run (c : Dev nD) : main (F := F) c = Pipeline.Seg.run (segs R0 R1 m ρ) := (main_chain c).trans (by chain_rfl)

set_option backward.isDefEq.respectTransparency.types false in
/-- From any memory with zero counters every weakly fair execution of @main terminates, nothing faulting, and the final
    memory holds every unscoped buffer at the last fold `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 R0 R1 m ρ c b) :=
  Pipeline.θ_run_regions_kit (pcfgs (F := F)) adm (pdats R0 R1 m ρ) () cellOf_inj emb₁ defs₀ 𝒱₀ L lv m ρ main (segs R0 R1 m ρ)
    (fun c Q => by rw [main_run R0 R1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tₙ R0 R1 m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 R0 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 R0 R1 m ρ c) s')
      isplitl [Hh] <;> iassumption)
    (hQ := fun s h c => h c)

/-- The run with the four arguments and the two results read off: the arguments as launched, the hidden code's array at
    what the first pipeline left, the readout's array at what the second left. -/
theorem run_results : θ_run defs (onTc (τ := τ) (main (F := F))) ⟨m, fun _ => 0, ρ⟩ (fun r => ∀ c : Dev nD,
      (r.2.mem ((c.tc : Thread nD τ).loc main_v3) = (R1.dat (V2 R0 m ρ) c).arrAt 2 cfg1.N
        ∧ r.2.mem ((c.tc : Thread nD τ).loc main_v0) = (R0.dat (V0 m ρ) c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨⟨(h c _ (mem_uc main_v3 (by decide))).trans (W3_main_v3 R0 R1 m ρ c),
      (h c _ (mem_uc main_v0 (by decide))).trans (W3_main_v0 R0 R1 m ρ c)⟩,
     (h c _ (mem_uc main_arg0 (by decide))).trans (W3_main_arg0 R0 R1 m ρ c),
     (h c _ (mem_uc main_arg1 (by decide))).trans (W3_main_arg1 R0 R1 m ρ c),
     (h c _ (mem_uc main_arg2 (by decide))).trans (W3_main_arg2 R0 R1 m ρ c),
     (h c _ (mem_uc main_arg3 (by decide))).trans (W3_main_arg3 R0 R1 m ρ c)⟩)
    (run_all R0 R1 m ρ)

include R0 R1 in
/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_results R0 R1 m ρ)

end Cert.Kernel.Whole

end
-- ==== Proof.IdealRegion0.Run.lean ====
/- The first stage's kernel body on whole blocks. From the three input blocks held at given contents, the output
   block and the scratch block held at anything, the body returns with the inputs as they were, the output block at
   a list of written pieces and the scratch at some contents. Every load of the scratch follows a whole store into it,
   and the one load of the output block feeds nothing, so what the body leaves is a function of the three input blocks
   alone. -/
import proofs.«110471_j26396869001917_1_alg».proof.Proof.Gen.KernelIdeal.Launch
import proofs.«110471_j26396869001917_1_alg».proof.Proof.Gen.KernelIdeal.Skeleton
import proofs.«110471_j26396869001917_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block's memref, as pieces (last first), WITH the triple: on whole
    memrefs — the three inputs' at contents `x0`, `x1`, `x2`, the output's and the scratch's at anything — the body runs
    to the continuation holding the inputs' as they were, the output's with its pieces written and the scratch's at
    some contents. -/
noncomputable def kernelRun0 (c : Dev nD) (i : grid0.Coords)
    (arg2 : Memref sig .tc .vmem S64x43x512 .f32) (harg2 : arg2.IsWhole)
    (arg3 : Memref sig .tc .vmem S1024x512 .f32) (harg3 : arg3.IsWhole)
    (arg4 : Memref sig .tc .vmem S43x1024 .f32) (harg4 : arg4.IsWhole)
    (arg5 : Memref sig .tc .vmem S64x1024 .f32) (harg5 : arg5.IsWhole)
    (arg6 : Memref sig .tc .vmem S64x1024 .f32) (harg6 : arg6.IsWhole)
    (x0 : Vec F S64x43x512 .f32) (x1 : Vec F S1024x512 .f32) (x2 : Vec F S43x1024 .f32) :
    { L3 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} f)) -∗ K ⟨⟩))
          ⊢ wp frame (wpE (defs₀ (F := F)) Variants.none c none) E (cc0_kernel1_body i arg2 harg2 arg3 harg3 arg4 harg4 arg5 harg5 arg6 harg6) K } := by
  refine ⟨?_, fun E K => ?run⟩
  case run =>
    simp only [cc0_kernel1_body_eq_skeleton]; unfold cc0_kernel1_body_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec_parts
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Reg0

end
-- ==== Proof.LibHiLoMatmul.lean ====
/-
  A matrix product `A · Bᵀ` of an `[m, k]` by an `[n, k]` operand (both contracted on their last axis) that is computed
  as THREE products into a zero accumulator, each operand split into a leading part and the remainder left after taking
  the leading part away,

      lead A · lead Bᵀ  +  lead A · rest Bᵀ  +  rest A · lead Bᵀ,

  read at an index over the extended reals. There the narrowing to the leading part is the identity, so the remainder
  of a FINITE entry is `a − a = 0`, the two mixed products vanish term by term (`a · 0 = 0`, `0 · b = 0`), and the
  three-product sum at `(p, q)` is the plain inner product `∑ c, A (p, c) · B (q, c)`. Proved here:

  • `sub_self_of_real`: a finite extended real minus itself is zero;
  • `matmul_nt_zero_apply`: one such product into the zero splat, read at `(p, q)`, is the sum over the contracted
    coordinate `c : Fin k` of `A (p, c) · B (q, c)`;
  • `three_matmul_apply`: the three-product sum above, for operands with finite entries, is that same inner product;
  • `sign_select_apply`: the vector term `select (|x| > 0) (select (x < 0) (−1) 1) x` read at an index is `Ideal.sign`
    of the element, at every extended real.
-/
import Idealize.ShloMosaic.Lib.ValueLayout
import Idealize.ShloMosaic.PureOps.Ideal.Laws

namespace Cert.HiLoMatmul

open Idealize.ShloMosaic Idealize.ShloMosaic.ValueIdx

/-- A finite extended real minus itself is zero (which fails at the two infinities). -/
theorem sub_self_of_real {x : EReal} (h : ∃ r : ℝ, x = (r : EReal)) : x - x = 0 := by
  obtain ⟨r, rfl⟩ := h
  rw [← EReal.coe_sub, sub_self, EReal.coe_zero]

/-- The dimension numbers of `A · Bᵀ`: both operands contracted on axis 1, rows of each kept. -/
abbrev ntDims {m k n : ℕ} (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- One product `A · Bᵀ` into the zero splat, read at `(p, q)`: the sum over the contracted coordinate of the
    products of the entries. -/
theorem matmul_nt_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (p : Fin m) (q : Fin n) :
    FloatOps.matmul (ntDims w) prec A B (constant (F := Ideal) ⟨2, ![m, n]⟩ .f32 0x00000000#32) (ix2 p q)
      = ∑ c : Fin k, A (ix2 p c) * B (ix2 q c) := by
  rw [Ideal.matmul_constant_zero_apply, ← Equiv.sum_comp (contrEquiv1 (ntDims w) k rfl rfl).symm]
  refine Finset.sum_congr rfl fun c _ => ?_
  have hc := contrEquiv1_symm_val (ntDims w) k rfl rfl c
  have hl : (ntDims w).lhsIdx (ix2 p q) ((contrEquiv1 (ntDims w) k rfl rfl).symm c) = ix2 p c := by
    funext ax; apply Fin.ext
    match ax with
    | ⟨0, _⟩ => simp [DotDims.lhsIdx]; rfl
    | ⟨1, _⟩ => simp [DotDims.lhsIdx]; exact hc
  have hr : (ntDims w).rhsIdx (ix2 p q) ((contrEquiv1 (ntDims w) k rfl rfl).symm c) = ix2 q c := by
    funext ax; apply Fin.ext
    match ax with
    | ⟨0, _⟩ => simp [DotDims.rhsIdx]; rfl
    | ⟨1, _⟩ => simp [DotDims.rhsIdx]; exact hc
  rw [hl, hr]

/-- The three-product sum: with the narrowing the identity and every entry finite, the two products against a
    remainder are sums of zeros, and what is left is the inner product. -/
theorem three_matmul_apply {m k n : ℕ} {φ : FTy}
    (w : DotDims.WF ⟨2, ![m, k]⟩ ⟨2, ![n, k]⟩ ⟨2, ![m, n]⟩ [1] [1] [0] [0] [] [])
    (prec : Option ContractPrecision) (hlt : φ.bits < FTy.bits .f32)
    (A : FVec Ideal ⟨2, ![m, k]⟩ .f32) (B : FVec Ideal ⟨2, ![n, k]⟩ .f32)
    (hA : ∀ j, ∃ r : ℝ, A j = (r : EReal)) (hB : ∀ j, ∃ r : ℝ, B j = (r : EReal)) (p : Fin m) (q : Fin n) :
    addf (addf
        (matmul (ntDims w) prec (truncf φ A hlt) (truncf φ B hlt) (constant ⟨2, ![m, n]⟩ .f32 0x00000000#32))
        (matmul (ntDims w) prec (truncf φ A hlt) (truncf φ (subf B B) hlt) (constant ⟨2, ![m, n]⟩ .f32 0x00000000#32)))
        (matmul (ntDims w) prec (truncf φ (subf A A) hlt) (truncf φ B hlt) (constant ⟨2, ![m, n]⟩ .f32 0x00000000#32))
        (ix2 p q)
      = ∑ c : Fin k, A (ix2 p c) * B (ix2 q c) := by
  rw [addf_apply, addf_apply]
  simp only [matmul]
  rw [matmul_nt_zero_apply, matmul_nt_zero_apply, matmul_nt_zero_apply]
  have h2 : ∑ c : Fin k, (truncf φ A hlt : FVec Ideal _ φ) (ix2 p c) * (truncf φ (subf B B) hlt : FVec Ideal _ φ) (ix2 q c) = 0 :=
    Finset.sum_eq_zero fun c _ => by
      rw [truncf_apply, truncf_apply, subf_apply, sub_self_of_real (hB _), mul_zero]
  have h3 : ∑ c : Fin k, (truncf φ (subf A A) hlt : FVec Ideal _ φ) (ix2 p c) * (truncf φ B hlt : FVec Ideal _ φ) (ix2 q c) = 0 :=
    Finset.sum_eq_zero fun c _ => by
      rw [truncf_apply, truncf_apply, subf_apply, sub_self_of_real (hA _), zero_mul]
  rw [h2, h3, add_zero, add_zero]
  exact Finset.sum_congr rfl fun c _ => by rw [truncf_apply, truncf_apply]

/-- The term printed for a sign, `select (|x| > 0) (select (x < 0) (−1) 1) x` over a whole `f32` vector, read at an
    index: `Ideal.sign` of the element, the two infinities and zero included. -/
theorem sign_select_apply {s : Shape} (x : FVec Ideal s .f32) (i : s.Idx) :
    select (cmpf .ogt (absf x) (broadcast s (Scalar.ofBits .f32 0x00000000#32)))
        (select (cmpf .olt x (constant s .f32 0x00000000#32)) (constant s .f32 0xBF800000#32)
          (constant s .f32 0x3F800000#32)) x i
      = Ideal.sign (x i) :=
  Ideal.jnp_sign_eq_sign_f32 (x i)

end Cert.HiLoMatmul
-- ==== Proof.LibPairLayout.lean ====
/-
  Rank-3 layout operations read at an index given by coordinates, for a pairwise difference `u[p, d] − v[d, q]` laid out
  as `[a, c, n]`: a middle unit axis dropped (`[a, 1, c]` to `[a, c]`), a trailing unit axis added (`[a, c]` to `[a, c, 1]`),
  that trailing axis broadcast (`[a, c, 1]` to `[a, c, n]`), a leading unit axis broadcast (`[1, c, n]` to `[a, c, n]`),
  the index a reduction over the middle axis inserts (`[a, c, n]` to `[a, n]`), the one a reduction over the last axis of
  a matrix inserts (`[a, n]` to `[a]`), and a rank-3 transpose that brings the leading axis last.
-/
import Idealize.ShloMosaic.Lib.ValueLayout
import Idealize.ShloMosaic.PureOps.Ideal.Laws

namespace Cert.PairLayout

open Idealize.ShloMosaic Idealize.ShloMosaic.ValueIdx

variable {α : Type}

/-- An `[a, 1, c]` array cast to `[a, c]` reads, at `(p, d)`, the operand at `(p, 0, d)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (d : Fin c) :
    shapeCast ⟨2, ![a, c]⟩ x h (ix2 p d) = x (ix3 p (0 : Fin 1) d) :=
  shapeCast_apply x h _ _ (by
    rw [Shape.rowMajor_val_three, Shape.rowMajor_val_two]
    show (p.val * 1 + 0) * c + d.val = p.val * c + d.val
    rw [Nat.mul_one, Nat.add_zero])

/-- An `[a, c]` array cast to `[a, c, 1]` reads, at `(p, d, u)`, the operand at `(p, d)`. -/
theorem shapeCast_ac_ac1_apply {a c : ℕ} (x : (⟨2, ![a, c]⟩ : Shape).Idx → α)
    (h : (⟨2, ![a, c]⟩ : Shape).ShapeCasts ⟨3, ![a, c, 1]⟩) (p : Fin a) (d : Fin c) (u : Fin 1) :
    shapeCast ⟨3, ![a, c, 1]⟩ x h (ix3 p d u) = x (ix2 p d) :=
  shapeCast_apply x h _ _ (by
    have hu : u.val = 0 := by omega
    rw [Shape.rowMajor_val_three, Shape.rowMajor_val_two]
    show p.val * c + d.val = (p.val * c + d.val) * 1 + u.val
    rw [hu, Nat.mul_one, Nat.add_zero])

/-- An `[a, c, 1]` array broadcast to `[a, c, n]` reads, at `(p, d, q)`, the operand at `(p, d, 0)`. -/
theorem broadcastTo_ac1_acn_apply {a c n : ℕ} (v : (⟨3, ![a, c, 1]⟩ : Shape).Idx → α)
    (h : (⟨3, ![a, c, 1]⟩ : Shape).Broadcasts ⟨3, ![a, c, n]⟩) (p : Fin a) (d : Fin c) (q : Fin n) :
    broadcastTo ⟨3, ![a, c, n]⟩ v h (ix3 p d q) = v (ix3 p d (0 : Fin 1)) := by
  refine broadcastTo_apply v h (ix3 p d q) (ix3 p d (0 : Fin 1)) fun ax => ?_
  match ax with
  | ⟨0, _⟩ =>
    show p.val = if a = 1 then 0 else p.val
    split
    · have := p.isLt; omega
    · rfl
  | ⟨1, _⟩ =>
    show d.val = if c = 1 then 0 else d.val
    split
    · have := d.isLt; omega
    · rfl
  | ⟨2, _⟩ => rfl

/-- A `[1, c, n]` array broadcast to `[a, c, n]` reads, at `(p, d, q)`, the operand at `(0, d, q)`. -/
theorem broadcastTo_1cn_acn_apply {a c n : ℕ} (v : (⟨3, ![1, c, n]⟩ : Shape).Idx → α)
    (h : (⟨3, ![1, c, n]⟩ : Shape).Broadcasts ⟨3, ![a, c, n]⟩) (p : Fin a) (d : Fin c) (q : Fin n) :
    broadcastTo ⟨3, ![a, c, n]⟩ v h (ix3 p d q) = v (ix3 (0 : Fin 1) d q) := by
  refine broadcastTo_apply v h (ix3 p d q) (ix3 (0 : Fin 1) d q) fun ax => ?_
  match ax with
  | ⟨0, _⟩ => rfl
  | ⟨1, _⟩ =>
    show d.val = if c = 1 then 0 else d.val
    split
    · have := d.isLt; omega
    · rfl
  | ⟨2, _⟩ =>
    show q.val = if n = 1 then 0 else q.val
    split
    · have := q.isLt; omega
    · rfl

/-- The source index a reduction of `[a, c, n]` over its middle axis visits for result index `(p, q)` and
    coordinate `d` is `(p, d, q)`. -/
theorem lift_middle {a c n : ℕ} (h : (⟨3, ![a, c, n]⟩ : Shape).Reduces [(1 : Fin 3)] ⟨2, ![a, n]⟩)
    (p : Fin a) (q : Fin n) (d : Fin c) : h.lift (ix2 p q) d = ix3 p d q :=
  funext fun ax => Fin.ext (by
    match ax with
    | ⟨0, _⟩ => rfl
    | ⟨1, _⟩ => rfl
    | ⟨2, _⟩ => rfl)

/-- The source index a reduction of `[a, n]` over its columns visits for row `p` and coordinate `q` is `(p, q)`. -/
theorem lift_cols {a n : ℕ} (h : (⟨2, ![a, n]⟩ : Shape).Reduces [(1 : Fin 2)] ⟨1, ![a]⟩)
    (p : Fin a) (q : Fin n) : h.lift (ix1 p) q = ix2 p q :=
  funext fun ax => Fin.ext (by
    match ax with
    | ⟨0, _⟩ => rfl
    | ⟨1, _⟩ => rfl)

/-- The lane reduction of `[a, c, n]` over its middle axis from the zero word, at `(p, q)`: the sum over `d` of the
    source at `(p, d, q)`. -/
theorem middleSum_apply {a c n : ℕ} (src : FVec Ideal ⟨3, ![a, c, n]⟩ .f32)
    (h : (⟨3, ![a, c, n]⟩ : Shape).Reduces [(1 : Fin 3)] ⟨2, ![a, n]⟩)
    (hφ : FKind.Formats .f32) (hacc : (0x00000000#32 : BitVec 32) = FKind.add.neutral .f32 hφ) (p : Fin a) (q : Fin n) :
    multiReduction .add [(1 : Fin 3)] ⟨2, ![a, n]⟩ src 0x00000000#32 h hφ hacc (ix2 p q) = ∑ d : Fin c, src (ix3 p d q) :=
  (Ideal.multiReduction_add_single src 0x00000000#32 h hφ hacc (ix2 p q)).trans
    (Finset.sum_congr rfl fun d _ => congrArg src (lift_middle h p q d))

/-- An `[m, a, b]` array transposed by the permutation `[1, 2, 0]` (result axes are source axes 1, 2, 0) reads, at
    `(i, j, k)`, the operand at `(k, i, j)`. -/
theorem transpose_ix3_120_apply {m a b : ℕ} (x : (⟨3, ![m, a, b]⟩ : Shape).Idx → α)
    (h : (⟨3, ![m, a, b]⟩ : Shape).Transposes [1, 2, 0] ⟨3, ![a, b, m]⟩) (i : Fin a) (j : Fin b) (k : Fin m) :
    transpose ⟨3, ![a, b, m]⟩ [1, 2, 0] x h (ix3 i j k) = x (ix3 k i j) :=
  transpose_apply _ x h _ _ fun c => match c with | ⟨0, _⟩ => rfl | ⟨1, _⟩ => rfl | ⟨2, _⟩ => rfl

end Cert.PairLayout
-- ==== Proof.BandAlgebra.lean ====
/-
  The arithmetic of one band of the first stage, read at one element of the `[64, 1024]` accumulator, over the extended
  reals. A band takes a slab `xs : [64, 1, 512]` of the input, the weight block `w : [1024, 512]`, one row
  `bprow : [1, 1024]` of the band's code and the running accumulator `acc : [64, 1024]`, and returns

      acc + sign ((xs · wᵀ) * bprow),

  the product `xs · wᵀ` taken as three products of leading parts and remainders of the two operands. With finite entries
  of `xs` and `w` the three products add up to the plain inner product over the 512 features
  (`Cert.HiLoMatmul.three_matmul_apply`), the row of the code is read through its two reshapes and its broadcast over the
  64 rows, and the printed sign term is `Ideal.sign` at every extended real (`Cert.HiLoMatmul.sign_select_apply`).

  • `band_apply`: the band whose weight parts arrive already formed (the leading part `Gen.k0_pay3 w` and the remainder
    `Gen.k0_pay4 w`), at `(r, q)`;
  • `first_band_apply`: the first band, which forms the two weight parts itself, at `(r, q)`;
  • `zero_apply`: the accumulator's initial value is `0` everywhere;
  • `final_apply`: the value stored at the end is `Ideal.sign` of the accumulator, element by element.
-/
import proofs.«110471_j26396869001917_1_alg».proof.Proof.Gen.KernelIdeal.Skeleton
import proofs.«110471_j26396869001917_1_alg».proof.Proof.LibHiLoMatmul
import proofs.«110471_j26396869001917_1_alg».proof.Proof.LibPairLayout

namespace Cert.KernelIdeal.Band

open Idealize.ShloMosaic Idealize.ShloMosaic.ValueIdx Idealize.SL.Sem

/-- The band's dimension numbers are those of `A · Bᵀ`: both operands contracted on their last axis. -/
theorem dot_eq : dot_S64x512_S1024x512_S64x1024_1_1_0_0_n_n
    = Cert.HiLoMatmul.ntDims Gen.dot_S64x512_S1024x512_S64x1024_1_1_0_0_n_n_wf := rfl

/-- A slab with finite entries, its middle unit axis dropped, has finite entries. -/
theorem slab_finite (xs : Vec Ideal S64x1x512 .f32) (hx : ∀ j, ∃ r : ℝ, xs j = (r : EReal)) (j : S64x512.Idx) :
    ∃ r : ℝ, (shapeCast S64x512 xs Gen.shapeCasts_S64x1x512_S64x512 : FVec Ideal S64x512 .f32) j = (r : EReal) := by
  obtain ⟨p, d, rfl⟩ : ∃ (p : Fin 64) (d : Fin 512), j = ix2 p d := ⟨j 0, j 1, eq_ix2 j⟩
  rw [Cert.PairLayout.shapeCast_a1c_ac_apply]
  exact hx _

/-- One band at `(r, q)`: the accumulator there plus the sign of (the inner product of row `r` of the slab with row `q`
    of the weights) times the code's entry `q`. The entries of the slab and of the weights are finite; the code's row
    and the accumulator are any extended reals. -/
theorem band_apply (w : Vec Ideal S1024x512 .f32) (xs : Vec Ideal S64x1x512 .f32) (bprow : Vec Ideal S1x1024 .f32)
    (acc : Vec Ideal S64x1024 .f32)
    (hw : ∀ j, ∃ r : ℝ, w j = (r : EReal)) (hx : ∀ j, ∃ r : ℝ, xs j = (r : EReal)) (r : Fin 64) (q : Fin 1024) :
    Gen.k0_pay6 (F := Ideal) (Gen.k0_pay3 w) (Gen.k0_pay4 w) xs bprow acc (ix2 r q)
      = acc (ix2 r q)
        + Ideal.sign ((∑ f : Fin 512, xs (ix3 r (0 : Fin 1) f) * w (ix2 q f)) * bprow (ix2 (0 : Fin 1) q)) := by
  unfold Gen.k0_pay6 Gen.k0_pay3 Gen.k0_pay4
  simp only []
  rw [shapeCast_self, addf_apply, Cert.HiLoMatmul.sign_select_apply, mulf_apply]
  rw [broadcastTo_1b_ab_apply, shapeCast_a_1a_apply, shapeCast_1a_a_apply]
  rw [dot_eq, Cert.HiLoMatmul.three_matmul_apply _ _ _ _ w (slab_finite xs hx) hw]
  simp only [Cert.PairLayout.shapeCast_a1c_ac_apply]

/-- The first band, which splits the weight block itself, at `(r, q)`: the same value. -/
theorem first_band_apply (w : Vec Ideal S1024x512 .f32) (xs : Vec Ideal S64x1x512 .f32) (bprow : Vec Ideal S1x1024 .f32)
    (acc : Vec Ideal S64x1024 .f32)
    (hw : ∀ j, ∃ r : ℝ, w j = (r : EReal)) (hx : ∀ j, ∃ r : ℝ, xs j = (r : EReal)) (r : Fin 64) (q : Fin 1024) :
    Gen.k0_pay5 (F := Ideal) w xs bprow acc (ix2 r q)
      = acc (ix2 r q)
        + Ideal.sign ((∑ f : Fin 512, xs (ix3 r (0 : Fin 1) f) * w (ix2 q f)) * bprow (ix2 (0 : Fin 1) q)) := by
  unfold Gen.k0_pay5 Gen.k0_pay3 Gen.k0_pay4
  simp only []
  rw [shapeCast_self, addf_apply, Cert.HiLoMatmul.sign_select_apply, mulf_apply]
  rw [broadcastTo_1b_ab_apply, shapeCast_a_1a_apply, shapeCast_1a_a_apply]
  rw [dot_eq, Cert.HiLoMatmul.three_matmul_apply _ _ _ _ w (slab_finite xs hx) hw]
  simp only [Cert.PairLayout.shapeCast_a1c_ac_apply]

/-- The first band is the band with the weight parts formed beforehand, as vectors. -/
theorem first_band_eq (w : Vec Ideal S1024x512 .f32) (xs : Vec Ideal S64x1x512 .f32) (bprow : Vec Ideal S1x1024 .f32)
    (acc : Vec Ideal S64x1024 .f32) :
    Gen.k0_pay5 (F := Ideal) w xs bprow acc = Gen.k0_pay6 (Gen.k0_pay3 w) (Gen.k0_pay4 w) xs bprow acc := rfl

/-- The accumulator starts at zero. -/
theorem zero_apply (i : S64x1024.Idx) : Gen.k0_pay2 (F := Ideal) i = 0 := by
  show shapeCast S64x1024 (broadcast S64x1024 (Scalar.ofBits (F := Ideal) .f32 0x00000000#32))
    Gen.shapeCasts_S64x1024_S64x1024 i = 0
  rw [shapeCast_self, broadcast_apply]
  exact Ideal.ofBits_zero_f32

/-- The value stored at the end: `Ideal.sign` of the accumulator, at every element. -/
theorem final_apply (v : Vec Ideal S64x1024 .f32) (i : S64x1024.Idx) :
    Gen.k0_pay1 (F := Ideal) v (Gen.k0_pay103 v) (Gen.k0_pay104 v) Gen.k0_pay105 i = Ideal.sign (v i) := by
  unfold Gen.k0_pay1 Gen.k0_pay103 Gen.k0_pay104 Gen.k0_pay105
  simp only []
  exact Cert.HiLoMatmul.sign_select_apply v i

end Cert.KernelIdeal.Band
-- ==== Proof.BandCuts.lean ====
/-
  Every band after the first is the same operation tree. The kernel's arithmetic is named in pieces that do not follow
  the bands: some bands are one piece, others are spread over two to five pieces composed in the order the data flows.
  For each band `n = 2 … 42`, `cut n` says that the band's pieces, composed as the kernel composes them, are the one-piece
  band `Gen.k0_pay6` (band 1's) at the same weight parts `v5`, `v8`, slab `xb`, code row `bq` and accumulator `s` — for
  every float instance, by unfolding. (Band 0 is `Gen.k0_pay5`, which forms the weight parts itself: `cut0`.) So one
  statement about `Gen.k0_pay6` serves all forty-three bands.
-/
import proofs.«110471_j26396869001917_1_alg».proof.Proof.Gen.KernelIdeal.Skeleton

namespace Cert.KernelIdeal.Band

open Idealize.ShloMosaic Idealize.SL.Sem

variable {F : FTy → Type} [FloatOps F]

/-- Band 0: it takes the weight block and forms the leading part and the remainder itself. -/
theorem cut0 (w : Vec F S1024x512 .f32) (xb : Vec F S64x1x512 .f32) (bq : Vec F S1x1024 .f32) (s : Vec F S64x1024 .f32) :
    Gen.k0_pay5 w xb bq s = Gen.k0_pay6 (Gen.k0_pay3 w) (Gen.k0_pay4 w) xb bq s := rfl

variable (v5 v8 : FVec F S1024x512 .bf16) (xb : Vec F S64x1x512 .f32) (bq : Vec F S1x1024 .f32) (s : Vec F S64x1024 .f32)

/-- Band 2. -/
theorem cut2 : Gen.k0_pay10 v5 (Gen.k0_pay8 xb) (Gen.k0_pay9 v5 v8 xb) (constant S64x1024 .f32 0x00000000#32) bq s
    = Gen.k0_pay6 v5 v8 xb bq s := rfl

/-- Band 3. -/
theorem cut3 : Gen.k0_pay12 (Gen.k0_pay11 v5 v8 xb bq) s
    = Gen.k0_pay6 v5 v8 xb bq s := rfl

/-- Band 4. -/
theorem cut4 : Gen.k0_pay13 v5 v8 xb bq s
    = Gen.k0_pay6 v5 v8 xb bq s := rfl

/-- Band 5. -/
theorem cut5 : Gen.k0_pay14 v5 v8 xb bq s
    = Gen.k0_pay6 v5 v8 xb bq s := rfl

/-- Band 6. -/
theorem cut6 : Gen.k0_pay16 (Gen.k0_pay15 v5 v8 xb) bq s
    = Gen.k0_pay6 v5 v8 xb bq s := rfl

/-- Band 7. -/
theorem cut7 : Gen.k0_pay21 (Gen.k0_pay17 v5 v8 xb bq) s (Gen.k0_pay18 v5 v8 xb bq) (Gen.k0_pay19 v5 v8 xb bq) Gen.k0_pay20
    = Gen.k0_pay6 v5 v8 xb bq s := rfl

/-- Band 8. -/
theorem cut8 : Gen.k0_pay22 v5 v8 xb bq s
    = Gen.k0_pay6 v5 v8 xb bq s := rfl

/-- Band 9. -/
theorem cut9 : Gen.k0_pay26 v5 v8 (Gen.k0_pay23 xb) (Gen.k0_pay24 xb) (Gen.k0_pay25 xb) bq s
    = Gen.k0_pay6 v5 v8 xb bq s := rfl

/-- Band 10. -/
theorem cut10 : Gen.k0_pay29 (Gen.k0_pay27 v5 v8 xb) (Gen.k0_pay28 bq) s
    = Gen.k0_pay6 v5 v8 xb bq s := rfl

/-- Band 11. -/
theorem cut11 : Gen.k0_pay31 (Gen.k0_pay30 v5 v8 xb bq s)
    = Gen.k0_pay6 v5 v8 xb bq s := rfl

/-- Band 12. -/
theorem cut12 : Gen.k0_pay32 v5 v8 xb bq s
    = Gen.k0_pay6 v5 v8 xb bq s := rfl

/-- Band 13. -/
theorem cut13 : Gen.k0_pay37 v5 v8 (Gen.k0_pay34 xb) (Gen.k0_pay35 xb) (Gen.k0_pay36 v5 xb) bq s
    = Gen.k0_pay6 v5 v8 xb bq s := rfl

/-- Band 14. -/
theorem cut14 : Gen.k0_pay39 (Gen.k0_pay38 v5 v8 xb bq) s
    = Gen.k0_pay6 v5 v8 xb bq s := rfl

/-- Band 15. -/
theorem cut15 : Gen.k0_pay40 v5 v8 xb bq s
    = Gen.k0_pay6 v5 v8 xb bq s := rfl

/-- Band 16. -/
theorem cut16 : Gen.k0_pay41 v5 v8 xb bq s
    = Gen.k0_pay6 v5 v8 xb bq s := rfl

/-- Band 17. -/
theorem cut17 : Gen.k0_pay45 v5 (Gen.k0_pay43 xb) (Gen.k0_pay44 v5 v8 xb) (constant S64x1024 .f32 0x00000000#32) bq s
    = Gen.k0_pay6 v5 v8 xb bq s := rfl

/-- Band 18. -/
theorem cut18 : Gen.k0_pay47 (Gen.k0_pay46 v5 v8 xb bq) s
    = Gen.k0_pay6 v5 v8 xb bq s := rfl

/-- Band 19. -/
theorem cut19 : Gen.k0_pay48 v5 v8 xb bq s
    = Gen.k0_pay6 v5 v8 xb bq s := rfl

/-- Band 20. -/
theorem cut20 : Gen.k0_pay49 v5 v8 xb bq s
    = Gen.k0_pay6 v5 v8 xb bq s := rfl

/-- Band 21. -/
theorem cut21 : Gen.k0_pay51 (Gen.k0_pay50 v5 v8 xb) bq s
    = Gen.k0_pay6 v5 v8 xb bq s := rfl

/-- Band 22. -/
theorem cut22 : Gen.k0_pay56 (Gen.k0_pay52 v5 v8 xb bq) s (Gen.k0_pay53 v5 v8 xb bq) (Gen.k0_pay54 v5 v8 xb bq) Gen.k0_pay55
    = Gen.k0_pay6 v5 v8 xb bq s := rfl

/-- Band 23. -/
theorem cut23 : Gen.k0_pay57 v5 v8 xb bq s
    = Gen.k0_pay6 v5 v8 xb bq s := rfl

/-- Band 24. -/
theorem cut24 : Gen.k0_pay61 v5 v8 (Gen.k0_pay58 xb) (Gen.k0_pay59 xb) (Gen.k0_pay60 xb) bq s
    = Gen.k0_pay6 v5 v8 xb bq s := rfl

/-- Band 25. -/
theorem cut25 : Gen.k0_pay64 (Gen.k0_pay62 v5 v8 xb) (Gen.k0_pay63 bq) s
    = Gen.k0_pay6 v5 v8 xb bq s := rfl

/-- Band 26. -/
theorem cut26 : Gen.k0_pay66 (Gen.k0_pay65 v5 v8 xb bq s)
    = Gen.k0_pay6 v5 v8 xb bq s := rfl

/-- Band 27. -/
theorem cut27 : Gen.k0_pay67 v5 v8 xb bq s
    = Gen.k0_pay6 v5 v8 xb bq s := rfl

/-- Band 28. -/
theorem cut28 : Gen.k0_pay72 v5 v8 (Gen.k0_pay69 xb) (Gen.k0_pay70 xb) (Gen.k0_pay71 v5 xb) bq s
    = Gen.k0_pay6 v5 v8 xb bq s := rfl

/-- Band 29. -/
theorem cut29 : Gen.k0_pay74 (Gen.k0_pay73 v5 v8 xb bq) s
    = Gen.k0_pay6 v5 v8 xb bq s := rfl

/-- Band 30. -/
theorem cut30 : Gen.k0_pay75 v5 v8 xb bq s
    = Gen.k0_pay6 v5 v8 xb bq s := rfl

/-- Band 31. -/
theorem cut31 : Gen.k0_pay76 v5 v8 xb bq s
    = Gen.k0_pay6 v5 v8 xb bq s := rfl

/-- Band 32. -/
theorem cut32 : Gen.k0_pay80 v5 (Gen.k0_pay78 xb) (Gen.k0_pay79 v5 v8 xb) (constant S64x1024 .f32 0x00000000#32) bq s
    = Gen.k0_pay6 v5 v8 xb bq s := rfl

/-- Band 33. -/
theorem cut33 : Gen.k0_pay82 (Gen.k0_pay81 v5 v8 xb bq) s
    = Gen.k0_pay6 v5 v8 xb bq s := rfl

/-- Band 34. -/
theorem cut34 : Gen.k0_pay83 v5 v8 xb bq s
    = Gen.k0_pay6 v5 v8 xb bq s := rfl

/-- Band 35. -/
theorem cut35 : Gen.k0_pay84 v5 v8 xb bq s
    = Gen.k0_pay6 v5 v8 xb bq s := rfl

/-- Band 36. -/
theorem cut36 : Gen.k0_pay86 (Gen.k0_pay85 v5 v8 xb) bq s
    = Gen.k0_pay6 v5 v8 xb bq s := rfl

/-- Band 37. -/
theorem cut37 : Gen.k0_pay91 (Gen.k0_pay87 v5 v8 xb bq) s (Gen.k0_pay88 v5 v8 xb bq) (Gen.k0_pay89 v5 v8 xb bq) Gen.k0_pay90
    = Gen.k0_pay6 v5 v8 xb bq s := rfl

/-- Band 38. -/
theorem cut38 : Gen.k0_pay92 v5 v8 xb bq s
    = Gen.k0_pay6 v5 v8 xb bq s := rfl

/-- Band 39. -/
theorem cut39 : Gen.k0_pay96 v5 v8 (Gen.k0_pay93 xb) (Gen.k0_pay94 xb) (Gen.k0_pay95 xb) bq s
    = Gen.k0_pay6 v5 v8 xb bq s := rfl

/-- Band 40. -/
theorem cut40 : Gen.k0_pay99 (Gen.k0_pay97 v5 v8 xb) (Gen.k0_pay98 bq) s
    = Gen.k0_pay6 v5 v8 xb bq s := rfl

/-- Band 41. -/
theorem cut41 : Gen.k0_pay101 (Gen.k0_pay100 v5 v8 xb bq s)
    = Gen.k0_pay6 v5 v8 xb bq s := rfl

/-- Band 42. -/
theorem cut42 : Gen.k0_pay102 v5 v8 xb bq s
    = Gen.k0_pay6 v5 v8 xb bq s := rfl

end Cert.KernelIdeal.Band
-- ==== Proof.Region0Value.lean ====
/-
  The first stage on one block, as a function of the block's inputs, and its value element by element.

  On a block the stage starts its `[64, 1024]` accumulator at zero, adds to it, band after band for the 43 bands, the sign
  of the band's score (the inner product of the band's slab of features with the weight rows, times the band's code), and
  ends with the sign of the accumulator. `chainOf` writes this down with the kernel's own pieces of arithmetic, in the
  order the data flows through them, over an abstract family of slabs `xb n : [64, 1, 512]` and code rows
  `bq n : [1, 1024]`; `accAfter … n` is the accumulator after the first `n` bands written with the one-piece band alone,
  and `chainOf_eq` identifies the two. Over the extended reals, for weights and slabs with finite entries,

      accAfter … n (r, q) = ∑ i < n, sign ((∑ f, xb i (r, 0, f) · w (q, f)) · bq i (0, q))          (`accAfter_apply`)
      chainOf w xb bq (r, q) = sign (∑ n : Fin 43, sign ((∑ f, xb n (r, 0, f) · w (q, f)) · bq n (0, q)))   (`chainOf_apply`).

  `chain x0 w x2` takes the slabs and rows out of the block's feature array `x0 : [64, 43, 512]` and code array
  `x2 : [43, 1024]` (`slab`, `row`), and `chain_apply` is the same value read off those arrays.
-/
import proofs.«110471_j26396869001917_1_alg».proof.Proof.BandAlgebra
import proofs.«110471_j26396869001917_1_alg».proof.Proof.BandCuts
import Idealize.ShloMosaic.Lib.Pipeline.FrameBody

noncomputable section

namespace Cert.KernelIdeal.Band

open Idealize.ShloMosaic Idealize.ShloMosaic.ValueIdx Idealize.SL.Sem
open scoped BigOperators

section AnyInstance
variable {F : FTy → Type} [FloatOps F]

/-- The stage on one block, with the kernel's pieces in the order the data flows: `s k` is the accumulator after its
    `k`-th update (`s1` the zero start, `s44` the last), `t_v…` the intermediate values handed from piece to piece. -/
def chainOf (w : Vec F S1024x512 .f32) (xb : Fin 43 → Vec F S64x1x512 .f32) (bq : Fin 43 → Vec F S1x1024 .f32) :
    FVec F S64x1024 .f32 :=
  have s1 := Gen.k0_pay2 (F := F)
  have t_v5 := Gen.k0_pay3 w
  have t_v8 := Gen.k0_pay4 w
  have t_v39 := Gen.k0_pay5 w (xb 0) (bq 0) s1
  have s2 := t_v39
  have s3 := Gen.k0_pay6 t_v5 t_v8 (xb 1) (bq 1) s2
  have t_v76 := Gen.k0_pay8 (xb 2)
  have t_v79 := Gen.k0_pay9 t_v5 t_v8 (xb 2)
  have s4 := Gen.k0_pay10 t_v5 t_v76 t_v79 (constant S64x1024 .f32 0x00000000#32) (bq 2) s3
  have t_v117 := Gen.k0_pay11 t_v5 t_v8 (xb 3) (bq 3)
  have s5 := Gen.k0_pay12 t_v117 s4
  have s6 := Gen.k0_pay13 t_v5 t_v8 (xb 4) (bq 4) s5
  have s7 := Gen.k0_pay14 t_v5 t_v8 (xb 5) (bq 5) s6
  have t_v205 := Gen.k0_pay15 t_v5 t_v8 (xb 6)
  have s8 := Gen.k0_pay16 t_v205 (bq 6) s7
  have t_v241 := Gen.k0_pay17 t_v5 t_v8 (xb 7) (bq 7)
  have t_v248 := Gen.k0_pay18 t_v5 t_v8 (xb 7) (bq 7)
  have t_v249 := Gen.k0_pay19 t_v5 t_v8 (xb 7) (bq 7)
  have t_v250 := Gen.k0_pay20 (F := F)
  have s9 := Gen.k0_pay21 t_v241 s8 t_v248 t_v249 t_v250
  have s10 := Gen.k0_pay22 t_v5 t_v8 (xb 8) (bq 8) s9
  have t_v289 := Gen.k0_pay23 (xb 9)
  have t_v290 := Gen.k0_pay24 (xb 9)
  have t_v291 := Gen.k0_pay25 (xb 9)
  have s11 := Gen.k0_pay26 t_v5 t_v8 t_v289 t_v290 t_v291 (bq 9) s10
  have t_v329 := Gen.k0_pay27 t_v5 t_v8 (xb 10)
  have t_v333 := Gen.k0_pay28 (bq 10)
  have s12 := Gen.k0_pay29 t_v329 t_v333 s11
  have t_v377 := Gen.k0_pay30 t_v5 t_v8 (xb 11) (bq 11) s12
  have s13 := Gen.k0_pay31 t_v377
  have s14 := Gen.k0_pay32 t_v5 t_v8 (xb 12) (bq 12) s13
  have t_v414 := Gen.k0_pay34 (xb 13)
  have t_v417 := Gen.k0_pay35 (xb 13)
  have t_v418 := Gen.k0_pay36 t_v5 (xb 13)
  have s15 := Gen.k0_pay37 t_v5 t_v8 t_v414 t_v417 t_v418 (bq 13) s14
  have t_v458 := Gen.k0_pay38 t_v5 t_v8 (xb 14) (bq 14)
  have s16 := Gen.k0_pay39 t_v458 s15
  have t_v504 := Gen.k0_pay40 t_v5 t_v8 (xb 15) (bq 15) s16
  have s17 := t_v504
  have s18 := Gen.k0_pay41 t_v5 t_v8 (xb 16) (bq 16) s17
  have t_v541 := Gen.k0_pay43 (xb 17)
  have t_v544 := Gen.k0_pay44 t_v5 t_v8 (xb 17)
  have s19 := Gen.k0_pay45 t_v5 t_v541 t_v544 (constant S64x1024 .f32 0x00000000#32) (bq 17) s18
  have t_v582 := Gen.k0_pay46 t_v5 t_v8 (xb 18) (bq 18)
  have s20 := Gen.k0_pay47 t_v582 s19
  have s21 := Gen.k0_pay48 t_v5 t_v8 (xb 19) (bq 19) s20
  have s22 := Gen.k0_pay49 t_v5 t_v8 (xb 20) (bq 20) s21
  have t_v670 := Gen.k0_pay50 t_v5 t_v8 (xb 21)
  have s23 := Gen.k0_pay51 t_v670 (bq 21) s22
  have t_v706 := Gen.k0_pay52 t_v5 t_v8 (xb 22) (bq 22)
  have t_v713 := Gen.k0_pay53 t_v5 t_v8 (xb 22) (bq 22)
  have t_v714 := Gen.k0_pay54 t_v5 t_v8 (xb 22) (bq 22)
  have t_v715 := Gen.k0_pay55 (F := F)
  have s24 := Gen.k0_pay56 t_v706 s23 t_v713 t_v714 t_v715
  have s25 := Gen.k0_pay57 t_v5 t_v8 (xb 23) (bq 23) s24
  have t_v754 := Gen.k0_pay58 (xb 24)
  have t_v755 := Gen.k0_pay59 (xb 24)
  have t_v756 := Gen.k0_pay60 (xb 24)
  have s26 := Gen.k0_pay61 t_v5 t_v8 t_v754 t_v755 t_v756 (bq 24) s25
  have t_v794 := Gen.k0_pay62 t_v5 t_v8 (xb 25)
  have t_v798 := Gen.k0_pay63 (bq 25)
  have s27 := Gen.k0_pay64 t_v794 t_v798 s26
  have t_v842 := Gen.k0_pay65 t_v5 t_v8 (xb 26) (bq 26) s27
  have s28 := Gen.k0_pay66 t_v842
  have s29 := Gen.k0_pay67 t_v5 t_v8 (xb 27) (bq 27) s28
  have t_v879 := Gen.k0_pay69 (xb 28)
  have t_v882 := Gen.k0_pay70 (xb 28)
  have t_v883 := Gen.k0_pay71 t_v5 (xb 28)
  have s30 := Gen.k0_pay72 t_v5 t_v8 t_v879 t_v882 t_v883 (bq 28) s29
  have t_v923 := Gen.k0_pay73 t_v5 t_v8 (xb 29) (bq 29)
  have s31 := Gen.k0_pay74 t_v923 s30
  have t_v969 := Gen.k0_pay75 t_v5 t_v8 (xb 30) (bq 30) s31
  have s32 := t_v969
  have s33 := Gen.k0_pay76 t_v5 t_v8 (xb 31) (bq 31) s32
  have t_v1006 := Gen.k0_pay78 (xb 32)
  have t_v1009 := Gen.k0_pay79 t_v5 t_v8 (xb 32)
  have s34 := Gen.k0_pay80 t_v5 t_v1006 t_v1009 (constant S64x1024 .f32 0x00000000#32) (bq 32) s33
  have t_v1047 := Gen.k0_pay81 t_v5 t_v8 (xb 33) (bq 33)
  have s35 := Gen.k0_pay82 t_v1047 s34
  have s36 := Gen.k0_pay83 t_v5 t_v8 (xb 34) (bq 34) s35
  have s37 := Gen.k0_pay84 t_v5 t_v8 (xb 35) (bq 35) s36
  have t_v1135 := Gen.k0_pay85 t_v5 t_v8 (xb 36)
  have s38 := Gen.k0_pay86 t_v1135 (bq 36) s37
  have t_v1171 := Gen.k0_pay87 t_v5 t_v8 (xb 37) (bq 37)
  have t_v1178 := Gen.k0_pay88 t_v5 t_v8 (xb 37) (bq 37)
  have t_v1179 := Gen.k0_pay89 t_v5 t_v8 (xb 37) (bq 37)
  have t_v1180 := Gen.k0_pay90 (F := F)
  have s39 := Gen.k0_pay91 t_v1171 s38 t_v1178 t_v1179 t_v1180
  have s40 := Gen.k0_pay92 t_v5 t_v8 (xb 38) (bq 38) s39
  have t_v1219 := Gen.k0_pay93 (xb 39)
  have t_v1220 := Gen.k0_pay94 (xb 39)
  have t_v1221 := Gen.k0_pay95 (xb 39)
  have s41 := Gen.k0_pay96 t_v5 t_v8 t_v1219 t_v1220 t_v1221 (bq 39) s40
  have t_v1259 := Gen.k0_pay97 t_v5 t_v8 (xb 40)
  have t_v1263 := Gen.k0_pay98 (bq 40)
  have s42 := Gen.k0_pay99 t_v1259 t_v1263 s41
  have t_v1307 := Gen.k0_pay100 t_v5 t_v8 (xb 41) (bq 41) s42
  have s43 := Gen.k0_pay101 t_v1307
  have s44 := Gen.k0_pay102 t_v5 t_v8 (xb 42) (bq 42) s43
  have t_v1348 := Gen.k0_pay103 s44
  have t_v1349 := Gen.k0_pay104 s44
  have t_v1350 := Gen.k0_pay105 (F := F)
  Gen.k0_pay1 s44 t_v1348 t_v1349 t_v1350

/-- The accumulator after the first `n` bands, each band the one-piece band. -/
def accAfter (w : Vec F S1024x512 .f32) (xb : Fin 43 → Vec F S64x1x512 .f32) (bq : Fin 43 → Vec F S1x1024 .f32) :
    ℕ → FVec F S64x1024 .f32
  | 0 => Gen.k0_pay2
  | n + 1 => if h : n < 43 then
      Gen.k0_pay6 (Gen.k0_pay3 w) (Gen.k0_pay4 w) (xb ⟨n, h⟩) (bq ⟨n, h⟩) (accAfter w xb bq n)
    else accAfter w xb bq n

/-- The stage is the sign term of the accumulator after all 43 bands. -/
theorem chainOf_eq (w : Vec F S1024x512 .f32) (xb : Fin 43 → Vec F S64x1x512 .f32) (bq : Fin 43 → Vec F S1x1024 .f32) :
    chainOf w xb bq
      = Gen.k0_pay1 (accAfter w xb bq 43) (Gen.k0_pay103 (accAfter w xb bq 43)) (Gen.k0_pay104 (accAfter w xb bq 43))
          Gen.k0_pay105 := by
  unfold chainOf
  simp only [cut0, cut2, cut3, cut4, cut5, cut6, cut7, cut8, cut9, cut10, cut11, cut12, cut13, cut14, cut15, cut16, cut17, cut18, cut19, cut20, cut21, cut22, cut23, cut24, cut25, cut26, cut27, cut28, cut29, cut30, cut31, cut32, cut33, cut34, cut35, cut36, cut37, cut38, cut39, cut40, cut41, cut42]
  rfl

/-! ## The slabs and rows of a block -/

/-- Band `n`'s slab of a block's features: the `[64, 1, 512]` array of `x0` at band `n`. -/
def slab (x0 : Vec F S64x43x512 .f32) (n : Fin 43) : Vec F S64x1x512 .f32 :=
  fun j => x0 (ix3 (j 0) n (j 2))

/-- Band `n`'s row of a block's codes: the `[1, 1024]` array of `x2` at band `n`. -/
def row (x2 : Vec F S43x1024 .f32) (n : Fin 43) : Vec F S1x1024 .f32 :=
  fun j => x2 (ix2 n (j 1))

theorem slab_apply (x0 : Vec F S64x43x512 .f32) (n : Fin 43) (r : Fin 64) (u : Fin 1) (f : Fin 512) :
    slab x0 n (ix3 r u f) = x0 (ix3 r n f) := rfl

theorem row_apply (x2 : Vec F S43x1024 .f32) (n : Fin 43) (u : Fin 1) (q : Fin 1024) :
    row x2 n (ix2 u q) = x2 (ix2 n q) := rfl

/-- What a unit-stride read of `[64, 1, 512]` at offset `(0, n, 0)` takes out of the features is band `n`'s slab. -/
theorem ld_slab (x0 : Vec F S64x43x512 .f32) (n : Fin 43)
    (inb : ∀ a, (![0, n.val, 0] : Fin 3 → ℕ) a + S64x1x512.size a ≤ S64x43x512.size a) :
    View.ld x0 (Rect.unit (s := S64x43x512) ![0, n.val, 0] S64x1x512.size inb) = slab x0 n := by
  funext j
  show x0 _ = x0 _
  refine congrArg x0 (funext fun a => Fin.ext ?_)
  match a with
  | ⟨0, _⟩ => show 0 + 1 * (j 0).val = (j 0).val; omega
  | ⟨1, _⟩ =>
    have h1 : (j 1).val < 1 := (j 1).isLt
    show n.val + 1 * (j 1).val = n.val
    omega
  | ⟨2, _⟩ => show 0 + 1 * (j 2).val = (j 2).val; omega

/-- What a unit-stride read of `[1, 1024]` at offset `(n, 0)` takes out of the codes is band `n`'s row. -/
theorem ld_row (x2 : Vec F S43x1024 .f32) (n : Fin 43)
    (inb : ∀ a, (![n.val, 0] : Fin 2 → ℕ) a + S1x1024.size a ≤ S43x1024.size a) :
    View.ld x2 (Rect.unit (s := S43x1024) ![n.val, 0] S1x1024.size inb) = row x2 n := by
  funext j
  show x2 _ = x2 _
  refine congrArg x2 (funext fun a => Fin.ext ?_)
  match a with
  | ⟨0, _⟩ =>
    have h0 : (j 0).val < 1 := (j 0).isLt
    show n.val + 1 * (j 0).val = n.val
    omega
  | ⟨1, _⟩ => show 0 + 1 * (j 1).val = (j 1).val; omega

/-- The stage on one block, from the block's three input arrays. -/
def chain (x0 : Vec F S64x43x512 .f32) (x1 : Vec F S1024x512 .f32) (x2 : Vec F S43x1024 .f32) :
    Vec F S64x1024 .f32 :=
  chainOf x1 (slab x0) (row x2)

end AnyInstance

/-! ## The value, over the extended reals -/

/-- The sign of band `i`'s score at `(r, q)`; zero past the last band. -/
def bandTerm (w : Vec Ideal S1024x512 .f32) (xb : Fin 43 → Vec Ideal S64x1x512 .f32) (bq : Fin 43 → Vec Ideal S1x1024 .f32)
    (r : Fin 64) (q : Fin 1024) (i : ℕ) : EReal :=
  if h : i < 43 then
    Ideal.sign ((∑ f : Fin 512, xb ⟨i, h⟩ (ix3 r (0 : Fin 1) f) * w (ix2 q f)) * bq ⟨i, h⟩ (ix2 (0 : Fin 1) q))
  else 0

/-- The accumulator after `n` bands, at `(r, q)`: the sum of the first `n` bands' signs. -/
theorem accAfter_apply (w : Vec Ideal S1024x512 .f32) (xb : Fin 43 → Vec Ideal S64x1x512 .f32)
    (bq : Fin 43 → Vec Ideal S1x1024 .f32)
    (hw : ∀ j, ∃ a : ℝ, w j = (a : EReal)) (hx : ∀ n j, ∃ a : ℝ, xb n j = (a : EReal)) (r : Fin 64) (q : Fin 1024) :
    ∀ n : ℕ, n ≤ 43 → accAfter w xb bq n (ix2 r q) = ∑ i ∈ Finset.range n, bandTerm w xb bq r q i
  | 0, _ => by
    rw [Finset.sum_range_zero]
    exact zero_apply _
  | n + 1, hn => by
    have h : n < 43 := hn
    have ih := accAfter_apply w xb bq hw hx r q n (Nat.le_of_lt h)
    rw [Finset.sum_range_succ, ← ih]
    show (if h : n < 43 then
        Gen.k0_pay6 (Gen.k0_pay3 w) (Gen.k0_pay4 w) (xb ⟨n, h⟩) (bq ⟨n, h⟩) (accAfter w xb bq n)
      else accAfter w xb bq n) (ix2 r q) = _
    rw [dif_pos h, band_apply w (xb ⟨n, h⟩) (bq ⟨n, h⟩) (accAfter w xb bq n) hw (hx ⟨n, h⟩) r q]
    unfold bandTerm
    rw [dif_pos h]

/-- The stage on one block at `(r, q)`: the sign of the sum over the 43 bands of the signs of the scores. -/
theorem chainOf_apply (w : Vec Ideal S1024x512 .f32) (xb : Fin 43 → Vec Ideal S64x1x512 .f32)
    (bq : Fin 43 → Vec Ideal S1x1024 .f32)
    (hw : ∀ j, ∃ a : ℝ, w j = (a : EReal)) (hx : ∀ n j, ∃ a : ℝ, xb n j = (a : EReal)) (r : Fin 64) (q : Fin 1024) :
    chainOf w xb bq (ix2 r q)
      = Ideal.sign (∑ n : Fin 43,
          Ideal.sign ((∑ f : Fin 512, xb n (ix3 r (0 : Fin 1) f) * w (ix2 q f)) * bq n (ix2 (0 : Fin 1) q))) := by
  rw [chainOf_eq, final_apply, accAfter_apply w xb bq hw hx r q 43 (Nat.le_refl 43),
    ← Fin.sum_univ_eq_sum_range (fun i => bandTerm w xb bq r q i) 43]
  refine congrArg Ideal.sign (Finset.sum_congr rfl fun n _ => ?_)
  unfold bandTerm
  rw [dif_pos n.isLt]

/-- The stage on one block at `(r, q)`, read off the block's arrays: the sign of the sum over the bands `n` of the sign
    of `(∑ f, x0 (r, n, f) · x1 (q, f)) · x2 (n, q)`. The features and the weights are finite. -/
theorem chain_apply (x0 : Vec Ideal S64x43x512 .f32) (x1 : Vec Ideal S1024x512 .f32) (x2 : Vec Ideal S43x1024 .f32)
    (h0 : ∀ j, ∃ a : ℝ, x0 j = (a : EReal)) (h1 : ∀ j, ∃ a : ℝ, x1 j = (a : EReal)) (r : Fin 64) (q : Fin 1024) :
    chain x0 x1 x2 (ix2 r q)
      = Ideal.sign (∑ n : Fin 43,
          Ideal.sign ((∑ f : Fin 512, x0 (ix3 r n f) * x1 (ix2 q f)) * x2 (ix2 n q))) :=
  chainOf_apply x1 (slab x0) (row x2) h1 (fun n j => h0 _) r q

end Cert.KernelIdeal.Band

end
-- ==== Proof.IdealRegion0.lean ====
/- The first stage's pipeline at any entry contents: what each window's block is at a grid point, what the body leaves
   in the output window's block (the chain of its pieces of arithmetic over the input blocks), the proof data and the
   body's obligation at every point. The scratch block is stored whole before it is read at every point, so nothing is
   carried from point to point: the invariant is the scoped buffers no window stages, each at some contents, beside the
   generator register. -/
import proofs.«110471_j26396869001917_1_alg».proof.Proof.IdealRegion0.Run
import proofs.«110471_j26396869001917_1_alg».proof.Proof.Region0Value
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole output block, as the rectangle of the body's one store into it. -/
abbrev rO : Rect S64x1024 := Rect.unit (s := S64x1024) ![0, 0] S64x1024.size inb_S64x1024_S64x1024_0_0

/-- What the body leaves in the output block, as a function of the three input blocks: the chain of the body's pieces of
    arithmetic over the 43 bands' slabs of `x0` and rows of `x2` and the whole of `x1`. -/
def out0_3 (x0 : Vec F S64x43x512 .f32) (x1 : Vec F S1024x512 .f32) (x2 : Vec F S43x1024 .f32) : Vec F S64x1024 .f32 :=
  Band.chain x0 x1 x2

/-- The chain opened: the output block is the composition of the body's named pieces over the loads. -/
theorem out0_3_eq (x0 : Vec F S64x43x512 .f32) (x1 : Vec F S1024x512 .f32) (x2 : Vec F S43x1024 .f32) :
    out0_3 x0 x1 x2 = Band.chain x0 x1 x2 := rfl

set_option maxHeartbeats 4000000 in
/-- The body's stores into the output block are ONE whole store, of the chain's value: each load of the scratch reads the
    payload of the whole store before it, each load of an input reads a band's slab, a band's row or the whole block. -/
theorem run_pieces (c : Dev nD) (i : grid0.Coords)
    (arg2 : Memref sig .tc .vmem S64x43x512 .f32) (harg2 : arg2.IsWhole)
    (arg3 : Memref sig .tc .vmem S1024x512 .f32) (harg3 : arg3.IsWhole)
    (arg4 : Memref sig .tc .vmem S43x1024 .f32) (harg4 : arg4.IsWhole)
    (arg5 : Memref sig .tc .vmem S64x1024 .f32) (harg5 : arg5.IsWhole)
    (arg6 : Memref sig .tc .vmem S64x1024 .f32) (harg6 : arg6.IsWhole)
    (x0 : Vec F S64x43x512 .f32) (x1 : Vec F S1024x512 .f32) (x2 : Vec F S43x1024 .f32) :
    (kernelRun0 c i arg2 harg2 arg3 harg3 arg4 harg4 arg5 harg5 arg6 harg6 x0 x1 x2).1 = [⟨rO, out0_3 x0 x1 x2⟩] := by
  have e1 : View.ld x1 (Rect.unit (s := S1024x512) ![0, 0] S1024x512.size inb_S1024x512_S1024x512_0_0) = x1 :=
    View.ld_unit_zero (by funext a; fin_cases a <;> rfl) _ x1
  have hx0 : View.ld x0 (Rect.unit (s := S64x43x512) ![0, 0, 0] S64x1x512.size inb_S64x43x512_S64x1x512_0_0_0) = Band.slab x0 0 := Band.ld_slab x0 0 _
  have hx1 : View.ld x0 (Rect.unit (s := S64x43x512) ![0, 1, 0] S64x1x512.size inb_S64x43x512_S64x1x512_0_1_0) = Band.slab x0 1 := Band.ld_slab x0 1 _
  have hx2 : View.ld x0 (Rect.unit (s := S64x43x512) ![0, 2, 0] S64x1x512.size inb_S64x43x512_S64x1x512_0_2_0) = Band.slab x0 2 := Band.ld_slab x0 2 _
  have hx3 : View.ld x0 (Rect.unit (s := S64x43x512) ![0, 3, 0] S64x1x512.size inb_S64x43x512_S64x1x512_0_3_0) = Band.slab x0 3 := Band.ld_slab x0 3 _
  have hx4 : View.ld x0 (Rect.unit (s := S64x43x512) ![0, 4, 0] S64x1x512.size inb_S64x43x512_S64x1x512_0_4_0) = Band.slab x0 4 := Band.ld_slab x0 4 _
  have hx5 : View.ld x0 (Rect.unit (s := S64x43x512) ![0, 5, 0] S64x1x512.size inb_S64x43x512_S64x1x512_0_5_0) = Band.slab x0 5 := Band.ld_slab x0 5 _
  have hx6 : View.ld x0 (Rect.unit (s := S64x43x512) ![0, 6, 0] S64x1x512.size inb_S64x43x512_S64x1x512_0_6_0) = Band.slab x0 6 := Band.ld_slab x0 6 _
  have hx7 : View.ld x0 (Rect.unit (s := S64x43x512) ![0, 7, 0] S64x1x512.size inb_S64x43x512_S64x1x512_0_7_0) = Band.slab x0 7 := Band.ld_slab x0 7 _
  have hx8 : View.ld x0 (Rect.unit (s := S64x43x512) ![0, 8, 0] S64x1x512.size inb_S64x43x512_S64x1x512_0_8_0) = Band.slab x0 8 := Band.ld_slab x0 8 _
  have hx9 : View.ld x0 (Rect.unit (s := S64x43x512) ![0, 9, 0] S64x1x512.size inb_S64x43x512_S64x1x512_0_9_0) = Band.slab x0 9 := Band.ld_slab x0 9 _
  have hx10 : View.ld x0 (Rect.unit (s := S64x43x512) ![0, 10, 0] S64x1x512.size inb_S64x43x512_S64x1x512_0_10_0) = Band.slab x0 10 := Band.ld_slab x0 10 _
  have hx11 : View.ld x0 (Rect.unit (s := S64x43x512) ![0, 11, 0] S64x1x512.size inb_S64x43x512_S64x1x512_0_11_0) = Band.slab x0 11 := Band.ld_slab x0 11 _
  have hx12 : View.ld x0 (Rect.unit (s := S64x43x512) ![0, 12, 0] S64x1x512.size inb_S64x43x512_S64x1x512_0_12_0) = Band.slab x0 12 := Band.ld_slab x0 12 _
  have hx13 : View.ld x0 (Rect.unit (s := S64x43x512) ![0, 13, 0] S64x1x512.size inb_S64x43x512_S64x1x512_0_13_0) = Band.slab x0 13 := Band.ld_slab x0 13 _
  have hx14 : View.ld x0 (Rect.unit (s := S64x43x512) ![0, 14, 0] S64x1x512.size inb_S64x43x512_S64x1x512_0_14_0) = Band.slab x0 14 := Band.ld_slab x0 14 _
  have hx15 : View.ld x0 (Rect.unit (s := S64x43x512) ![0, 15, 0] S64x1x512.size inb_S64x43x512_S64x1x512_0_15_0) = Band.slab x0 15 := Band.ld_slab x0 15 _
  have hx16 : View.ld x0 (Rect.unit (s := S64x43x512) ![0, 16, 0] S64x1x512.size inb_S64x43x512_S64x1x512_0_16_0) = Band.slab x0 16 := Band.ld_slab x0 16 _
  have hx17 : View.ld x0 (Rect.unit (s := S64x43x512) ![0, 17, 0] S64x1x512.size inb_S64x43x512_S64x1x512_0_17_0) = Band.slab x0 17 := Band.ld_slab x0 17 _
  have hx18 : View.ld x0 (Rect.unit (s := S64x43x512) ![0, 18, 0] S64x1x512.size inb_S64x43x512_S64x1x512_0_18_0) = Band.slab x0 18 := Band.ld_slab x0 18 _
  have hx19 : View.ld x0 (Rect.unit (s := S64x43x512) ![0, 19, 0] S64x1x512.size inb_S64x43x512_S64x1x512_0_19_0) = Band.slab x0 19 := Band.ld_slab x0 19 _
  have hx20 : View.ld x0 (Rect.unit (s := S64x43x512) ![0, 20, 0] S64x1x512.size inb_S64x43x512_S64x1x512_0_20_0) = Band.slab x0 20 := Band.ld_slab x0 20 _
  have hx21 : View.ld x0 (Rect.unit (s := S64x43x512) ![0, 21, 0] S64x1x512.size inb_S64x43x512_S64x1x512_0_21_0) = Band.slab x0 21 := Band.ld_slab x0 21 _
  have hx22 : View.ld x0 (Rect.unit (s := S64x43x512) ![0, 22, 0] S64x1x512.size inb_S64x43x512_S64x1x512_0_22_0) = Band.slab x0 22 := Band.ld_slab x0 22 _
  have hx23 : View.ld x0 (Rect.unit (s := S64x43x512) ![0, 23, 0] S64x1x512.size inb_S64x43x512_S64x1x512_0_23_0) = Band.slab x0 23 := Band.ld_slab x0 23 _
  have hx24 : View.ld x0 (Rect.unit (s := S64x43x512) ![0, 24, 0] S64x1x512.size inb_S64x43x512_S64x1x512_0_24_0) = Band.slab x0 24 := Band.ld_slab x0 24 _
  have hx25 : View.ld x0 (Rect.unit (s := S64x43x512) ![0, 25, 0] S64x1x512.size inb_S64x43x512_S64x1x512_0_25_0) = Band.slab x0 25 := Band.ld_slab x0 25 _
  have hx26 : View.ld x0 (Rect.unit (s := S64x43x512) ![0, 26, 0] S64x1x512.size inb_S64x43x512_S64x1x512_0_26_0) = Band.slab x0 26 := Band.ld_slab x0 26 _
  have hx27 : View.ld x0 (Rect.unit (s := S64x43x512) ![0, 27, 0] S64x1x512.size inb_S64x43x512_S64x1x512_0_27_0) = Band.slab x0 27 := Band.ld_slab x0 27 _
  have hx28 : View.ld x0 (Rect.unit (s := S64x43x512) ![0, 28, 0] S64x1x512.size inb_S64x43x512_S64x1x512_0_28_0) = Band.slab x0 28 := Band.ld_slab x0 28 _
  have hx29 : View.ld x0 (Rect.unit (s := S64x43x512) ![0, 29, 0] S64x1x512.size inb_S64x43x512_S64x1x512_0_29_0) = Band.slab x0 29 := Band.ld_slab x0 29 _
  have hx30 : View.ld x0 (Rect.unit (s := S64x43x512) ![0, 30, 0] S64x1x512.size inb_S64x43x512_S64x1x512_0_30_0) = Band.slab x0 30 := Band.ld_slab x0 30 _
  have hx31 : View.ld x0 (Rect.unit (s := S64x43x512) ![0, 31, 0] S64x1x512.size inb_S64x43x512_S64x1x512_0_31_0) = Band.slab x0 31 := Band.ld_slab x0 31 _
  have hx32 : View.ld x0 (Rect.unit (s := S64x43x512) ![0, 32, 0] S64x1x512.size inb_S64x43x512_S64x1x512_0_32_0) = Band.slab x0 32 := Band.ld_slab x0 32 _
  have hx33 : View.ld x0 (Rect.unit (s := S64x43x512) ![0, 33, 0] S64x1x512.size inb_S64x43x512_S64x1x512_0_33_0) = Band.slab x0 33 := Band.ld_slab x0 33 _
  have hx34 : View.ld x0 (Rect.unit (s := S64x43x512) ![0, 34, 0] S64x1x512.size inb_S64x43x512_S64x1x512_0_34_0) = Band.slab x0 34 := Band.ld_slab x0 34 _
  have hx35 : View.ld x0 (Rect.unit (s := S64x43x512) ![0, 35, 0] S64x1x512.size inb_S64x43x512_S64x1x512_0_35_0) = Band.slab x0 35 := Band.ld_slab x0 35 _
  have hx36 : View.ld x0 (Rect.unit (s := S64x43x512) ![0, 36, 0] S64x1x512.size inb_S64x43x512_S64x1x512_0_36_0) = Band.slab x0 36 := Band.ld_slab x0 36 _
  have hx37 : View.ld x0 (Rect.unit (s := S64x43x512) ![0, 37, 0] S64x1x512.size inb_S64x43x512_S64x1x512_0_37_0) = Band.slab x0 37 := Band.ld_slab x0 37 _
  have hx38 : View.ld x0 (Rect.unit (s := S64x43x512) ![0, 38, 0] S64x1x512.size inb_S64x43x512_S64x1x512_0_38_0) = Band.slab x0 38 := Band.ld_slab x0 38 _
  have hx39 : View.ld x0 (Rect.unit (s := S64x43x512) ![0, 39, 0] S64x1x512.size inb_S64x43x512_S64x1x512_0_39_0) = Band.slab x0 39 := Band.ld_slab x0 39 _
  have hx40 : View.ld x0 (Rect.unit (s := S64x43x512) ![0, 40, 0] S64x1x512.size inb_S64x43x512_S64x1x512_0_40_0) = Band.slab x0 40 := Band.ld_slab x0 40 _
  have hx41 : View.ld x0 (Rect.unit (s := S64x43x512) ![0, 41, 0] S64x1x512.size inb_S64x43x512_S64x1x512_0_41_0) = Band.slab x0 41 := Band.ld_slab x0 41 _
  have hx42 : View.ld x0 (Rect.unit (s := S64x43x512) ![0, 42, 0] S64x1x512.size inb_S64x43x512_S64x1x512_0_42_0) = Band.slab x0 42 := Band.ld_slab x0 42 _
  have hq0 : View.ld x2 (Rect.unit (s := S43x1024) ![0, 0] S1x1024.size inb_S43x1024_S1x1024_0_0) = Band.row x2 0 := Band.ld_row x2 0 _
  have hq1 : View.ld x2 (Rect.unit (s := S43x1024) ![1, 0] S1x1024.size inb_S43x1024_S1x1024_1_0) = Band.row x2 1 := Band.ld_row x2 1 _
  have hq2 : View.ld x2 (Rect.unit (s := S43x1024) ![2, 0] S1x1024.size inb_S43x1024_S1x1024_2_0) = Band.row x2 2 := Band.ld_row x2 2 _
  have hq3 : View.ld x2 (Rect.unit (s := S43x1024) ![3, 0] S1x1024.size inb_S43x1024_S1x1024_3_0) = Band.row x2 3 := Band.ld_row x2 3 _
  have hq4 : View.ld x2 (Rect.unit (s := S43x1024) ![4, 0] S1x1024.size inb_S43x1024_S1x1024_4_0) = Band.row x2 4 := Band.ld_row x2 4 _
  have hq5 : View.ld x2 (Rect.unit (s := S43x1024) ![5, 0] S1x1024.size inb_S43x1024_S1x1024_5_0) = Band.row x2 5 := Band.ld_row x2 5 _
  have hq6 : View.ld x2 (Rect.unit (s := S43x1024) ![6, 0] S1x1024.size inb_S43x1024_S1x1024_6_0) = Band.row x2 6 := Band.ld_row x2 6 _
  have hq7 : View.ld x2 (Rect.unit (s := S43x1024) ![7, 0] S1x1024.size inb_S43x1024_S1x1024_7_0) = Band.row x2 7 := Band.ld_row x2 7 _
  have hq8 : View.ld x2 (Rect.unit (s := S43x1024) ![8, 0] S1x1024.size inb_S43x1024_S1x1024_8_0) = Band.row x2 8 := Band.ld_row x2 8 _
  have hq9 : View.ld x2 (Rect.unit (s := S43x1024) ![9, 0] S1x1024.size inb_S43x1024_S1x1024_9_0) = Band.row x2 9 := Band.ld_row x2 9 _
  have hq10 : View.ld x2 (Rect.unit (s := S43x1024) ![10, 0] S1x1024.size inb_S43x1024_S1x1024_10_0) = Band.row x2 10 := Band.ld_row x2 10 _
  have hq11 : View.ld x2 (Rect.unit (s := S43x1024) ![11, 0] S1x1024.size inb_S43x1024_S1x1024_11_0) = Band.row x2 11 := Band.ld_row x2 11 _
  have hq12 : View.ld x2 (Rect.unit (s := S43x1024) ![12, 0] S1x1024.size inb_S43x1024_S1x1024_12_0) = Band.row x2 12 := Band.ld_row x2 12 _
  have hq13 : View.ld x2 (Rect.unit (s := S43x1024) ![13, 0] S1x1024.size inb_S43x1024_S1x1024_13_0) = Band.row x2 13 := Band.ld_row x2 13 _
  have hq14 : View.ld x2 (Rect.unit (s := S43x1024) ![14, 0] S1x1024.size inb_S43x1024_S1x1024_14_0) = Band.row x2 14 := Band.ld_row x2 14 _
  have hq15 : View.ld x2 (Rect.unit (s := S43x1024) ![15, 0] S1x1024.size inb_S43x1024_S1x1024_15_0) = Band.row x2 15 := Band.ld_row x2 15 _
  have hq16 : View.ld x2 (Rect.unit (s := S43x1024) ![16, 0] S1x1024.size inb_S43x1024_S1x1024_16_0) = Band.row x2 16 := Band.ld_row x2 16 _
  have hq17 : View.ld x2 (Rect.unit (s := S43x1024) ![17, 0] S1x1024.size inb_S43x1024_S1x1024_17_0) = Band.row x2 17 := Band.ld_row x2 17 _
  have hq18 : View.ld x2 (Rect.unit (s := S43x1024) ![18, 0] S1x1024.size inb_S43x1024_S1x1024_18_0) = Band.row x2 18 := Band.ld_row x2 18 _
  have hq19 : View.ld x2 (Rect.unit (s := S43x1024) ![19, 0] S1x1024.size inb_S43x1024_S1x1024_19_0) = Band.row x2 19 := Band.ld_row x2 19 _
  have hq20 : View.ld x2 (Rect.unit (s := S43x1024) ![20, 0] S1x1024.size inb_S43x1024_S1x1024_20_0) = Band.row x2 20 := Band.ld_row x2 20 _
  have hq21 : View.ld x2 (Rect.unit (s := S43x1024) ![21, 0] S1x1024.size inb_S43x1024_S1x1024_21_0) = Band.row x2 21 := Band.ld_row x2 21 _
  have hq22 : View.ld x2 (Rect.unit (s := S43x1024) ![22, 0] S1x1024.size inb_S43x1024_S1x1024_22_0) = Band.row x2 22 := Band.ld_row x2 22 _
  have hq23 : View.ld x2 (Rect.unit (s := S43x1024) ![23, 0] S1x1024.size inb_S43x1024_S1x1024_23_0) = Band.row x2 23 := Band.ld_row x2 23 _
  have hq24 : View.ld x2 (Rect.unit (s := S43x1024) ![24, 0] S1x1024.size inb_S43x1024_S1x1024_24_0) = Band.row x2 24 := Band.ld_row x2 24 _
  have hq25 : View.ld x2 (Rect.unit (s := S43x1024) ![25, 0] S1x1024.size inb_S43x1024_S1x1024_25_0) = Band.row x2 25 := Band.ld_row x2 25 _
  have hq26 : View.ld x2 (Rect.unit (s := S43x1024) ![26, 0] S1x1024.size inb_S43x1024_S1x1024_26_0) = Band.row x2 26 := Band.ld_row x2 26 _
  have hq27 : View.ld x2 (Rect.unit (s := S43x1024) ![27, 0] S1x1024.size inb_S43x1024_S1x1024_27_0) = Band.row x2 27 := Band.ld_row x2 27 _
  have hq28 : View.ld x2 (Rect.unit (s := S43x1024) ![28, 0] S1x1024.size inb_S43x1024_S1x1024_28_0) = Band.row x2 28 := Band.ld_row x2 28 _
  have hq29 : View.ld x2 (Rect.unit (s := S43x1024) ![29, 0] S1x1024.size inb_S43x1024_S1x1024_29_0) = Band.row x2 29 := Band.ld_row x2 29 _
  have hq30 : View.ld x2 (Rect.unit (s := S43x1024) ![30, 0] S1x1024.size inb_S43x1024_S1x1024_30_0) = Band.row x2 30 := Band.ld_row x2 30 _
  have hq31 : View.ld x2 (Rect.unit (s := S43x1024) ![31, 0] S1x1024.size inb_S43x1024_S1x1024_31_0) = Band.row x2 31 := Band.ld_row x2 31 _
  have hq32 : View.ld x2 (Rect.unit (s := S43x1024) ![32, 0] S1x1024.size inb_S43x1024_S1x1024_32_0) = Band.row x2 32 := Band.ld_row x2 32 _
  have hq33 : View.ld x2 (Rect.unit (s := S43x1024) ![33, 0] S1x1024.size inb_S43x1024_S1x1024_33_0) = Band.row x2 33 := Band.ld_row x2 33 _
  have hq34 : View.ld x2 (Rect.unit (s := S43x1024) ![34, 0] S1x1024.size inb_S43x1024_S1x1024_34_0) = Band.row x2 34 := Band.ld_row x2 34 _
  have hq35 : View.ld x2 (Rect.unit (s := S43x1024) ![35, 0] S1x1024.size inb_S43x1024_S1x1024_35_0) = Band.row x2 35 := Band.ld_row x2 35 _
  have hq36 : View.ld x2 (Rect.unit (s := S43x1024) ![36, 0] S1x1024.size inb_S43x1024_S1x1024_36_0) = Band.row x2 36 := Band.ld_row x2 36 _
  have hq37 : View.ld x2 (Rect.unit (s := S43x1024) ![37, 0] S1x1024.size inb_S43x1024_S1x1024_37_0) = Band.row x2 37 := Band.ld_row x2 37 _
  have hq38 : View.ld x2 (Rect.unit (s := S43x1024) ![38, 0] S1x1024.size inb_S43x1024_S1x1024_38_0) = Band.row x2 38 := Band.ld_row x2 38 _
  have hq39 : View.ld x2 (Rect.unit (s := S43x1024) ![39, 0] S1x1024.size inb_S43x1024_S1x1024_39_0) = Band.row x2 39 := Band.ld_row x2 39 _
  have hq40 : View.ld x2 (Rect.unit (s := S43x1024) ![40, 0] S1x1024.size inb_S43x1024_S1x1024_40_0) = Band.row x2 40 := Band.ld_row x2 40 _
  have hq41 : View.ld x2 (Rect.unit (s := S43x1024) ![41, 0] S1x1024.size inb_S43x1024_S1x1024_41_0) = Band.row x2 41 := Band.ld_row x2 41 _
  have hq42 : View.ld x2 (Rect.unit (s := S43x1024) ![42, 0] S1x1024.size inb_S43x1024_S1x1024_42_0) = Band.row x2 42 := Band.ld_row x2 42 _
  unfold kernelRun0 out0_3 Band.chain Band.chainOf
  dsimp only
  simp only [kernelRun0.sl.v924, kernelRun0.sl.H4_22, kernelRun0.sl.r_38, kernelRun0.sl.v831, kernelRun0.sl.r_1, kernelRun0.sl.v676, kernelRun0.sl.r_31, kernelRun0.sl.v707, kernelRun0.sl.r_44, kernelRun0.sl.r_17, kernelRun0.sl.H4_18, kernelRun0.sl.H4_4, kernelRun0.sl.v149, kernelRun0.sl.r_32, kernelRun0.sl.v1141, kernelRun0.sl.v428, kernelRun0.sl.H4_28, kernelRun0.sl.H4_5, kernelRun0.sl.v738, kernelRun0.sl.v118, kernelRun0.sl.r_15, kernelRun0.sl.H4_10, kernelRun0.sl.r_45, kernelRun0.sl.r_6, kernelRun0.sl.r_22, kernelRun0.sl.H4_20, kernelRun0.sl.H4_25, kernelRun0.sl.v1172, kernelRun0.sl.r_19, kernelRun0.sl.r_12, kernelRun0.sl.v1296, kernelRun0.sl.r_16, kernelRun0.sl.H4_12, kernelRun0.sl.v242, kernelRun0.sl.v273, kernelRun0.sl.r_24, kernelRun0.sl.v1327, kernelRun0.sl.r_8, kernelRun0.sl.r_2, kernelRun0.sl.r_35, kernelRun0.sl.r_33, kernelRun0.sl.r_41, kernelRun0.sl.v1234, kernelRun0.sl.v366, kernelRun0.sl.H4_37, kernelRun0.sl.v1342, kernelRun0.sl.r_46, kernelRun0.sl.v304, kernelRun0.sl.r_4, kernelRun0.sl.r_39, kernelRun0.sl.H4_14, kernelRun0.sl.H4_34, kernelRun0.sl.H4_11, kernelRun0.sl.H4_31, kernelRun0.sl.v87, kernelRun0.sl.H4_15, kernelRun0.sl.r_30, kernelRun0.sl.H4_13, kernelRun0.sl.r_18, kernelRun0.sl.v1079, kernelRun0.sl.H4_17, kernelRun0.sl.r_20, kernelRun0.sl.v180, kernelRun0.sl.r_27, kernelRun0.sl.H4_3, kernelRun0.sl.r_34, kernelRun0.sl.v521, kernelRun0.sl.r_14, kernelRun0.sl.v1265, kernelRun0.sl.H4_35, kernelRun0.sl.H4_33, kernelRun0.sl.H4_8, kernelRun0.sl.H4_29, kernelRun0.sl.r_3, kernelRun0.sl.r_53, kernelRun0.sl.r_10, kernelRun0.sl.r_40, kernelRun0.sl.r_47, kernelRun0.sl.r_42, kernelRun0.sl.H4_6, kernelRun0.sl.v1017, kernelRun0.sl.r_23, kernelRun0.sl.v490, kernelRun0.sl.v56, kernelRun0.sl.v955, kernelRun0.sl.H4_21, kernelRun0.sl.r_13, kernelRun0.sl.r_49, kernelRun0.sl.v769, kernelRun0.sl.H4_19, kernelRun0.sl.H4_9, kernelRun0.sl.r_36, kernelRun0.sl.H4_30, kernelRun0.sl.r_26, kernelRun0.sl.v583, kernelRun0.sl.v211, kernelRun0.sl.H4_42, kernelRun0.sl.cst_34, kernelRun0.sl.r_11, kernelRun0.sl.v1048, kernelRun0.sl.r_28, kernelRun0.sl.v397, kernelRun0.sl.r_9, kernelRun0.sl.H4_41, kernelRun0.sl.r_50, kernelRun0.sl.H4_27, kernelRun0.sl.v893, kernelRun0.sl.r_5, kernelRun0.sl.H4_1, kernelRun0.sl.H4_2, kernelRun0.sl.r, kernelRun0.sl.r_29, kernelRun0.sl.v986, kernelRun0.sl.H4_44, kernelRun0.sl.H4_23, kernelRun0.sl.H4_43, kernelRun0.sl.v25, kernelRun0.sl.r_52, kernelRun0.sl.v614, kernelRun0.sl.v552, kernelRun0.sl.H4_39, kernelRun0.sl.r_37, kernelRun0.sl.r_21, kernelRun0.sl.H4_40, kernelRun0.sl.H4_7, kernelRun0.sl.v1203, kernelRun0.sl.v800, kernelRun0.sl.v335, kernelRun0.sl.v645, kernelRun0.sl.r_7, kernelRun0.sl.v862, kernelRun0.sl.H4_24, kernelRun0.sl.v1110, kernelRun0.sl.H4_36, kernelRun0.sl.H4_32, kernelRun0.sl.v459, kernelRun0.sl.H4_38, kernelRun0.sl.H4_26, kernelRun0.sl.r_25, kernelRun0.sl.H4_16, kernelRun0.sl.r_51, kernelRun0.sl.r_43, kernelRun0.sl.r_48, View.readCov_cons_toLoadRect, View.readAt_eq_ld, Memref.IsWhole.read_unread, e1, hx0, hx1, hx2, hx3, hx4, hx5, hx6, hx7, hx8, hx9, hx10, hx11, hx12, hx13, hx14, hx15, hx16, hx17, hx18, hx19, hx20, hx21, hx22, hx23, hx24, hx25, hx26, hx27, hx28, hx29, hx30, hx31, hx32, hx33, hx34, hx35, hx36, hx37, hx38, hx39, hx40, hx41, hx42, hq0, hq1, hq2, hq3, hq4, hq5, hq6, hq7, hq8, hq9, hq10, hq11, hq12, hq13, hq14, hq15, hq16, hq17, hq18, hq19, hq20, hq21, hq22, hq23, hq24, hq25, hq26, hq27, hq28, hq29, hq30, hq31, hq32, hq33, hq34, hq35, hq36, hq37, hq38, hq39, hq40, hq41, hq42]

section Frame
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place: an unfetched window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them (`V`); after the body at point `t`
    each input's buffer at its block and the output's at `out0_3` of the input blocks; the invariant the scoped buffers
    no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The invariant with the scratch block taken out -/

/-- The scratch operand: a whole scoped buffer of the kernel's own, passed beside the windows. -/
abbrev scM0_0 : Memref sig .tc .vmem S64x1024 .f32 := Memref.whole cc0_scratch0

/-- The scoped buffers no window of pipeline 0 stages, other than its scratch block: each whole at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The invariant: the scratch block owned at some contents, the other scoped buffers, the generator register. -/
theorem PhiA0_eq (c : Dev nD) :
    (Pipeline.ΦA spec0 c : sProp 𝕄)
      = iprop(iprop((∃ d, owns (c : Thread nD τ) scM0_0 fullShare d) ∗ restS (F := F) c) ∗ (∃ r, prngReg c r)) := by
  unfold Pipeline.ΦA restS; rw [scopedRest0_eq]; simp only [scM0_0, owns_whole]; try rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
/-- The body at any point: the inputs' memrefs hold their blocks, the invariant hands over the scratch block at some
    contents, so the body's triple applies; the one whole store into the output block leaves its payload there; the
    scratch block goes back into the invariant at whatever it holds; the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3,
    show (dat0 V c).Φ t.castSucc = Pipeline.ΦA spec0 c from rfl, PhiA0_eq]
  iintro ⟨⟨⟨HS, Hrest⟩, Hg⟩, Ho, ⟨%d0, H0⟩, ⟨%d1, H1⟩, ⟨%d2, H2⟩, ⟨%d3, H3⟩⟩
  iapply ((kernelRun0 c (grid0.coords t) _ _ _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%f5, H5⟩, ⟨%f6, H6⟩⟩
  isplitl [H6 Hrest Hg]
  · isplitl [H6 Hrest]
    · isplitl [H6]
      · iexists _; iapply (owns_intro (c : Thread nD τ) scM0_0 fullShare f6); iexact H6
      iexact Hrest
    iexact Hg
  isplitl [Ho]; · iexact Ho
  isplitl [H0]; · iexact H0
  isplitl [H1]; · iexact H1
  isplitl [H2]; · iexact H2
  unfold owns; iexists _; isplitr
  swap; · iexact H5
  ipureintro
  rw [run_pieces]
  have hz : (![0, 0] : Fin S64x1024.rank → ℕ) = fun _ => 0 := by funext a; fin_cases a <;> rfl
  exact (View.read_writes_eq_canon _ _ _ (fun y => ⟨_, List.mem_singleton_self _,
      View.mem_set_unit_zero (S := S64x1024) hz inb_S64x1024_S64x1024_0_0 y⟩)).trans
    (View.canon_unit_zero (S := S64x1024) hz inb_S64x1024_S64x1024_0_0 _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Frame

end Cert.KernelIdeal.Reg0

end
-- ==== Proof.IdealRegion1.Base.lean ====
import proofs.«110471_j26396869001917_1_alg».proof.Proof.Gen.KernelIdeal.Launch
import proofs.«110471_j26396869001917_1_alg».proof.Proof.Gen.KernelIdeal.Skeleton
import proofs.«110471_j26396869001917_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: the K-blocked readout matmul, on a 4 x 4 x 4 grid

What the three control cases of its body share: the windows' blocks, the two branch conditions in closed
form over the grid (the last grid axis k is the fastest: point t has k = t mod 4), where the output window is
idle, and the names of the memrefs the body is called with. -/

section Blocks
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The first branch (the accumulator is zeroed): k = 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (the scaled accumulator is stored to the output block): k = 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
/-- Where k ≠ 3 the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where k = 3 it is live. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1_2 : View sig .tc .vmem S128x1024 .f32 := (Memref.whole cc1_stg2_0 : Memref sig .tc .vmem S128x1024 .f32).view
abbrev ms1_0 (t : Fin cfg1.N) : Memref sig .tc .vmem S128x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x1024 .f32 := win1_2.stage (cfg1.slots t 2)
abbrev hs1_2 (t : Fin cfg1.N) : (ms1_2 t).IsWhole := hstage1_2 ((cfg1.slots t 2).cast nbuf1_2)
/-- The accumulator: a whole scoped buffer of the kernel's own, carried between grid points. -/
abbrev scM1_0 : Memref sig .tc .vmem S128x1024 .f32 := Memref.whole cc1_scratch0
abbrev VS1_0 : View sig .tc .vmem S128x1024 .f32 := scM1_0.view

/-- The core's other scoped buffers (the first call's staging buffers and accumulator), at anything: carried unopened. -/
abbrev restBut (c : Dev nD) : sProp 𝕄 :=
  Pipeline.scopedRestBut (Ix := Unit) (Name := ℕ) (U := UR sig nD τ) (Lvl := ℕ) (Val := Elt F) spec1 c [cc1_scratch0]

/-- The region invariant with the accumulator split off as a memref owned at some contents. -/
theorem PhiA1_eq (c : Dev nD) :
    (Pipeline.ΦA spec1 c : sProp 𝕄)
      = iprop(iprop((∃ d, owns (c : Thread nD τ) scM1_0 fullShare d) ∗ restBut c) ∗ (∃ r, prngReg c r)) := by
  unfold Pipeline.ΦA restBut
  rw [Pipeline.scopedRest_split_of_list spec1 c [cc1_scratch0] (by decide) (by decide)]
  simp only [scM1_0, owns_whole]; try rfl

end Cert.KernelIdeal.Reg1

end
-- ==== Proof.IdealRegion1.RunA.lean ====
import proofs.«110471_j26396869001917_1_alg».proof.Proof.IdealRegion1.Base

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY WHERE k = 0 (the first branch taken, the second not). On whole memrefs — the two inputs at their
    blocks `x0`, `x1`, the output's (idle here) at contents `xi2` handed back untouched, the accumulator at anything —
    the body runs to the continuation with the inputs as they were and the accumulator with its stores written:
    zero, then zero plus the block product. The stores' pieces are the witness the run finds. -/
noncomputable def kernelRun1_A (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : cond1_0 i) (hc1 : ¬cond1_1 i)
    (x0 : Vec F S128x2048 .bf16) (x1 : Vec F S1024x2048 .bf16) :
    Σ' (L2 : List (View.Piece (Elt F) S128x1024 .f32)), { LS0 : List (View.Piece (Elt F) S128x1024 .f32) //
      ∀ (xi2 : Vec F S128x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel2_body i arg3 harg3 arg4 harg4 arg5 harg5 arg6 harg6) K } := by
  refine ⟨[], ?_, fun xi2 E K => ?run⟩
  case run =>
    simp only [cc1__kernel2_body_eq_skeleton]; unfold cc1__kernel2_body_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Reg1

end
-- ==== Proof.IdealRegion1.RunB.lean ====
import proofs.«110471_j26396869001917_1_alg».proof.Proof.IdealRegion1.RunA

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY WHERE k = 1 OR 2 (neither branch taken): the accumulator, at what the point before left (`xs0`),
    gains the block product; the output's buffer (idle here) is handed back untouched. -/
noncomputable def kernelRun1_B (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : ¬cond1_1 i)
    (x0 : Vec F S128x2048 .bf16) (x1 : Vec F S1024x2048 .bf16) (xs0 : Vec F S128x1024 .f32) :
    Σ' (L2 : List (View.Piece (Elt F) S128x1024 .f32)), { LS0 : List (View.Piece (Elt F) S128x1024 .f32) //
      ∀ (xi2 : Vec F S128x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel2_body i arg3 harg3 arg4 harg4 arg5 harg5 arg6 harg6) K } := by
  refine ⟨[], ?_, fun xi2 E K => ?run⟩
  case run =>
    simp only [cc1__kernel2_body_eq_skeleton]; unfold cc1__kernel2_body_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Reg1

end
-- ==== Proof.IdealRegion1.RunC.lean ====
import proofs.«110471_j26396869001917_1_alg».proof.Proof.IdealRegion1.RunB

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY WHERE k = 3 (the second branch taken): the accumulator, at what the point before left (`xs0`), gains
    the last block product, and the output's buffer (at anything before) is stored whole with the accumulator
    divided by 8192. -/
noncomputable def kernelRun1_C (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : cond1_1 i)
    (x0 : Vec F S128x2048 .bf16) (x1 : Vec F S1024x2048 .bf16) (xs0 : Vec F S128x1024 .f32) :
    Σ' (L2 : List (View.Piece (Elt F) S128x1024 .f32)), { LS0 : List (View.Piece (Elt F) S128x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__kernel2_body i arg3 harg3 arg4 harg4 arg5 harg5 arg6 harg6) K } := by
  refine ⟨?_, ?_, fun E K => ?run⟩
  case run =>
    simp only [cc1__kernel2_body_eq_skeleton]; unfold cc1__kernel2_body_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Reg1

end
-- ==== Proof.IdealRegion1.lean ====
import proofs.«110471_j26396869001917_1_alg».proof.Proof.IdealRegion1.RunC

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call's frame: what the accumulator and the output block hold point by point

The accumulator is zeroed where k = 0 and gains one block product at every point; the output block is stored, as the
accumulator divided by 8192, where k = 3, and is idle elsewhere. The proof data follows the accumulator through the
grid; the body obligation is a case split on k, each leaf that case's run of the body. Everything is stated over the
buffer contents `V` the region is entered with. -/

/-- What the output's staging buffer holds after a point of case A (idle: a placeholder that nothing consults — the window is neither written back nor read at the next point). -/
def out1_A_2 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : cond1_0 i) (hc1 : ¬cond1_1 i)
    (x0 : Vec F S128x2048 .bf16) (x1 : Vec F S1024x2048 .bf16) : Vec F S128x1024 .f32 :=
  VO1_2.read (Elt F) (VO1_2.writes (Elt F) VO1_2.junk (kernelRun1_A c i arg3 harg3 arg4 harg4 arg5 harg5 arg6 harg6 hc0 hc1 x0 x1).1)

/-- The stores of case A into the accumulator are of the whole buffer. -/
theorem scover1_A_0 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : cond1_0 i) (hc1 : ¬cond1_1 i)
    (x0 : Vec F S128x2048 .bf16) (x1 : Vec F S1024x2048 .bf16) (y : S128x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S128x1024.size (by sl_kernel_rfl) y

/-- What case A leaves in the accumulator: its stores' pieces read back. -/
def sout1_A_0 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : cond1_0 i) (hc1 : ¬cond1_1 i)
    (x0 : Vec F S128x2048 .bf16) (x1 : Vec F S1024x2048 .bf16) : Vec F S128x1024 .f32 :=
  VS1_0.read (Elt F) (VS1_0.writes (Elt F) VS1_0.junk (kernelRun1_A c i arg3 harg3 arg4 harg4 arg5 harg5 arg6 harg6 hc0 hc1 x0 x1).2.1)

/-- What the output's staging buffer holds after a point of case B (idle: a placeholder that nothing consults — the window is neither written back nor read at the next point). -/
def out1_B_2 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : ¬cond1_1 i)
    (x0 : Vec F S128x2048 .bf16) (x1 : Vec F S1024x2048 .bf16) (xs0 : Vec F S128x1024 .f32) : Vec F S128x1024 .f32 :=
  VO1_2.read (Elt F) (VO1_2.writes (Elt F) VO1_2.junk (kernelRun1_B c i arg3 harg3 arg4 harg4 arg5 harg5 arg6 harg6 hc0 hc1 x0 x1 xs0).1)

/-- The stores of case B into the accumulator are of the whole buffer. -/
theorem scover1_B_0 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : ¬cond1_1 i)
    (x0 : Vec F S128x2048 .bf16) (x1 : Vec F S1024x2048 .bf16) (xs0 : Vec F S128x1024 .f32) (y : S128x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S128x1024.size (by sl_kernel_rfl) y

/-- What case B leaves in the accumulator: its stores' pieces read back. -/
def sout1_B_0 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : ¬cond1_1 i)
    (x0 : Vec F S128x2048 .bf16) (x1 : Vec F S1024x2048 .bf16) (xs0 : Vec F S128x1024 .f32) : Vec F S128x1024 .f32 :=
  VS1_0.read (Elt F) (VS1_0.writes (Elt F) VS1_0.junk (kernelRun1_B c i arg3 harg3 arg4 harg4 arg5 harg5 arg6 harg6 hc0 hc1 x0 x1 xs0).2.1)

/-- What the output's staging buffer holds after a point of case C: the pieces of its one store read back. -/
def out1_C_2 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : cond1_1 i)
    (x0 : Vec F S128x2048 .bf16) (x1 : Vec F S1024x2048 .bf16) (xs0 : Vec F S128x1024 .f32) : Vec F S128x1024 .f32 :=
  VO1_2.read (Elt F) (VO1_2.writes (Elt F) VO1_2.junk (kernelRun1_C c i arg3 harg3 arg4 harg4 arg5 harg5 arg6 harg6 hc0 hc1 x0 x1 xs0).1)

/-- The one store of case C into the output's buffer is of the whole block. -/
theorem cover1_C_2 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : cond1_1 i)
    (x0 : Vec F S128x2048 .bf16) (x1 : Vec F S1024x2048 .bf16) (xs0 : Vec F S128x1024 .f32) (y : S128x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S128x1024.size (by sl_kernel_rfl) y

/-- The stores of case C into the accumulator are of the whole buffer. -/
theorem scover1_C_0 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : cond1_1 i)
    (x0 : Vec F S128x2048 .bf16) (x1 : Vec F S1024x2048 .bf16) (xs0 : Vec F S128x1024 .f32) (y : S128x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S128x1024.size (by sl_kernel_rfl) y

/-- What case C leaves in the accumulator: its stores' pieces read back. -/
def sout1_C_0 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : cond1_1 i)
    (x0 : Vec F S128x2048 .bf16) (x1 : Vec F S1024x2048 .bf16) (xs0 : Vec F S128x1024 .f32) : Vec F S128x1024 .f32 :=
  VS1_0.read (Elt F) (VS1_0.writes (Elt F) VS1_0.junk (kernelRun1_C c i arg3 harg3 arg4 harg4 arg5 harg5 arg6 harg6 hc0 hc1 x0 x1 xs0).2.1)

section Frame
variable (V : (c : Dev nD) → (b : Ref sig .tc) → Buf (Elt F) ((c : Thread nD τ).loc b))

/-! ## What the output's buffer and the accumulator hold after each point -/

/-- THE ACCUMULATION: the pair (output staging buffer, accumulator) after the body at position `n` — the case the
    closed forms select (k = n mod 4), run on the point's memrefs and input blocks, the accumulator taken at what
    position `n - 1` left. -/
def outsAt1 (c : Dev nD) : (n : ℕ) → n < cfg1.N → Vec F S128x1024 .f32 × Vec F S128x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left, the other scoped buffers at anything, and the generator
    register at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2) ∗ restBut c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ restBut c) ∗ (∃ r, prngReg c r)) := by
  cases n with
  | zero => exact absurd rfl hz
  | succ n => rfl

/-! ## The pipeline's proof data -/

/-- The proof data of the second pipeline on core `c`: the arrays as the region finds them (`V`); after the body
    at point `t` each input's buffer at its block and the output's at `outsAt1`; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; k = t mod 4 says which case the point is in; that
    case's run applies; the invariant hands the body the accumulator at what the point before left (at anything at the
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · by_cases h1 : t.val % 4 = 3
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      · rw [PhiS_castSucc V c t, PhiS_pos V c _ _ hz]
        iintro ⟨⟨⟨HS0, Hrest⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _)
            iexact Hrest
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      · rw [PhiS_castSucc V c t, PhiS_pos V c _ _ hz]
        iintro ⟨⟨⟨HS0, Hrest⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _)
            iexact Hrest
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 64 := N_1; omega)

end Frame

end Cert.KernelIdeal.Reg1

end
-- ==== Proof.BitsRegion0.Run.lean ====
/- The first stage's kernel body on whole blocks. From the three input blocks held at given contents, the output
   block and the scratch block held at anything, the body returns with the inputs as they were, the output block at
   a list of written pieces and the scratch at some contents. Every load of the scratch follows a whole store into it,
   and the one load of the output block feeds nothing, so what the body leaves is a function of the three input blocks
   alone. -/
import proofs.«110471_j26396869001917_1_alg».proof.Proof.Gen.Kernel.Launch
import proofs.«110471_j26396869001917_1_alg».proof.Proof.Gen.Kernel.Skeleton
import proofs.«110471_j26396869001917_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- What the body's stores leave in the output block's memref, as pieces (last first), WITH the triple: on whole
    memrefs — the three inputs' at contents `x0`, `x1`, `x2`, the output's and the scratch's at anything — the body runs
    to the continuation holding the inputs' as they were, the output's with its pieces written and the scratch's at
    some contents. -/
noncomputable def kernelRun0 (c : Dev nD) (i : grid0.Coords)
    (arg2 : Memref sig .tc .vmem S64x43x512 .f32) (harg2 : arg2.IsWhole)
    (arg3 : Memref sig .tc .vmem S1024x512 .f32) (harg3 : arg3.IsWhole)
    (arg4 : Memref sig .tc .vmem S43x1024 .f32) (harg4 : arg4.IsWhole)
    (arg5 : Memref sig .tc .vmem S64x1024 .f32) (harg5 : arg5.IsWhole)
    (arg6 : Memref sig .tc .vmem S64x1024 .f32) (harg6 : arg6.IsWhole)
    (x0 : Vec F S64x43x512 .f32) (x1 : Vec F S1024x512 .f32) (x2 : Vec F S43x1024 .f32) :
    { L3 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} f)) -∗ K ⟨⟩))
          ⊢ wp frame (wpE (defs₀ (F := F)) Variants.none c none) E (cc0_kernel1_body i arg2 harg2 arg3 harg3 arg4 harg4 arg5 harg5 arg6 harg6) K } := by
  refine ⟨?_, fun E K => ?run⟩
  case run =>
    simp only [cc0_kernel1_body_eq_skeleton]; unfold cc0_kernel1_body_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec_parts
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Reg0

end
-- ==== Proof.BitsRegion0.lean ====
/- The first stage's pipeline of the word-level program at any entry contents: what each window's block is at a grid
   point, what the body leaves in the output window's block (its written pieces read back), the proof data and the
   body's obligation at every point. The scratch block is stored whole before it is read at every point, so nothing is
   carried from point to point: the invariant is the scoped buffers no window stages, each at some contents, beside the
   generator register. -/
import proofs.«110471_j26396869001917_1_alg».proof.Proof.BitsRegion0.Run

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## What the body leaves in the output window's block -/

/-- One staging buffer of the output window, through which its contents are stated (the choice does not matter: the
    written pieces cover the block). -/
abbrev VO0_3 : View sig .tc .vmem S64x1024 .f32 := (Memref.whole cc0_stg3_0 : Memref sig .tc .vmem S64x1024 .f32).view

/-- The body's pieces for the output block tile it, so they cover it. -/
theorem cover0_3 (c : Dev nD) (i : grid0.Coords)
    (arg2 : Memref sig .tc .vmem S64x43x512 .f32) (harg2 : arg2.IsWhole)
    (arg3 : Memref sig .tc .vmem S1024x512 .f32) (harg3 : arg3.IsWhole)
    (arg4 : Memref sig .tc .vmem S43x1024 .f32) (harg4 : arg4.IsWhole)
    (arg5 : Memref sig .tc .vmem S64x1024 .f32) (harg5 : arg5.IsWhole)
    (arg6 : Memref sig .tc .vmem S64x1024 .f32) (harg6 : arg6.IsWhole)
    (x0 : Vec F S64x43x512 .f32) (x1 : Vec F S1024x512 .f32) (x2 : Vec F S43x1024 .f32) (y : S64x1024.Idx) :
    ∃ pc ∈ (kernelRun0 c i arg2 harg2 arg3 harg3 arg4 harg4 arg5 harg5 arg6 harg6 x0 x1 x2).1, y ∈ pc.1.set :=
  View.cover_of_tiledL (kernelRun0 c i arg2 harg2 arg3 harg3 arg4 harg4 arg5 harg5 arg6 harg6 x0 x1 x2).1 S64x1024.size (by sl_kernel_rfl) y

/-- What the body leaves in the output block: its pieces read back over anything. -/
def out0_3 (c : Dev nD) (i : grid0.Coords)
    (arg2 : Memref sig .tc .vmem S64x43x512 .f32) (harg2 : arg2.IsWhole)
    (arg3 : Memref sig .tc .vmem S1024x512 .f32) (harg3 : arg3.IsWhole)
    (arg4 : Memref sig .tc .vmem S43x1024 .f32) (harg4 : arg4.IsWhole)
    (arg5 : Memref sig .tc .vmem S64x1024 .f32) (harg5 : arg5.IsWhole)
    (arg6 : Memref sig .tc .vmem S64x1024 .f32) (harg6 : arg6.IsWhole)
    (x0 : Vec F S64x43x512 .f32) (x1 : Vec F S1024x512 .f32) (x2 : Vec F S43x1024 .f32) : Vec F S64x1024 .f32 :=
  VO0_3.read (Elt F) (VO0_3.writes (Elt F) VO0_3.junk (kernelRun0 c i arg2 harg2 arg3 harg3 arg4 harg4 arg5 harg5 arg6 harg6 x0 x1 x2).1)

/-- Each window's current staging memref at point `t`, as the pipeline passes it to the body, and its wholeness. -/
abbrev ms0_0 (t : Fin cfg0.N) : Memref sig .tc .vmem S64x43x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S43x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1024 .f32 := win0_3.stage (cfg0.slots t 3)
abbrev hs0_3 (t : Fin cfg0.N) : (ms0_3 t).IsWhole := hstage0_3 ((cfg0.slots t 3).cast nbuf0_3)
/-- The scratch operand: a whole scoped buffer of the kernel's own, passed beside the windows. -/
abbrev scM0_0 : Memref sig .tc .vmem S64x1024 .f32 := Memref.whole cc0_scratch0

section Frame
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place: an unfetched window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them (`V`); after the body at point `t`
    each input's buffer at its block and the output's at `out0_3` at the point's memrefs and input blocks; the invariant the scoped buffers
    no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The invariant with the scratch block taken out -/

/-- The scoped buffers no window of pipeline 0 stages, other than its scratch block: each whole at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The invariant: the scratch block owned at some contents, the other scoped buffers, the generator register. -/
theorem PhiA0_eq (c : Dev nD) :
    (Pipeline.ΦA spec0 c : sProp 𝕄)
      = iprop(iprop((∃ d, owns (c : Thread nD τ) scM0_0 fullShare d) ∗ restS (F := F) c) ∗ (∃ r, prngReg c r)) := by
  unfold Pipeline.ΦA restS; rw [scopedRest0_eq]; simp only [scM0_0, owns_whole]; try rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
/-- The body at any point: the inputs' memrefs hold their blocks, the invariant hands over the scratch block at some
    contents, so the body's triple applies; the pieces it stores into the output block cover it; the
    scratch block goes back into the invariant at whatever it holds; the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3,
    show (dat0 V c).Φ t.castSucc = Pipeline.ΦA spec0 c from rfl, PhiA0_eq]
  iintro ⟨⟨⟨HS, Hrest⟩, Hg⟩, Ho, ⟨%d0, H0⟩, ⟨%d1, H1⟩, ⟨%d2, H2⟩, ⟨%d3, H3⟩⟩
  iapply ((kernelRun0 c (grid0.coords t) _ _ _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%f5, H5⟩, ⟨%f6, H6⟩⟩
  isplitl [H6 Hrest Hg]
  · isplitl [H6 Hrest]
    · isplitl [H6]
      · iexists _; iapply (owns_intro (c : Thread nD τ) scM0_0 fullShare f6); iexact H6
      iexact Hrest
    iexact Hg
  isplitl [Ho]; · iexact Ho
  isplitl [H0]; · iexact H0
  isplitl [H1]; · iexact H1
  isplitl [H2]; · iexact H2
  unfold owns; iexists _; isplitr
  swap; · iexact H5
  ipureintro
  unfold out0_3
  exact View.read_writes_of_cover _ _ _ _ _ (cover0_3 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Frame

end Cert.Kernel.Reg0

end
-- ==== Proof.BitsRegion1.Base.lean ====
import proofs.«110471_j26396869001917_1_alg».proof.Proof.Gen.Kernel.Launch
import proofs.«110471_j26396869001917_1_alg».proof.Proof.Gen.Kernel.Skeleton
import proofs.«110471_j26396869001917_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! # The second pallas_call: the K-blocked readout matmul, on a 4 x 4 x 4 grid

What the three control cases of its body share: the windows' blocks, the two branch conditions in closed
form over the grid (the last grid axis k is the fastest: point t has k = t mod 4), where the output window is
idle, and the names of the memrefs the body is called with. -/

section Blocks
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's branch conditions -/

/-- The first branch (the accumulator is zeroed): k = 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (the scaled accumulator is stored to the output block): k = 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
/-- Where k ≠ 3 the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where k = 3 it is live. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1_2 : View sig .tc .vmem S128x1024 .f32 := (Memref.whole cc1_stg2_0 : Memref sig .tc .vmem S128x1024 .f32).view
abbrev ms1_0 (t : Fin cfg1.N) : Memref sig .tc .vmem S128x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x1024 .f32 := win1_2.stage (cfg1.slots t 2)
abbrev hs1_2 (t : Fin cfg1.N) : (ms1_2 t).IsWhole := hstage1_2 ((cfg1.slots t 2).cast nbuf1_2)
/-- The accumulator: a whole scoped buffer of the kernel's own, carried between grid points. -/
abbrev scM1_0 : Memref sig .tc .vmem S128x1024 .f32 := Memref.whole cc1_scratch0
abbrev VS1_0 : View sig .tc .vmem S128x1024 .f32 := scM1_0.view

/-- The core's other scoped buffers (the first call's staging buffers and accumulator), at anything: carried unopened. -/
abbrev restBut (c : Dev nD) : sProp 𝕄 :=
  Pipeline.scopedRestBut (Ix := Unit) (Name := ℕ) (U := UR sig nD τ) (Lvl := ℕ) (Val := Elt F) spec1 c [cc1_scratch0]

/-- The region invariant with the accumulator split off as a memref owned at some contents. -/
theorem PhiA1_eq (c : Dev nD) :
    (Pipeline.ΦA spec1 c : sProp 𝕄)
      = iprop(iprop((∃ d, owns (c : Thread nD τ) scM1_0 fullShare d) ∗ restBut c) ∗ (∃ r, prngReg c r)) := by
  unfold Pipeline.ΦA restBut
  rw [Pipeline.scopedRest_split_of_list spec1 c [cc1_scratch0] (by decide) (by decide)]
  simp only [scM1_0, owns_whole]; try rfl

end Cert.Kernel.Reg1

end
-- ==== Proof.BitsRegion1.RunA.lean ====
import proofs.«110471_j26396869001917_1_alg».proof.Proof.BitsRegion1.Base

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- THE BODY WHERE k = 0 (the first branch taken, the second not). On whole memrefs — the two inputs at their
    blocks `x0`, `x1`, the output's (idle here) at contents `xi2` handed back untouched, the accumulator at anything —
    the body runs to the continuation with the inputs as they were and the accumulator with its stores written:
    zero, then zero plus the block product. The stores' pieces are the witness the run finds. -/
noncomputable def kernelRun1_A (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : cond1_0 i) (hc1 : ¬cond1_1 i)
    (x0 : Vec F S128x2048 .bf16) (x1 : Vec F S1024x2048 .bf16) :
    Σ' (L2 : List (View.Piece (Elt F) S128x1024 .f32)), { LS0 : List (View.Piece (Elt F) S128x1024 .f32) //
      ∀ (xi2 : Vec F S128x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel2_body i arg3 harg3 arg4 harg4 arg5 harg5 arg6 harg6) K } := by
  refine ⟨[], ?_, fun xi2 E K => ?run⟩
  case run =>
    simp only [cc1__kernel2_body_eq_skeleton]; unfold cc1__kernel2_body_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Reg1

end
-- ==== Proof.BitsRegion1.RunB.lean ====
import proofs.«110471_j26396869001917_1_alg».proof.Proof.BitsRegion1.RunA

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- THE BODY WHERE k = 1 OR 2 (neither branch taken): the accumulator, at what the point before left (`xs0`),
    gains the block product; the output's buffer (idle here) is handed back untouched. -/
noncomputable def kernelRun1_B (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : ¬cond1_1 i)
    (x0 : Vec F S128x2048 .bf16) (x1 : Vec F S1024x2048 .bf16) (xs0 : Vec F S128x1024 .f32) :
    Σ' (L2 : List (View.Piece (Elt F) S128x1024 .f32)), { LS0 : List (View.Piece (Elt F) S128x1024 .f32) //
      ∀ (xi2 : Vec F S128x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel2_body i arg3 harg3 arg4 harg4 arg5 harg5 arg6 harg6) K } := by
  refine ⟨[], ?_, fun xi2 E K => ?run⟩
  case run =>
    simp only [cc1__kernel2_body_eq_skeleton]; unfold cc1__kernel2_body_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Reg1

end
-- ==== Proof.BitsRegion1.RunC.lean ====
import proofs.«110471_j26396869001917_1_alg».proof.Proof.BitsRegion1.RunB

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- THE BODY WHERE k = 3 (the second branch taken): the accumulator, at what the point before left (`xs0`), gains
    the last block product, and the output's buffer (at anything before) is stored whole with the accumulator
    divided by 8192. -/
noncomputable def kernelRun1_C (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : cond1_1 i)
    (x0 : Vec F S128x2048 .bf16) (x1 : Vec F S1024x2048 .bf16) (xs0 : Vec F S128x1024 .f32) :
    Σ' (L2 : List (View.Piece (Elt F) S128x1024 .f32)), { LS0 : List (View.Piece (Elt F) S128x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__kernel2_body i arg3 harg3 arg4 harg4 arg5 harg5 arg6 harg6) K } := by
  refine ⟨?_, ?_, fun E K => ?run⟩
  case run =>
    simp only [cc1__kernel2_body_eq_skeleton]; unfold cc1__kernel2_body_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Reg1

end
-- ==== Proof.BitsRegion1.lean ====
import proofs.«110471_j26396869001917_1_alg».proof.Proof.BitsRegion1.RunC

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! # The second pallas_call's frame: what the accumulator and the output block hold point by point

The accumulator is zeroed where k = 0 and gains one block product at every point; the output block is stored, as the
accumulator divided by 8192, where k = 3, and is idle elsewhere. The proof data follows the accumulator through the
grid; the body obligation is a case split on k, each leaf that case's run of the body. Everything is stated over the
buffer contents `V` the region is entered with. -/

/-- What the output's staging buffer holds after a point of case A (idle: a placeholder that nothing consults — the window is neither written back nor read at the next point). -/
def out1_A_2 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : cond1_0 i) (hc1 : ¬cond1_1 i)
    (x0 : Vec F S128x2048 .bf16) (x1 : Vec F S1024x2048 .bf16) : Vec F S128x1024 .f32 :=
  VO1_2.read (Elt F) (VO1_2.writes (Elt F) VO1_2.junk (kernelRun1_A c i arg3 harg3 arg4 harg4 arg5 harg5 arg6 harg6 hc0 hc1 x0 x1).1)

/-- The stores of case A into the accumulator are of the whole buffer. -/
theorem scover1_A_0 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : cond1_0 i) (hc1 : ¬cond1_1 i)
    (x0 : Vec F S128x2048 .bf16) (x1 : Vec F S1024x2048 .bf16) (y : S128x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S128x1024.size (by sl_kernel_rfl) y

/-- What case A leaves in the accumulator: its stores' pieces read back. -/
def sout1_A_0 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : cond1_0 i) (hc1 : ¬cond1_1 i)
    (x0 : Vec F S128x2048 .bf16) (x1 : Vec F S1024x2048 .bf16) : Vec F S128x1024 .f32 :=
  VS1_0.read (Elt F) (VS1_0.writes (Elt F) VS1_0.junk (kernelRun1_A c i arg3 harg3 arg4 harg4 arg5 harg5 arg6 harg6 hc0 hc1 x0 x1).2.1)

/-- What the output's staging buffer holds after a point of case B (idle: a placeholder that nothing consults — the window is neither written back nor read at the next point). -/
def out1_B_2 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : ¬cond1_1 i)
    (x0 : Vec F S128x2048 .bf16) (x1 : Vec F S1024x2048 .bf16) (xs0 : Vec F S128x1024 .f32) : Vec F S128x1024 .f32 :=
  VO1_2.read (Elt F) (VO1_2.writes (Elt F) VO1_2.junk (kernelRun1_B c i arg3 harg3 arg4 harg4 arg5 harg5 arg6 harg6 hc0 hc1 x0 x1 xs0).1)

/-- The stores of case B into the accumulator are of the whole buffer. -/
theorem scover1_B_0 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : ¬cond1_1 i)
    (x0 : Vec F S128x2048 .bf16) (x1 : Vec F S1024x2048 .bf16) (xs0 : Vec F S128x1024 .f32) (y : S128x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S128x1024.size (by sl_kernel_rfl) y

/-- What case B leaves in the accumulator: its stores' pieces read back. -/
def sout1_B_0 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : ¬cond1_1 i)
    (x0 : Vec F S128x2048 .bf16) (x1 : Vec F S1024x2048 .bf16) (xs0 : Vec F S128x1024 .f32) : Vec F S128x1024 .f32 :=
  VS1_0.read (Elt F) (VS1_0.writes (Elt F) VS1_0.junk (kernelRun1_B c i arg3 harg3 arg4 harg4 arg5 harg5 arg6 harg6 hc0 hc1 x0 x1 xs0).2.1)

/-- What the output's staging buffer holds after a point of case C: the pieces of its one store read back. -/
def out1_C_2 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : cond1_1 i)
    (x0 : Vec F S128x2048 .bf16) (x1 : Vec F S1024x2048 .bf16) (xs0 : Vec F S128x1024 .f32) : Vec F S128x1024 .f32 :=
  VO1_2.read (Elt F) (VO1_2.writes (Elt F) VO1_2.junk (kernelRun1_C c i arg3 harg3 arg4 harg4 arg5 harg5 arg6 harg6 hc0 hc1 x0 x1 xs0).1)

/-- The one store of case C into the output's buffer is of the whole block. -/
theorem cover1_C_2 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : cond1_1 i)
    (x0 : Vec F S128x2048 .bf16) (x1 : Vec F S1024x2048 .bf16) (xs0 : Vec F S128x1024 .f32) (y : S128x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S128x1024.size (by sl_kernel_rfl) y

/-- The stores of case C into the accumulator are of the whole buffer. -/
theorem scover1_C_0 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : cond1_1 i)
    (x0 : Vec F S128x2048 .bf16) (x1 : Vec F S1024x2048 .bf16) (xs0 : Vec F S128x1024 .f32) (y : S128x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S128x1024.size (by sl_kernel_rfl) y

/-- What case C leaves in the accumulator: its stores' pieces read back. -/
def sout1_C_0 (c : Dev nD) (i : grid1.Coords) (arg3 : Memref sig .tc .vmem S128x2048 .bf16) (harg3 : arg3.IsWhole) (arg4 : Memref sig .tc .vmem S1024x2048 .bf16) (harg4 : arg4.IsWhole) (arg5 : Memref sig .tc .vmem S128x1024 .f32) (harg5 : arg5.IsWhole) (arg6 : Memref sig .tc .vmem S128x1024 .f32) (harg6 : arg6.IsWhole) (hc0 : ¬cond1_0 i) (hc1 : cond1_1 i)
    (x0 : Vec F S128x2048 .bf16) (x1 : Vec F S1024x2048 .bf16) (xs0 : Vec F S128x1024 .f32) : Vec F S128x1024 .f32 :=
  VS1_0.read (Elt F) (VS1_0.writes (Elt F) VS1_0.junk (kernelRun1_C c i arg3 harg3 arg4 harg4 arg5 harg5 arg6 harg6 hc0 hc1 x0 x1 xs0).2.1)

section Frame
variable (V : (c : Dev nD) → (b : Ref sig .tc) → Buf (Elt F) ((c : Thread nD τ).loc b))

/-! ## What the output's buffer and the accumulator hold after each point -/

/-- THE ACCUMULATION: the pair (output staging buffer, accumulator) after the body at position `n` — the case the
    closed forms select (k = n mod 4), run on the point's memrefs and input blocks, the accumulator taken at what
    position `n - 1` left. -/
def outsAt1 (c : Dev nD) : (n : ℕ) → n < cfg1.N → Vec F S128x1024 .f32 × Vec F S128x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left, the other scoped buffers at anything, and the generator
    register at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2) ∗ restBut c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ restBut c) ∗ (∃ r, prngReg c r)) := by
  cases n with
  | zero => exact absurd rfl hz
  | succ n => rfl

/-! ## The pipeline's proof data -/

/-- The proof data of the second pipeline on core `c`: the arrays as the region finds them (`V`); after the body
    at point `t` each input's buffer at its block and the output's at `outsAt1`; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; k = t mod 4 says which case the point is in; that
    case's run applies; the invariant hands the body the accumulator at what the point before left (at anything at the
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · by_cases h1 : t.val % 4 = 3
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      · rw [PhiS_castSucc V c t, PhiS_pos V c _ _ hz]
        iintro ⟨⟨⟨HS0, Hrest⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _)
            iexact Hrest
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      · rw [PhiS_castSucc V c t, PhiS_pos V c _ _ hz]
        iintro ⟨⟨⟨HS0, Hrest⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _)
            iexact Hrest
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 64 := N_1; omega)

end Frame

end Cert.Kernel.Reg1

end
-- ==== Proof.Region0Code.lean ====
/-
  The first stage on one block is the hidden code of the specification, element by element.

  A block of the stage's output is indexed by a row `r` of 64 and a hidden unit `q` of 1024 within the block; the block's
  inputs are a block of 64 rows of the features, a block of 1024 rows of the weights and the matching 1024 columns of the
  codes. Whatever the block's place in the arrays, if row `r` of the block's features is row `b` of the array, row `q` of the
  block's weights is row `h` of the array and column `q` of the block's codes is column `h` of the array, then the stage's
  value at `(r, q)` is `Cert.Spec.code` at `(b, h)`: the sign of the vote, the vote the sum over the bands of the signs of the
  scores.
-/
import proofs.«110471_j26396869001917_1_alg».proof.Proof.Region0Value
import proofs.«110471_j26396869001917_1_alg».proof.Proof.Spec

namespace Cert.KernelIdeal.Band

open Idealize.ShloMosaic Idealize.ShloMosaic.ValueIdx Idealize.SL.Sem
open scoped BigOperators

/-- The stage's value at `(r, q)` of a block whose row `r`, weight row `q` and code column `q` are the arrays' row `b`, weight
    row `h` and code column `h`: the specification's hidden code at `(b, h)`. The block's features and weights are finite. -/
theorem chain_eq_code (X : Cert.Spec.XArr) (W1 : Cert.Spec.W1Arr) (BP : Cert.Spec.BpArr)
    (x0 : Vec Ideal S64x43x512 .f32) (x1 : Vec Ideal S1024x512 .f32) (x2 : Vec Ideal S43x1024 .f32)
    (h0 : ∀ j, ∃ a : ℝ, x0 j = (a : EReal)) (h1 : ∀ j, ∃ a : ℝ, x1 j = (a : EReal))
    (r : Fin 64) (q : Fin 1024) (b : Fin 512) (h : Fin 8192)
    (e0 : ∀ (n : Fin 43) (f : Fin 512), x0 (ix3 r n f) = X (ix3 b n f))
    (e1 : ∀ f : Fin 512, x1 (ix2 q f) = W1 (ix2 h f))
    (e2 : ∀ n : Fin 43, x2 (ix2 n q) = BP (ix2 n h)) :
    chain x0 x1 x2 (ix2 r q) = Cert.Spec.code X W1 BP b h := by
  rw [chain_apply x0 x1 x2 h0 h1 r q]
  unfold Cert.Spec.code Cert.Spec.vote Cert.Spec.score
  refine congrArg Ideal.sign (Finset.sum_congr rfl fun n _ => ?_)
  rw [e2 n]
  refine congrArg (fun s => Ideal.sign (s * BP (ix2 n h))) (Finset.sum_congr rfl fun f _ => ?_)
  rw [e0 n f, e1 f]

end Cert.KernelIdeal.Band
-- ==== Proof.Blocks0.lean ====
/-
  Where the first pipeline's blocks sit. At grid point `t` the output block is rows `64·i … 64·i+63` and columns
  `1024·j … 1024·j+1023` of the hidden code, for the point's two coordinates `(i, j)`; the feature block is the same
  64 rows of `x` (all bands, all features), the weight block rows `1024·j …` of `W1`, and the code block columns
  `1024·j …` of `bp` (all bands). Every pair `(i, j)` below `(8, 8)` is some point's, so the output blocks tile the array.
-/
import proofs.«110471_j26396869001917_1_alg».proof.Proof.Gen.KernelIdeal.Launch
import proofs.«110471_j26396869001917_1_alg».proof.Proof.Gen.KernelIdeal.Points
import Idealize.ShloMosaic.Lib.Pipeline.Value
import Idealize.ShloMosaic.Lib.ValueIdx

set_option maxRecDepth 16384

noncomputable section

namespace Cert.KernelIdeal.Blocks0

open Cert.KernelIdeal Cert.KernelIdeal.Gen
open Idealize.ShloMosaic Idealize.ShloMosaic.ValueIdx

variable {F : FTy → Type} [FloatOps F]

/-- The printed index maps, decided over the grid: the feature block moves with the output block's rows, the weight
    and code blocks with its columns, and every other block coordinate is zero. -/
theorem idx_facts : ∀ t : Fin cfg0.N,
    win0_0.index t (0 : Fin 3) = win0_3.index t (0 : Fin 2) ∧ win0_0.index t (1 : Fin 3) = 0 ∧ win0_0.index t (2 : Fin 3) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every block of the output array is some point's. -/
theorem idx_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- An index of the hidden code is in point `t`'s output block iff each coordinate is in the block's range. -/
theorem mem_blk3 (t : Fin cfg0.N) (i : S512x8192.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_v0).slice (win0_3.rect t)).set ↔ _
  rw [View.set_slice_whole, Rect.mem_set_unit]
  exact Iff.rfl

/-- The output blocks tile the hidden code. -/
theorem cover3 (i : S512x8192.Idx) : ∃ t : Fin cfg0.N, (cfg0.win 3).flush t = true ∧ i ∈ ((cfg0.win 3).blk t).view.set := by
  have hi0 : (i 0).val < 512 := (i 0).isLt
  have hi1 : (i 1).val < 8192 := (i 1).isLt
  obtain ⟨t, ht⟩ := idx_onto ⟨(i 0).val / 64, by omega⟩ ⟨(i 1).val / 1024, by omega⟩
  have q0 : win0_3.index t (0 : Fin 2) = (i 0).val / 64 := congrFun ht 0
  have q1 : win0_3.index t (1 : Fin 2) = (i 1).val / 1024 := congrFun ht 1
  refine ⟨t, flush0_3 t, ?_⟩
  rw [mem_blk3]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 1024 ≤ (i 1).val ∧ (i 1).val < win0_3.index t (1 : Fin 2) * 1024 + 1024; omega

/-! ## Where a block's element sits in its array -/

/-- The output block's element `(r, q)` is the hidden code's `(64·i + r, 1024·j + q)`. -/
theorem emb3_val (t : Fin cfg0.N) (r : Fin 64) (q : Fin 1024) :
    ((((cfg0.win 3).blk t).view.emb (ix2 r q)) 0).val = win0_3.index t (0 : Fin 2) * 64 + r.val
    ∧ ((((cfg0.win 3).blk t).view.emb (ix2 r q)) 1).val = win0_3.index t (1 : Fin 2) * 1024 + q.val := by
  refine ⟨?_, ?_⟩
  · show win0_3.index t (0 : Fin 2) * 64 + 1 * r.val = _; omega
  · show win0_3.index t (1 : Fin 2) * 1024 + 1 * q.val = _; omega

/-- The feature block's element `(r, n, f)` is `x`'s `(64·i + r, n, f)`. -/
theorem emb0_eq (t : Fin cfg0.N) (r : Fin 64) (n : Fin 43) (f : Fin 512) (j : S512x8192.Idx)
    (hj : (j 0).val = win0_3.index t (0 : Fin 2) * 64 + r.val) :
    ((cfg0.win 0).blk t).view.emb (ix3 r n f) = (ix3 (j 0) n f : S512x43x512.Idx) := by
  obtain ⟨e0, e1, e2, -⟩ := idx_facts t
  funext a; apply Fin.ext
  match a with
  | ⟨0, _⟩ => show win0_0.index t (0 : Fin 3) * 64 + 1 * r.val = (j 0).val; omega
  | ⟨1, _⟩ => show win0_0.index t (1 : Fin 3) * 43 + 1 * n.val = n.val; omega
  | ⟨2, _⟩ => show win0_0.index t (2 : Fin 3) * 512 + 1 * f.val = f.val; omega

/-- The weight block's element `(q, f)` is `W1`'s `(1024·j + q, f)`. -/
theorem emb1_eq (t : Fin cfg0.N) (q : Fin 1024) (f : Fin 512) (j : S512x8192.Idx)
    (hj : (j 1).val = win0_3.index t (1 : Fin 2) * 1024 + q.val) :
    ((cfg0.win 1).blk t).view.emb (ix2 q f) = (ix2 (j 1) f : S8192x512.Idx) := by
  obtain ⟨-, -, -, e3, e4, -⟩ := idx_facts t
  funext a; apply Fin.ext
  match a with
  | ⟨0, _⟩ => show win0_1.index t (0 : Fin 2) * 1024 + 1 * q.val = (j 1).val; omega
  | ⟨1, _⟩ => show win0_1.index t (1 : Fin 2) * 512 + 1 * f.val = f.val; omega

/-- The code block's element `(n, q)` is `bp`'s `(n, 1024·j + q)`. -/
theorem emb2_eq (t : Fin cfg0.N) (n : Fin 43) (q : Fin 1024) (j : S512x8192.Idx)
    (hj : (j 1).val = win0_3.index t (1 : Fin 2) * 1024 + q.val) :
    ((cfg0.win 2).blk t).view.emb (ix2 n q) = (ix2 n (j 1) : S43x8192.Idx) := by
  obtain ⟨-, -, -, -, -, e5, e6, -⟩ := idx_facts t
  funext a; apply Fin.ext
  match a with
  | ⟨0, _⟩ => show win0_2.index t (0 : Fin 2) * 43 + 1 * n.val = n.val; omega
  | ⟨1, _⟩ => show win0_2.index t (1 : Fin 2) * 1024 + 1 * q.val = (j 1).val; omega

end Cert.KernelIdeal.Blocks0

end
-- ==== Proof.Region0Final.lean ====
/-
  What the first pipeline leaves in the hidden code's array: the specification's code of the arguments.

  At grid point `t` the body leaves in the output block the 44-store chain of the three input blocks, which at `(r, q)`
  is the sign of the vote of the block's row `r` and column `q` over the block's bands. The input blocks are the
  arguments' blocks where the output block sits (same rows of `x`, the columns' rows of `W1`, the same columns of `bp`),
  so that is the specification's code at the element's place in the array. The output blocks tile the array and each is
  written back, so the array ends holding the code everywhere. The features and the weights are real.
-/
import proofs.«110471_j26396869001917_1_alg».proof.Proof.IdealRegion0
import proofs.«110471_j26396869001917_1_alg».proof.Proof.Region0Value
import proofs.«110471_j26396869001917_1_alg».proof.Proof.Region0Code
import proofs.«110471_j26396869001917_1_alg».proof.Proof.Blocks0
import proofs.«110471_j26396869001917_1_alg».proof.Proof.Spec

set_option maxRecDepth 16384

noncomputable section

namespace Cert.KernelIdeal.Reg0

open Cert.KernelIdeal Cert.KernelIdeal.Gen
open Idealize.ShloMosaic Idealize.ShloMosaic.TcCoe Idealize.ShloMosaic.ValueIdx
open scoped BigOperators

variable (V : (c : Dev nD) → (b : Ref sig .tc) → Buf (Elt Ideal) ((c : Thread nD τ).loc b))

/-- What point `t` writes back is block `t` of the specification's code of the arguments as the region finds them. -/
theorem flushed3_eq (c : Dev nD)
    (hx : ∀ i, ∃ a : ℝ, (V c main_arg0 : S512x43x512.Idx → EReal) i = (a : EReal))
    (hw : ∀ i, ∃ a : ℝ, (V c main_arg1 : S8192x512.Idx → EReal) i = (a : EReal)) (t : Fin cfg0.N) :
    (dat0 V c).flushed 3 t
      = ((cfg0.win 3).blk t).view.read (Elt Ideal) (Cert.Spec.codeArr (V c main_arg0) (V c main_arg1) (V c main_arg3)) := by
  show (cfg0.win 3).cut (grid0.coords t) ((dat0 V c).after 3 t) = _
  rw [after0_3, out0_3_eq]
  funext j
  obtain ⟨r, q, rfl⟩ : ∃ (r : Fin 64) (q : Fin 1024), j = ix2 r q := ⟨j 0, j 1, eq_ix2 j⟩
  show Cert.KernelIdeal.Band.chain (iblk0 V c 0 t) (iblk0 V c 1 t) (iblk0 V c 2 t) (ix2 r q)
    = Cert.Spec.codeArr (V c main_arg0) (V c main_arg1) (V c main_arg3) (((cfg0.win 3).blk t).view.emb (ix2 r q))
  obtain ⟨h0, h1⟩ := Cert.KernelIdeal.Blocks0.emb3_val t r q
  generalize ((cfg0.win 3).blk t).view.emb (ix2 r q) = J at h0 h1 ⊢
  show _ = Cert.Spec.code (V c main_arg0) (V c main_arg1) (V c main_arg3) (J 0) (J 1)
  exact Cert.KernelIdeal.Band.chain_eq_code (V c main_arg0) (V c main_arg1) (V c main_arg3)
    (iblk0 V c 0 t) (iblk0 V c 1 t) (iblk0 V c 2 t)
    (fun y => hx (((cfg0.win 0).blk t).view.emb y)) (fun y => hw (((cfg0.win 1).blk t).view.emb y)) r q (J 0) (J 1)
    (fun n f => congrArg (V c main_arg0 : S512x43x512.Idx → EReal) (Cert.KernelIdeal.Blocks0.emb0_eq t r n f J h0))
    (fun f => congrArg (V c main_arg1 : S8192x512.Idx → EReal) (Cert.KernelIdeal.Blocks0.emb1_eq t q f J h1))
    (fun n => congrArg (V c main_arg3 : S43x8192.Idx → EReal) (Cert.KernelIdeal.Blocks0.emb2_eq t n q J h1))

/-- The hidden code's array after the first pipeline is the specification's code of the arguments. -/
theorem final0 (c : Dev nD)
    (hx : ∀ i, ∃ a : ℝ, (V c main_arg0 : S512x43x512.Idx → EReal) i = (a : EReal))
    (hw : ∀ i, ∃ a : ℝ, (V c main_arg1 : S8192x512.Idx → EReal) i = (a : EReal)) :
    ((dat0 V c).arrAt 3 cfg0.N : S512x8192.Idx → EReal)
      = Cert.Spec.codeArr (V c main_arg0) (V c main_arg1) (V c main_arg3) :=
  (dat0 V c).arrAt_eq_of_cover 3 (Cert.Spec.codeArr (V c main_arg0) (V c main_arg1) (V c main_arg3))
    (fun t _ => flushed3_eq V c hx hw t) Cert.KernelIdeal.Blocks0.cover3

end Cert.KernelIdeal.Reg0

end
-- ==== Proof.IdealRegion1Value.lean ====
import proofs.«110471_j26396869001917_1_alg».proof.Proof.IdealRegion1
import proofs.«110471_j26396869001917_1_alg».proof.Proof.Spec
import Idealize.ShloMosaic.Lib.Pipeline.Value
import Idealize.ShloMosaic.PureOps.Ideal.Laws
import Idealize.ShloMosaic.Lib.ValueIdx
import Idealize.ShloMosaic.Lib.Tactic

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! # The second pallas_call's value: the output array is the readout of its two input arrays

First what each case's stores leave, read back as the payloads' values (for any float instance); then, over the
extended reals, the accumulator after each grid point as a partial sum of block products, and the output array as
the blocks stored where k = 3. -/

theorem hz : (![0, 0] : Fin 2 → Nat) = fun _ => 0 := funext fun a => by fin_cases a <;> rfl

/-! ## What each case's stores leave -/

/-- Where k = 1 or 2 the accumulator, holding `xs`, is left at `xs` plus the block product. -/
theorem sout_B (c : Dev nD) (i : grid1.Coords) (a3 : Memref sig .tc .vmem S128x2048 .bf16) (h3 : a3.IsWhole) (a4 : Memref sig .tc .vmem S1024x2048 .bf16) (h4 : a4.IsWhole) (a5 : Memref sig .tc .vmem S128x1024 .f32) (h5 : a5.IsWhole) (a6 : Memref sig .tc .vmem S128x1024 .f32) (h6 : a6.IsWhole) (hc0 : ¬cond1_0 i) (hc1 : ¬cond1_1 i)
    (x0 : Vec F S128x2048 .bf16) (x1 : Vec F S1024x2048 .bf16) (xs : Vec F S128x1024 .f32) :
    sout1_B_0 c i a3 h3 a4 h4 a5 h5 a6 h6 hc0 hc1 x0 x1 xs = k1_pay2 x0 x1 xs := by
  unfold sout1_B_0
  rw [View.read_writes_eq_canon _ _ _ (scover1_B_0 c i a3 h3 a4 h4 a5 h5 a6 h6 hc0 hc1 x0 x1 xs)]
  unfold kernelRun1_B
  dsimp only
  try sl_unfold_words
  rw [View.canon_unit_zero hz]
  simp only [View.readAt_eq_ld, h3.read_unread, h4.read_unread, h6.read_unread, View.ld_unit_zero (S := S128x2048) hz, View.ld_unit_zero (S := S1024x2048) hz, View.ld_unit_zero (S := S128x1024) hz]

/-- Where k = 3 likewise; -/
theorem sout_C (c : Dev nD) (i : grid1.Coords) (a3 : Memref sig .tc .vmem S128x2048 .bf16) (h3 : a3.IsWhole) (a4 : Memref sig .tc .vmem S1024x2048 .bf16) (h4 : a4.IsWhole) (a5 : Memref sig .tc .vmem S128x1024 .f32) (h5 : a5.IsWhole) (a6 : Memref sig .tc .vmem S128x1024 .f32) (h6 : a6.IsWhole) (hc0 : ¬cond1_0 i) (hc1 : cond1_1 i)
    (x0 : Vec F S128x2048 .bf16) (x1 : Vec F S1024x2048 .bf16) (xs : Vec F S128x1024 .f32) :
    sout1_C_0 c i a3 h3 a4 h4 a5 h5 a6 h6 hc0 hc1 x0 x1 xs = k1_pay2 x0 x1 xs := by
  unfold sout1_C_0
  rw [View.read_writes_eq_canon _ _ _ (scover1_C_0 c i a3 h3 a4 h4 a5 h5 a6 h6 hc0 hc1 x0 x1 xs)]
  unfold kernelRun1_C
  dsimp only
  try sl_unfold_words
  rw [View.canon_unit_zero hz]
  simp only [View.readAt_eq_ld, h3.read_unread, h4.read_unread, h6.read_unread, View.ld_unit_zero (S := S128x2048) hz, View.ld_unit_zero (S := S1024x2048) hz, View.ld_unit_zero (S := S128x1024) hz]

/-- and the output's buffer is left at that sum divided by 8192 (the body reloads the accumulator it just stored). -/
theorem out_C (c : Dev nD) (i : grid1.Coords) (a3 : Memref sig .tc .vmem S128x2048 .bf16) (h3 : a3.IsWhole) (a4 : Memref sig .tc .vmem S1024x2048 .bf16) (h4 : a4.IsWhole) (a5 : Memref sig .tc .vmem S128x1024 .f32) (h5 : a5.IsWhole) (a6 : Memref sig .tc .vmem S128x1024 .f32) (h6 : a6.IsWhole) (hc0 : ¬cond1_0 i) (hc1 : cond1_1 i)
    (x0 : Vec F S128x2048 .bf16) (x1 : Vec F S1024x2048 .bf16) (xs : Vec F S128x1024 .f32) :
    out1_C_2 c i a3 h3 a4 h4 a5 h5 a6 h6 hc0 hc1 x0 x1 xs = k1_pay3 (k1_pay2 x0 x1 xs) := by
  unfold out1_C_2
  rw [View.read_writes_eq_canon _ _ _ (cover1_C_2 c i a3 h3 a4 h4 a5 h5 a6 h6 hc0 hc1 x0 x1 xs)]
  unfold kernelRun1_C
  dsimp only
  try sl_unfold_words
  rw [View.canon_unit_zero hz, View.readCov_unit_zero (S := S128x1024) _ hz]
  simp only [View.readAt_eq_ld, h3.read_unread, h4.read_unread, h6.read_unread, View.ld_unit_zero (S := S128x2048) hz, View.ld_unit_zero (S := S1024x2048) hz, View.ld_unit_zero (S := S128x1024) hz]

/-- Where k = 0 the accumulator is zeroed first: it is left at the zero block plus the block product. -/
theorem sout_A (c : Dev nD) (i : grid1.Coords) (a3 : Memref sig .tc .vmem S128x2048 .bf16) (h3 : a3.IsWhole) (a4 : Memref sig .tc .vmem S1024x2048 .bf16) (h4 : a4.IsWhole) (a5 : Memref sig .tc .vmem S128x1024 .f32) (h5 : a5.IsWhole) (a6 : Memref sig .tc .vmem S128x1024 .f32) (h6 : a6.IsWhole) (hc0 : cond1_0 i) (hc1 : ¬cond1_1 i)
    (x0 : Vec F S128x2048 .bf16) (x1 : Vec F S1024x2048 .bf16) :
    sout1_A_0 c i a3 h3 a4 h4 a5 h5 a6 h6 hc0 hc1 x0 x1 = k1_pay2 x0 x1 (k1_pay1 (F := F)) := by
  unfold sout1_A_0
  rw [View.read_writes_eq_canon _ _ _ (scover1_A_0 c i a3 h3 a4 h4 a5 h5 a6 h6 hc0 hc1 x0 x1)]
  unfold kernelRun1_A
  dsimp only
  try sl_unfold_words
  rw [View.canon_cons_unit_zero (S := S128x1024) hz, View.readCov_unit_zero (S := S128x1024) _ hz]
  simp only [View.readAt_eq_ld, h3.read_unread, h4.read_unread, View.ld_unit_zero (S := S128x2048) hz, View.ld_unit_zero (S := S1024x2048) hz, View.ld_unit_zero (S := S128x1024) hz]

/-! ## The payloads at an index, over the extended reals -/

theorem pay1_apply (j : S128x1024.Idx) : (k1_pay1 (F := Ideal)) j = 0 := by
  unfold k1_pay1
  rw [shapeCast_self]
  exact Ideal.ofBits_zero_f32

/-- The accumulator's update at entry (p, q): what it held plus the inner product, over the block's 2048 columns, of
    row p of the code block with row q of the weight block. -/
theorem pay2_apply (x0 : Vec Ideal S128x2048 .bf16) (x1 : Vec Ideal S1024x2048 .bf16) (xs : Vec Ideal S128x1024 .f32)
    (p : Fin 128) (q : Fin 1024) :
    k1_pay2 x0 x1 xs (ix2 p q) = xs (ix2 p q) + ∑ h : Fin 2048, x0 (ix2 p h) * x1 (ix2 q h) := by
  unfold k1_pay2
  simp only [shapeCast_self]
  refine (addf_apply _ _ _).trans ?_
  refine congrArg (xs (ix2 p q) + ·) ?_
  refine (Ideal.matmul_constant_zero_apply (φ₁ := .bf16) (φ₂ := .bf16) dot_S128x2048_S1024x2048_S128x1024_1_1_0_0_n_n none x0 x1 (ix2 p q)).trans ?_
  rw [← Equiv.sum_comp (contrEquiv1 dot_S128x2048_S1024x2048_S128x1024_1_1_0_0_n_n 2048 rfl rfl).symm]
  refine Finset.sum_congr rfl fun h _ => ?_
  have ck := contrEquiv1_symm_val dot_S128x2048_S1024x2048_S128x1024_1_1_0_0_n_n 2048 rfl rfl h
  have l : dot_S128x2048_S1024x2048_S128x1024_1_1_0_0_n_n.lhsIdx (ix2 p q)
      ((contrEquiv1 dot_S128x2048_S1024x2048_S128x1024_1_1_0_0_n_n 2048 rfl rfl).symm h) = ix2 p h := by
    funext ax; apply Fin.ext
    match ax with
    | ⟨0, _⟩ => simp [DotDims.lhsIdx, dot_S128x2048_S1024x2048_S128x1024_1_1_0_0_n_n]; rfl
    | ⟨1, _⟩ => simp [DotDims.lhsIdx, dot_S128x2048_S1024x2048_S128x1024_1_1_0_0_n_n]; exact ck
  have r : dot_S128x2048_S1024x2048_S128x1024_1_1_0_0_n_n.rhsIdx (ix2 p q)
      ((contrEquiv1 dot_S128x2048_S1024x2048_S128x1024_1_1_0_0_n_n 2048 rfl rfl).symm h) = ix2 q h := by
    funext ax; apply Fin.ext
    match ax with
    | ⟨0, _⟩ => simp [DotDims.rhsIdx, dot_S128x2048_S1024x2048_S128x1024_1_1_0_0_n_n]; rfl
    | ⟨1, _⟩ => simp [DotDims.rhsIdx, dot_S128x2048_S1024x2048_S128x1024_1_1_0_0_n_n]; exact ck
  rw [l, r]

theorem pay3_apply (v : Vec Ideal S128x1024 .f32) (j : S128x1024.Idx) :
    k1_pay3 v j = Ideal.div (v j) (Ideal.ofBits .f32 0x46000000#32) := rfl

/-! ## The accumulator after each grid point

Point t of the 4 x 4 x 4 grid has block row t / 16, block column t / 4 mod 4 and K-block t mod 4. -/

section IdealValue
variable (V : (c : Dev nD) → (b : Ref sig .tc) → Buf (Elt Ideal) ((c : Thread nD τ).loc b))

/-- Column h of K-block k, among the 8192 columns. -/
def col (k : ℕ) (h : Fin 2048) : Fin 8192 := ⟨2048 * (k % 4) + h.val, by have := h.isLt; omega⟩
/-- Row p of the block row of point n, among the 512 rows. -/
def row (n : ℕ) (p : Fin 128) : Fin 512 := ⟨128 * (n / 16 % 4) + p.val, by have := p.isLt; omega⟩
/-- Row q of the block column of point n, among the 4096 rows of the weights. -/
def ocol (n : ℕ) (q : Fin 1024) : Fin 4096 := ⟨1024 * (n / 4 % 4) + q.val, by have := q.isLt; omega⟩

theorem col_congr {a b : ℕ} (h : a % 4 = b % 4) (x : Fin 2048) : col a x = col b x := Fin.ext (by simp only [col, h])

/-- One term of the readout's inner product: column `x` of row `b` of the code times column `x` of row `o` of the weights. -/
def prodAt (A : Cert.Spec.CodeArr) (W : Cert.Spec.W2Arr) (b : Fin 512) (o : Fin 4096) (x : Fin 8192) : EReal :=
  A (ix2 b x) * W (ix2 o x)

/-- The inner product of row `b` of the code with row `o` of the weights over the columns of K-block `k`. -/
def blockProd (A : Cert.Spec.CodeArr) (W : Cert.Spec.W2Arr) (b : Fin 512) (o : Fin 4096) (k : ℕ) : EReal :=
  ∑ h : Fin 2048, prodAt A W b o (col k h)

/-- The first `K` block products added. -/
def partialSum (A : Cert.Spec.CodeArr) (W : Cert.Spec.W2Arr) (b : Fin 512) (o : Fin 4096) (K : ℕ) : EReal :=
  ∑ k ∈ Finset.range K, blockProd A W b o k

/-- The windows' block indices in closed form, decided over the grid. -/
theorem idx_facts : ∀ t : Fin cfg1.N,
    win1_0.index t (0 : Fin 2) = t.val / 16 % 4 ∧ win1_0.index t (1 : Fin 2) = t.val % 4
    ∧ win1_1.index t (0 : Fin 2) = t.val / 4 % 4 ∧ win1_1.index t (1 : Fin 2) = t.val % 4
    ∧ win1_2.index t (0 : Fin 2) = t.val / 16 % 4 ∧ win1_2.index t (1 : Fin 2) = t.val / 4 % 4 :=
  (by decide +kernel : ∀ t : Fin grid1.N, _)

/-- The code's block at point t: rows of the point's block row, columns of its K-block. -/
theorem iblk0_apply (c : Dev nD) (t : Fin cfg1.N) (p : Fin 128) (h : Fin 2048) :
    (iblk1 V c 0 t : Vec Ideal S128x2048 .bf16) (ix2 p h) = (V c main_v1 : S512x8192.Idx → EReal) (ix2 (row t.val p) (col t.val h)) := by
  obtain ⟨e0, e1, -, -, -, -⟩ := idx_facts t
  unfold iblk1
  rw [View.read_apply]
  show V c main_v1 _ = V c main_v1 _
  congr 1
  funext a
  apply Fin.ext
  match a with
  | ⟨0, _⟩ => show win1_0.index t (0 : Fin 2) * 128 + 1 * p.val = 128 * (t.val / 16 % 4) + p.val; rw [e0]; omega
  | ⟨1, _⟩ => show win1_0.index t (1 : Fin 2) * 2048 + 1 * h.val = 2048 * (t.val % 4) + h.val; rw [e1]; omega

/-- The weights' block at point t: rows of the point's block column, columns of its K-block. -/
theorem iblk1_apply (c : Dev nD) (t : Fin cfg1.N) (q : Fin 1024) (h : Fin 2048) :
    (iblk1 V c 1 t : Vec Ideal S1024x2048 .bf16) (ix2 q h) = (V c main_v2 : S4096x8192.Idx → EReal) (ix2 (ocol t.val q) (col t.val h)) := by
  obtain ⟨-, -, e0, e1, -, -⟩ := idx_facts t
  unfold iblk1
  rw [View.read_apply]
  show V c main_v2 _ = V c main_v2 _
  congr 1
  funext a
  apply Fin.ext
  match a with
  | ⟨0, _⟩ => show win1_1.index t (0 : Fin 2) * 1024 + 1 * q.val = 1024 * (t.val / 4 % 4) + q.val; rw [e0]; omega
  | ⟨1, _⟩ => show win1_1.index t (1 : Fin 2) * 2048 + 1 * h.val = 2048 * (t.val % 4) + h.val; rw [e1]; omega

/-- The block product the body adds at point t, at entry (p, q). -/
theorem blocks_prod (c : Dev nD) (t : Fin cfg1.N) (p : Fin 128) (q : Fin 1024)
    (x0 : Vec Ideal S128x2048 .bf16) (x1 : Vec Ideal S1024x2048 .bf16) (hx0 : x0 = iblk1 V c 0 t) (hx1 : x1 = iblk1 V c 1 t) :
    ∑ h : Fin 2048, x0 (ix2 p h) * x1 (ix2 q h)
      = blockProd (V c main_v1) (V c main_v2) (row t.val p) (ocol t.val q) (t.val % 4) := by
  subst hx0 hx1
  unfold blockProd
  refine Finset.sum_congr rfl fun h _ => ?_
  rw [iblk0_apply, iblk1_apply, col_congr (Nat.mod_mod _ _).symm h]
  rfl

/-- Where k = 0 the accumulator is left at the first block product. -/
theorem acc_A (c : Dev nD) (t : Fin cfg1.N) (h0 : t.val % 4 = 0) (p : Fin 128) (q : Fin 1024) :
    (outsAt1 V c t.val t.isLt).2 (ix2 p q) = partialSum (V c main_v1) (V c main_v2) (row t.val p) (ocol t.val q) (t.val % 4 + 1) := by
  have h1 : ¬t.val % 4 = 3 := by omega
  rw [outsAt1_A V c t h0 h1]
  dsimp only
  rw [sout_A (F := Ideal) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)]
  rw [pay2_apply, pay1_apply, zero_add, blocks_prod V c t p q (iblk1 V c 0 t) (iblk1 V c 1 t) rfl rfl, h0]
  unfold partialSum
  rw [Finset.sum_range_one]

/-- Elsewhere it gains the point's block product. -/
theorem acc_step (c : Dev nD) (t : Fin cfg1.N) (h0 : ¬t.val % 4 = 0) (p : Fin 128) (q : Fin 1024) :
    (outsAt1 V c t.val t.isLt).2 (ix2 p q)
      = (outsAt1 V c (t.val - 1) (Nat.lt_of_le_of_lt (Nat.sub_le _ _) t.isLt)).2 (ix2 p q) + blockProd (V c main_v1) (V c main_v2) (row t.val p) (ocol t.val q) (t.val % 4) := by
  by_cases h1 : t.val % 4 = 3
  · rw [outsAt1_C V c t h0 h1]
    dsimp only
    rw [sout_C (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2]
    rw [pay2_apply, blocks_prod V c t p q (iblk1 V c 0 t) (iblk1 V c 1 t) rfl rfl]
  · rw [outsAt1_B V c t h0 h1]
    dsimp only
    rw [sout_B (F := Ideal) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2]
    rw [pay2_apply, blocks_prod V c t p q (iblk1 V c 0 t) (iblk1 V c 1 t) rfl rfl]

/-- THE ACCUMULATOR after point n holds, at entry (p, q), the block products of K-blocks 0 … n mod 4 added. -/
theorem acc_eq (c : Dev nD) : ∀ (n : ℕ) (hn : n < cfg1.N) (p : Fin 128) (q : Fin 1024),
    (outsAt1 V c n hn).2 (ix2 p q) = partialSum (V c main_v1) (V c main_v2) (row n p) (ocol n q) (n % 4 + 1)
  | 0, hn, p, q => acc_A V c ⟨0, hn⟩ rfl p q
  | n + 1, hn, p, q => by
    by_cases h0 : (n + 1) % 4 = 0
    · exact acc_A V c ⟨n + 1, hn⟩ h0 p q
    · have hs := acc_step V c ⟨n + 1, hn⟩ h0 p q
      have ih := acc_eq c n (Nat.lt_of_succ_lt hn) p q
      have hr : row (n + 1) p = row n p := Fin.ext (by simp only [row]; omega)
      have ho : ocol (n + 1) q = ocol n q := Fin.ext (by simp only [ocol]; omega)
      have hk : (n + 1) % 4 = n % 4 + 1 := by omega
      refine hs.trans ?_
      show (outsAt1 V c n _).2 (ix2 p q) + _ = _
      rw [ih, hr, ho, hk]
      unfold partialSum
      rw [Finset.sum_range_succ _ (n % 4 + 1)]

/-- The four K-blocks' columns are the 8192 columns. -/
theorem sum_blocks (f : Fin 8192 → EReal) :
    ∑ k ∈ Finset.range 4, ∑ h : Fin 2048, f (col k h) = ∑ x : Fin 8192, f x := by
  rw [Finset.sum_range (fun k => ∑ h : Fin 2048, f (col k h)), ← Fintype.sum_prod_type']
  exact Fintype.sum_equiv (finProdFinEquiv (m := 4) (n := 2048)) _ _ fun x => congrArg f (Fin.ext (by
    have := x.1.isLt
    simp only [col, finProdFinEquiv_apply_val]
    omega))

/-- Where k = 3 the output's buffer is left, at entry (p, q), at the readout of the point's row and column. -/
theorem out_eq (c : Dev nD) (t : Fin cfg1.N) (h3 : t.val % 4 = 3) (p : Fin 128) (q : Fin 1024) :
    (outsAt1 V c t.val t.isLt).1 (ix2 p q) = Cert.Spec.readout (V c main_v1) (V c main_v2) (row t.val p) (ocol t.val q) := by
  have h0 : ¬t.val % 4 = 0 := by omega
  have hacc := acc_eq V c t.val t.isLt p q
  rw [outsAt1_C V c t h0 h3] at hacc ⊢
  dsimp only at hacc ⊢
  rw [sout_C (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h3) (iblk1 V c 0 t) (iblk1 V c 1 t) (outsAt1 V c (t.val - 1) (Nat.lt_of_le_of_lt (Nat.sub_le _ _) t.isLt)).2] at hacc
  rw [out_C (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h3) (iblk1 V c 0 t) (iblk1 V c 1 t) (outsAt1 V c (t.val - 1) (Nat.lt_of_le_of_lt (Nat.sub_le _ _) t.isLt)).2]
  rw [pay3_apply, hacc, h3]
  unfold Cert.Spec.readout partialSum blockProd
  exact congrArg (fun s => Ideal.div s (Ideal.ofBits .f32 0x46000000#32))
    (sum_blocks (prodAt (V c main_v1) (V c main_v2) (row t.val p) (ocol t.val q)))

/-! ## From the blocks to the array -/

/-- The readout of the arrays the region is entered with, as contents of the output array. -/
abbrev G (c : Dev nD) : Buf (Elt Ideal) ((c : Thread nD τ).loc main_v3) :=
  Cert.Spec.readoutArr (V c main_v1) (V c main_v2)

/-- What a point with k = 3 writes back is its block of the readout. -/
theorem flushed_eq (c : Dev nD) (t : Fin cfg1.N) (hf : (cfg1.win 2).flush t = true) :
    (dat1 V c).flushed 2 t = ((cfg1.win 2).blk t).view.read (Elt Ideal) (G V c) := by
  have h3 : t.val % 4 = 3 := (flush1_2 t).mp hf
  obtain ⟨-, -, -, -, e0, e1⟩ := idx_facts t
  show (cfg1.win 2).cut (grid1.coords t) ((dat1 V c).after 2 t) = _
  rw [after1_2]
  show ((outsAt1 V c t.val t.isLt).1 : S128x1024.Idx → EReal) = fun j : S128x1024.Idx => G V c (((cfg1.win 2).blk t).view.emb j)
  funext j
  obtain ⟨p, q, rfl⟩ : ∃ (p : Fin 128) (q : Fin 1024), j = ix2 p q := ⟨j 0, j 1, eq_ix2 j⟩
  rw [out_eq V c t h3 p q]
  have he : ((cfg1.win 2).blk t).view.emb (ix2 p q) = (ix2 (row t.val p) (ocol t.val q) : S512x4096.Idx) := by
    funext a; apply Fin.ext
    match a with
    | ⟨0, _⟩ => show win1_2.index t (0 : Fin 2) * 128 + 1 * p.val = 128 * (t.val / 16 % 4) + p.val; rw [e0]; omega
    | ⟨1, _⟩ => show win1_2.index t (1 : Fin 2) * 1024 + 1 * q.val = 1024 * (t.val / 4 % 4) + q.val; rw [e1]; omega
  rw [he]
  exact (Cert.Spec.readoutArr_apply _ _ _ _).symm

theorem mem_blk (t : Fin cfg1.N) (i : S512x4096.Idx) :
    i ∈ ((cfg1.win 2).blk t).view.set ↔ ∀ a : Fin 2, win1_2.index t a * S128x1024.size a ≤ (i a).val ∧ (i a).val < win1_2.index t a * S128x1024.size a + S128x1024.size a := by
  show i ∈ ((View.whole main_v3).slice (win1_2.rect t)).set ↔ _
  rw [View.set_slice_whole, Rect.mem_set_unit]
  exact Iff.rfl

/-- Every entry of the output array lies in the block some point with k = 3 writes back: entry (b, o) in that of
    point 16 (b / 128) + 4 (o / 1024) + 3. -/
theorem cover (c : Dev nD) (i : S512x4096.Idx) :
    ∃ t : Fin cfg1.N, (cfg1.win 2).flush t = true ∧ i ∈ ((cfg1.win 2).blk t).view.set := by
  have hi0 : (i 0).val < 512 := (i 0).isLt
  have hi1 : (i 1).val < 4096 := (i 1).isLt
  have hN : cfg1.N = 64 := N_1
  let t : Fin cfg1.N := ⟨16 * ((i 0).val / 128) + 4 * ((i 1).val / 1024) + 3, by omega⟩
  have ht : t.val = 16 * ((i 0).val / 128) + 4 * ((i 1).val / 1024) + 3 := rfl
  obtain ⟨-, -, -, -, e0, e1⟩ := idx_facts t
  refine ⟨t, (flush1_2 t).mpr (by omega), ?_⟩
  rw [mem_blk]
  intro a
  match a with
  | ⟨0, _⟩ => show win1_2.index t (0 : Fin 2) * 128 ≤ (i 0).val ∧ (i 0).val < win1_2.index t (0 : Fin 2) * 128 + 128; rw [e0, ht]; omega
  | ⟨1, _⟩ => show win1_2.index t (1 : Fin 2) * 1024 ≤ (i 1).val ∧ (i 1).val < win1_2.index t (1 : Fin 2) * 1024 + 1024; rw [e1, ht]; omega

/-- THE OUTPUT ARRAY after the region is the readout of the two arrays it was entered with. -/
theorem final_arr (c : Dev nD) : (dat1 V c).arrAt 2 cfg1.N = G V c :=
  (dat1 V c).arrAt_eq_of_cover 2 (G V c) (flushed_eq V c) (cover c)

theorem final1 (c : Dev nD) (b : Fin 512) (i : Fin 4096) :
    (dat1 (F := Ideal) V c).arrAt 2 cfg1.N (ValueIdx.ix2 b i) = Cert.Spec.readout (V c main_v1) (V c main_v2) b i := by
  rw [final_arr V c]
  exact Cert.Spec.readoutArr_apply _ _ b i

/-- The same as an equation of arrays. -/
theorem final1_arr (c : Dev nD) :
    ((dat1 V c).arrAt 2 cfg1.N : S512x4096.Idx → EReal) = Cert.Spec.readoutArr (V c main_v1) (V c main_v2) :=
  final_arr V c

end IdealValue

end Cert.KernelIdeal.Reg1

end
-- ==== Proof.lean ====
/-
  The certificate's claim: the kernel and its idealization run to the end leaving their arguments as launched, so does
  the reference; the idealization is the kernel's sanctioned one; and over the extended reals the idealized kernel and the
  reference end with equal results.

  Both programs compute, for a row `b` of the batch, the hidden code `sign (∑ n, sign ((∑ f, x[b,n,f]·W1[h,f])·bp[n,h]))`
  of every hidden unit `h`, and the readout `(∑ h, code[b,h]·W2[i,h]) / 8192` of every output `i`. The kernel computes the
  inner product of a band in three pieces, from each factor's bfloat16 part and the remainder `a − bf16(a)`; over the
  extended reals the bfloat16 part of a REAL `a` is `a` and the remainder `0`, so two of the three pieces vanish — this
  is where the precondition is used: at an infinite entry `a − a` is not `0`. Its sign, spelt with comparisons and a
  select, is the order's sign on every extended real. It adds the bands' signs one at a time from `0`, the reference all
  at once; and it accumulates the readout's inner product over four blocks of 2048 hidden units, the reference in one
  sum: both are regroupings of one sum.
-/
import proofs.«110471_j26396869001917_1_alg».proof.Defs
import proofs.«110471_j26396869001917_1_alg».proof.Proof.Gen.Kernel
import proofs.«110471_j26396869001917_1_alg».proof.Proof.Gen.KernelIdeal
import proofs.«110471_j26396869001917_1_alg».proof.Proof.Gen.ReferenceIdeal
import proofs.«110471_j26396869001917_1_alg».proof.Proof.Gen.Pre_finite_inputs
import proofs.«110471_j26396869001917_1_alg».proof.Proof.Gen.ReferenceIdeal.Run
import proofs.«110471_j26396869001917_1_alg».proof.Proof.Preserves
import proofs.«110471_j26396869001917_1_alg».proof.Proof.RefValue
import proofs.«110471_j26396869001917_1_alg».proof.Proof.Finite
import proofs.«110471_j26396869001917_1_alg».proof.Proof.IdealValue
import proofs.«110471_j26396869001917_1_alg».proof.Proof.BitsWhole
import proofs.«110471_j26396869001917_1_alg».proof.Proof.IdealRegion0
import proofs.«110471_j26396869001917_1_alg».proof.Proof.IdealRegion1
import proofs.«110471_j26396869001917_1_alg».proof.Proof.BitsRegion0
import proofs.«110471_j26396869001917_1_alg».proof.Proof.BitsRegion1
import proofs.«110471_j26396869001917_1_alg».proof.Proof.Region0Final
import proofs.«110471_j26396869001917_1_alg».proof.Proof.IdealRegion1Value
import Idealize.ShloMosaic.Adequacy
import Idealize.ShloMosaic.Init

noncomputable section

namespace Cert.Proof

open Idealize.ShloMosaic Idealize.SL.Sem Idealize.SL.BI

/-! ## The two pipelines' data -/

/-- The idealized kernel's first pipeline: the body's invariant is the class's at every point. -/
def idealR0 {F : FTy → Type} [FloatOps F] : Cert.KernelIdeal.Whole.Region0 F where
  dat V c := Cert.KernelIdeal.Reg0.dat0 V c
  hA V c w := Cert.KernelIdeal.Reg0.A_eq0 V c w
  hq _ _ _ := rfl
  howed _ _ _ := rfl
  hrec _ _ _ := rfl
  hbody V c := Cert.KernelIdeal.Reg0.body_obligation0 V c
  hin _ _ := Entails.refl _
  hout _ _ := Entails.refl _

/-- The idealized kernel's second pipeline: the invariant carries the accumulator from point to point. -/
def idealR1 {F : FTy → Type} [FloatOps F] : Cert.KernelIdeal.Whole.Region1 F where
  dat V c := Cert.KernelIdeal.Reg1.dat1 V c
  hA V c w := Cert.KernelIdeal.Reg1.A_eq1 V c w
  hq _ _ _ := rfl
  howed _ _ _ := rfl
  hrec _ _ _ := rfl
  hbody V c := Cert.KernelIdeal.Reg1.body_obligation1 V c
  hin V c := Cert.KernelIdeal.Reg1.hin1 V c
  hout V c := Cert.KernelIdeal.Reg1.hout1 V c

/-- The word-level kernel's first pipeline. -/
def bitsR0 {F : FTy → Type} [BitOps F] : Cert.Kernel.Whole.Region0 F where
  dat V c := Cert.Kernel.Reg0.dat0 V c
  hA V c w := Cert.Kernel.Reg0.A_eq0 V c w
  hq _ _ _ := rfl
  howed _ _ _ := rfl
  hrec _ _ _ := rfl
  hbody V c := Cert.Kernel.Reg0.body_obligation0 V c
  hin _ _ := Entails.refl _
  hout _ _ := Entails.refl _

/-- The word-level kernel's second pipeline. -/
def bitsR1 {F : FTy → Type} [BitOps F] : Cert.Kernel.Whole.Region1 F where
  dat V c := Cert.Kernel.Reg1.dat1 V c
  hA V c w := Cert.Kernel.Reg1.A_eq1 V c w
  hq _ _ _ := rfl
  howed _ _ _ := rfl
  hrec _ _ _ := rfl
  hbody V c := Cert.Kernel.Reg1.body_obligation1 V c
  hin V c := Cert.Kernel.Reg1.hin1 V c
  hout V c := Cert.Kernel.Reg1.hout1 V c

/-! ## The claims -/

theorem frame_k : Cert.frame_Kernel := fun m ρ _ => Cert.Kernel.Whole.frame bitsR0 bitsR1 m ρ

theorem frame_ki : Cert.frame_KernelIdeal := fun m ρ _ => Cert.KernelIdeal.Whole.frame idealR0 idealR1 m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both runs end at the specification's arrays of the (agreeing) arguments. -/
theorem algebraic : Cert.algebraic_KernelIdeal_ReferenceIdeal := by
  intro m ρ m' ρ' hpre hagree
  have hfin := fun c => Cert.Finite.reals _ _ _ _ (hpre c)
  refine ⟨_, _, Cert.KernelIdeal.Whole.run_spec idealR0 idealR1 m ρ
      (fun c => Cert.KernelIdeal.Reg0.final0 (Cert.KernelIdeal.Whole.V0 m ρ) c (hfin c).1 (hfin c).2.1)
      (fun V c => Cert.KernelIdeal.Reg1.final1_arr V c), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v10_eq, Cert.RefValue.readoutArr_eq,
      (hagree c).1, (hagree c).2.1, (hagree c).2.2.1, (hagree c).2.2.2]
  · rw [(h c).2.1, Cert.ReferenceIdeal.Read.val_main_v6_eq, Cert.RefValue.codeArr_eq,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, Cert.Proof.preserves, algebraic⟩

end Cert.Proof

end
